-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S500000 : Shape := ⟨1, ![500000]⟩
abbrev S16000000 : Shape := ⟨1, ![16000000]⟩
abbrev S2x10 : Shape := ⟨2, ![2, 10]⟩
abbrev S10 : Shape := ⟨1, ![10]⟩
abbrev S1x10 : Shape := ⟨2, ![1, 10]⟩
abbrev S10x10 : Shape := ⟨2, ![10, 10]⟩
abbrev S10x1 : Shape := ⟨2, ![10, 1]⟩
abbrev S1 : Shape := ⟨1, ![1]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S500000 : S_.BroadcastsInDim S500000 (![] : Fin 0 → Fin S500000.rank)
  reducesTo_S500000_S_d0 : S500000.ReducesTo [0] S_
  bcast_S_S16000000 : S_.BroadcastsInDim S16000000 (![] : Fin 0 → Fin S16000000.rank)
  reducesTo_S16000000_S_d0 : S16000000.ReducesTo [0] S_
  bcast_S_S2x10 : S_.BroadcastsInDim S2x10 (![] : Fin 0 → Fin S2x10.rank)
  reducesTo_S2x10_S_d0_1 : S2x10.ReducesTo [0, 1] S_
  bcast_S_S10 : S_.BroadcastsInDim S10 (![] : Fin 0 → Fin S10.rank)
  reducesTo_S10_S_d0 : S10.ReducesTo [0] S_
  bcast_S_S1x10 : S_.BroadcastsInDim S1x10 (![] : Fin 0 → Fin S1x10.rank)
  reducesTo_S1x10_S_d0_1 : S1x10.ReducesTo [0, 1] S_
  bcast_S_S10x10 : S_.BroadcastsInDim S10x10 (![] : Fin 0 → Fin S10x10.rank)
  reducesTo_S10x10_S_d0_1 : S10x10.ReducesTo [0, 1] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S10x10 .f32) (main_arg17 : FVec F S10 .f32) (main_arg18 : FVec F S10x1 .f32) (main_arg19 : FVec F S1 .f32) (main_v63 : IVec S_ 1) (main_v67 : IVec S_ 1) : IVec S_ 1 :=
  let main_v68 : IVec S_ 1 := andi main_v63 main_v67
  let main_v69 : FVec F S10x10 .f32 := Host.absf main_arg16
  let main_cst_26 : FVec F S_ .f32 := constant S_ .f32 0x7F800000#32
  let main_v70 : FVec F S10x10 .f32 := broadcastInDim S10x10 ![] bcast_S_S10x10 main_cst_26
  let main_v71 : IVec S10x10 1 := cmpf .olt main_v69 main_v70
  let main_c_27 : IVec S_ 1 := constantI S_ 1 1#1
  let main_v72 : IVec S_ 1 := (fun x v => Host.reduce IntOp.andi x v reducesTo_S10x10_S_d0_1 h_S_) main_v71 main_c_27
  let main_v73 : IVec S_ 1 := andi main_v68 main_v72
  let main_v74 : FVec F S10 .f32 := Host.absf main_arg17
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_v79 : FVec F S10x1 .f32 := Host.absf main_arg18
  let main_cst_30 : FVec F S_ .f32 := constant S_ .f32 0x7F800000#32
  let main_v80 : FVec F S10x1 .f32 := broadcastInDim S10x1 ![] bcast_S_S10x1 main_cst_30
  let main_v81 : IVec S10x1 1 := cmpf .olt main_v79 main_v80
  let main_c_31 : IVec S_ 1 := constantI S_ 1 1#1
  let main_v82 : IVec S_ 1 := (fun x v => Host.reduce IntOp.andi x v reducesTo_S10x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S10 .f32) (main_arg14 : FVec F S10x10 .f32) (main_arg15 : FVec F S10 .f32) (main_arg16 : FVec F S10x10 .f32) (main_arg17 : FVec F S10 .f32) (main_arg18 : FVec F S10x1 .f32) (main_arg19 : FVec F S1 .f32) (main_v48 : IVec S_ 1) (main_v49 : FVec F S10x10 .f32) (main_v50 : FVec F S10x10 .f32) : IVec S_ 1 :=
  let main_v51 : IVec S10x10 1 := cmpf .olt main_v49 main_v50
  let main_c_19 : IVec S_ 1 := constantI S_ 1 1#1
  let main_v52 : IVec S_ 1 := (fun x v => Host.reduce IntOp.andi x v reducesTo_S10x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10x10 .f32 := Host.absf main_arg14
  let main_cst_22 : FVec F S_ .f32 := constant S_ .f32 0x7F800000#32
  let main_v60 : FVec F S10x10 .f32 := broadcastInDim S10x10 ![] bcast_S_S10x10 main_cst_22
  let main_v61 : IVec S10x10 1 := cmpf .olt main_v59 main_v60
  let main_c_23 : IVec S_ 1 := constantI S_ 1 1#1
  let main_v62 : IVec S_ 1 := (fun x v => Host.reduce IntOp.andi x v reducesTo_S10x10_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg16 main_arg17 main_arg18 main_arg19 main_v63 main_v67

def fn_part2 {F : FTy → Type} [FloatOps F] (main_arg9 : FVec F S10 .f32) (main_arg10 : FVec F S10x10 .f32) (main_arg11 : FVec F S10 .f32) (main_arg12 : FVec F S10x10 .f32) (main_arg13 : FVec F S10 .f32) (main_arg14 : FVec F S10x10 .f32) (main_arg15 : FVec F S10 .f32) (main_arg16 : FVec F S10x10 .f32) (main_arg17 : FVec F S10 .f32) (main_arg18 : FVec F S10x1 .f32) (main_arg19 : FVec F S1 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10x10 .f32 := Host.absf main_arg10
  let main_cst_14 : FVec F S_ .f32 := constant S_ .f32 0x7F800000#32
  let main_v40 : FVec F S10x10 .f32 := broadcastInDim S10x10 ![] bcast_S_S10x10 main_cst_14
  let main_v41 : IVec S10x10 1 := cmpf .olt main_v39 main_v40
  let main_c_15 : IVec S_ 1 := constantI S_ 1 1#1
  let main_v42 : IVec S_ 1 := (fun x v => Host.reduce IntOp.andi x v reducesTo_S10x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S10x10 .f32 := Host.absf main_arg12
  let main_cst_18 : FVec F S_ .f32 := constant S_ .f32 0x7F800000#32
  let main_v50 : FVec F S10x10 .f32 := broadcastInDim S10x10 ![] bcast_S_S10x10 main_cst_18
  fn_part3 (F := F) main_arg13 main_arg14 main_arg15 main_arg16 main_arg17 main_arg18 main_arg19 main_v48 main_v49 main_v50

def fn_part1 {F : FTy → Type} [FloatOps F] (main_arg6 : FVec F S2x10 .f32) (main_arg7 : FVec F S10 .f32) (main_arg8 : FVec F S1x10 .f32) (main_arg9 : FVec F S10 .f32) (main_arg10 : FVec F S10x10 .f32) (main_arg11 : FVec F S10 .f32) (main_arg12 : FVec F S10x10 .f32) (main_arg13 : FVec F S10 .f32) (main_arg14 : FVec F S10x10 .f32) (main_arg15 : FVec F S10 .f32) (main_arg16 : FVec F S10x10 .f32) (main_arg17 : FVec F S10 .f32) (main_arg18 : FVec F S10x1 .f32) (main_arg19 : FVec F S1 .f32) (main_v13 : IVec S_ 1) (main_v16 : IVec S16000000 1) : IVec S_ 1 :=
  let main_c_5 : IVec S_ 1 := constantI S_ 1 1#1
  let main_v17 : IVec S_ 1 := (fun x v => Host.reduce IntOp.andi x v reducesTo_S16000000_S_d0 h_S_) main_v16 main_c_5
  let main_v18 : IVec S_ 1 := andi main_v13 main_v17
  let main_v19 : FVec F S2x10 .f32 := Host.absf main_arg6
  let main_cst_6 : FVec F S_ .f32 := constant S_ .f32 0x7F800000#32
  let main_v20 : FVec F S2x10 .f32 := broadcastInDim S2x10 ![] bcast_S_S2x10 main_cst_6
  let main_v21 : IVec S2x10 1 := cmpf .olt main_v19 main_v20
  let main_c_7 : IVec S_ 1 := constantI S_ 1 1#1
  let main_v22 : IVec S_ 1 := (fun x v => Host.reduce IntOp.andi x v reducesTo_S2x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S1x10 .f32 := Host.absf main_arg8
  let main_cst_10 : FVec F S_ .f32 := constant S_ .f32 0x7F800000#32
  let main_v30 : FVec F S1x10 .f32 := broadcastInDim S1x10 ![] bcast_S_S1x10 main_cst_10
  let main_v31 : IVec S1x10 1 := cmpf .olt main_v29 main_v30
  let main_c_11 : IVec S_ 1 := constantI S_ 1 1#1
  let main_v32 : IVec S_ 1 := (fun x v => Host.reduce IntOp.andi x v reducesTo_S1x10_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S1000000 .f32) (main_arg1 : FVec F S1000000 .f32) (main_arg2 : FVec F S500000 .f32) (main_arg3 : FVec F S16000000 .f32) (main_arg4 : IVec S16000000 32) (main_arg5 : IVec S16000000 32) (main_arg6 : FVec F S2x10 .f32) (main_arg7 : FVec F S10 .f32) (main_arg8 : FVec F S1x10 .f32) (main_arg9 : FVec F S10 .f32) (main_arg10 : FVec F S10x10 .f32) (main_arg11 : FVec F S10 .f32) (main_arg12 : FVec F S10x10 .f32) (main_arg13 : FVec F S10 .f32) (main_arg14 : FVec F S10x10 .f32) (main_arg15 : FVec F S10 .f32) (main_arg16 : FVec F S10x10 .f32) (main_arg17 : FVec F S10 .f32) (main_arg18 : FVec F S10x1 .f32) (main_arg19 : FVec F S1 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S500000 .f32 := Host.absf main_arg2
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S16000000 .f32 := Host.absf main_arg3
  let main_cst_4 : FVec F S_ .f32 := constant S_ .f32 0x7F800000#32
  let main_v15 : FVec F S16000000 .f32 := broadcastInDim S16000000 ![] bcast_S_S16000000 main_cst_4
  let main_v16 : IVec S16000000 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S1000000 : Shape := ⟨1, ![1000000]⟩
abbrev S500000 : Shape := ⟨1, ![500000]⟩
abbrev S16000000 : Shape := ⟨1, ![16000000]⟩
abbrev S2x10 : Shape := ⟨2, ![2, 10]⟩
abbrev S10 : Shape := ⟨1, ![10]⟩
abbrev S1x10 : Shape := ⟨2, ![1, 10]⟩
abbrev S10x10 : Shape := ⟨2, ![10, 10]⟩
abbrev S10x1 : Shape := ⟨2, ![10, 1]⟩
abbrev S1 : Shape := ⟨1, ![1]⟩
abbrev S_ : Shape := ⟨0, ![]⟩
abbrev S16000000x1 : Shape := ⟨2, ![16000000, 1]⟩
abbrev S1000000x1 : Shape := ⟨2, ![1000000, 1]⟩
abbrev S500000x1 : Shape := ⟨2, ![500000, 1]⟩
abbrev S1000000x3 : Shape := ⟨2, ![1000000, 3]⟩
abbrev S1x1 : Shape := ⟨2, ![1, 1]⟩
abbrev S1000000x10 : Shape := ⟨2, ![1000000, 10]⟩
abbrev S20000x3 : Shape := ⟨2, ![20000, 3]⟩
abbrev S20000x10 : Shape := ⟨2, ![20000, 10]⟩
abbrev S20000x1 : Shape := ⟨2, ![20000, 1]⟩
abbrev S20000x2 : Shape := ⟨2, ![20000, 2]⟩
abbrev S16000000x10 : Shape := ⟨2, ![16000000, 10]⟩
abbrev S500000x10 : Shape := ⟨2, ![500000, 10]⟩
abbrev S10000x10 : Shape := ⟨2, ![10000, 10]⟩
abbrev S10000x1 : Shape := ⟨2, ![10000, 1]⟩

abbrev nBuf : Space → Nat
  | .hbm => 91
  | .vmem => 28
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S500000, .f32⟩
  | .hbm, ⟨3, _⟩ => ⟨S16000000, .f32⟩
  | .hbm, ⟨4, _⟩ => ⟨S16000000, .i32⟩
  | .hbm, ⟨5, _⟩ => ⟨S16000000, .i32⟩
  | .hbm, ⟨6, _⟩ => ⟨S2x10, .f32⟩
  | .hbm, ⟨7, _⟩ => ⟨S10, .f32⟩
  | .hbm, ⟨8, _⟩ => ⟨S1x10, .f32⟩
  | .hbm, ⟨9, _⟩ => ⟨S10, .f32⟩
  | .hbm, ⟨10, _⟩ => ⟨S10x10, .f32⟩
  | .hbm, ⟨11, _⟩ => ⟨S10, .f32⟩
  | .hbm, ⟨12, _⟩ => ⟨S10x10, .f32⟩
  | .hbm, ⟨13, _⟩ => ⟨S10, .f32⟩
  | .hbm, ⟨14, _⟩ => ⟨S10x10, .f32⟩
  | .hbm, ⟨15, _⟩ => ⟨S10, .f32⟩
  | .hbm, ⟨16, _⟩ => ⟨S10x10, .f32⟩
  | .hbm, ⟨17, _⟩ => ⟨S10, .f32⟩
  | .hbm, ⟨18, _⟩ => ⟨S10x1, .f32⟩
  | .hbm, ⟨19, _⟩ => ⟨S1, .f32⟩
  | .hbm, ⟨20, _⟩ => ⟨S_, .f32⟩
  | .hbm, ⟨21, _⟩ => ⟨S16000000, .f32⟩
  | .hbm, ⟨22, _⟩ => ⟨S_, .f32⟩
  | .hbm, ⟨23, _⟩ => ⟨S1000000, .f32⟩
  | .hbm, ⟨24, _⟩ => ⟨S16000000x1, .i32⟩
  | .hbm, ⟨25, _⟩ => ⟨S1000000, .f32⟩
  | .hbm, ⟨26, _⟩ => ⟨S_, .f32⟩
  | .hbm, ⟨27, _⟩ => ⟨S_, .f32⟩
  | .hbm, ⟨28, _⟩ => ⟨S1000000, .f32⟩
  | .hbm, ⟨29, _⟩ => ⟨S1000000, .f32⟩
  | .hbm, ⟨30, _⟩ => ⟨S_, .f32⟩
  | .hbm, ⟨31, _⟩ => ⟨S500000, .f32⟩
  | .hbm, ⟨32, _⟩ => ⟨S16000000x1, .i32⟩
  | .hbm, ⟨33, _⟩ => ⟨S500000, .f32⟩
  | .hbm, ⟨34, _⟩ => ⟨S_, .f32⟩
  | .hbm, ⟨35, _⟩ => ⟨S_, .f32⟩
  | .hbm, ⟨36, _⟩ => ⟨S500000, .f32⟩
  | .hbm, ⟨37, _⟩ => ⟨S500000, .f32⟩
  | .hbm, ⟨38, _⟩ => ⟨S1000000x1, .f32⟩
  | .hbm, ⟨39, _⟩ => ⟨S_, .f32⟩
  | .hbm, ⟨40, _⟩ => ⟨S1000000x1, .f32⟩
  | .hbm, ⟨41, _⟩ => ⟨S1000000x1, .f32⟩
  | .hbm, ⟨42, _⟩ => ⟨S500000x1, .f32⟩
  | .hbm, ⟨43, _⟩ => ⟨S_, .f32⟩
  | .hbm, ⟨44, _⟩ => ⟨S500000x1, .f32⟩
  | .hbm, ⟨45, _⟩ => ⟨S500000x1, .f32⟩
  | .hbm, ⟨46, _⟩ => ⟨S1000000x1, .f32⟩
  | .hbm, ⟨47, _⟩ => ⟨S1000000x1, .f32⟩
  | .hbm, ⟨48, _⟩ => ⟨S1000000x3, .f32⟩
  | .hbm, ⟨49, _⟩ => ⟨S1x10, .f32⟩
  | .hbm, ⟨50, _⟩ => ⟨S1x10, .f32⟩
  | .hbm, ⟨51, _⟩ => ⟨S1x10, .f32⟩
  | .hbm, ⟨52, _⟩ => ⟨S1x10, .f32⟩
  | .hbm, ⟨53, _⟩ => ⟨S1x1, .f32⟩
  | .hbm, ⟨54, _⟩ => ⟨S1000000x10, .bf16⟩
  | .hbm, ⟨55, _⟩ => ⟨S_, .i32⟩
  | .hbm, ⟨56, _⟩ => ⟨S16000000, .i32⟩
  | .hbm, ⟨57, _⟩ => ⟨S16000000, .i1⟩
  | .hbm, ⟨58, _⟩ => ⟨S_, .i32⟩
  | .hbm, ⟨59, _⟩ => ⟨S16000000, .i32⟩
  | .hbm, ⟨60, _⟩ => ⟨S16000000, .i32⟩
  | .hbm, ⟨61, _⟩ => ⟨S16000000, .i32⟩
  | .hbm, ⟨62, _⟩ => ⟨S16000000x1, .i32⟩
  | .hbm, ⟨63, _⟩ => ⟨S16000000x10, .bf16⟩
  | .hbm, ⟨64, _⟩ => ⟨S16000000x10, .f32⟩
  | .hbm, ⟨65, _⟩ => ⟨S16000000x1, .f32⟩
  | .hbm, ⟨66, _⟩ => ⟨S16000000x10, .f32⟩
  | .hbm, ⟨67, _⟩ => ⟨S16000000x10, .f32⟩
  | .hbm, ⟨68, _⟩ => ⟨S_, .f32⟩
  | .hbm, ⟨69, _⟩ => ⟨S500000x10, .f32⟩
  | .hbm, ⟨70, _⟩ => ⟨S16000000x1, .i32⟩
  | .hbm, ⟨71, _⟩ => ⟨S500000x10, .f32⟩
  | .hbm, ⟨72, _⟩ => ⟨S500000x10, .bf16⟩
  | .hbm, ⟨73, _⟩ => ⟨S_, .i32⟩
  | .hbm, ⟨74, _⟩ => ⟨S16000000, .i32⟩
  | .hbm, ⟨75, _⟩ => ⟨S16000000, .i1⟩
  | .hbm, ⟨76, _⟩ => ⟨S_, .i32⟩
  | .hbm, ⟨77, _⟩ => ⟨S16000000, .i32⟩
  | .hbm, ⟨78, _⟩ => ⟨S16000000, .i32⟩
  | .hbm, ⟨79, _⟩ => ⟨S16000000, .i32⟩
  | .hbm, ⟨80, _⟩ => ⟨S16000000x1, .i32⟩
  | .hbm, ⟨81, _⟩ => ⟨S16000000x10, .bf16⟩
  | .hbm, ⟨82, _⟩ => ⟨S16000000x10, .f32⟩
  | .hbm, ⟨83, _⟩ => ⟨S16000000x1, .f32⟩
  | .hbm, ⟨84, _⟩ => ⟨S16000000x10, .f32⟩
  | .hbm, ⟨85, _⟩ => ⟨S16000000x10, .f32⟩
  | .hbm, ⟨86, _⟩ => ⟨S_, .f32⟩
  | .hbm, ⟨87, _⟩ => ⟨S1000000x10, .f32⟩
  | .hbm, ⟨88, _⟩ => ⟨S16000000x1, .i32⟩
  | .hbm, ⟨89, _⟩ => ⟨S1000000x10, .f32⟩
  | .hbm, ⟨90, _⟩ => ⟨S1x1, .f32⟩
  | .local _ .vmem, ⟨0, _⟩ => ⟨S20000x3, .f32⟩
  | .local _ .vmem, ⟨1, _⟩ => ⟨S20000x3, .f32⟩
  | .local _ .vmem, ⟨2, _⟩ => ⟨S2x10, .f32⟩
  | .local _ .vmem, ⟨3, _⟩ => ⟨S1x10, .f32⟩
  | .local _ .vmem, ⟨4, _⟩ => ⟨S10x10, .f32⟩
  | .local _ .vmem, ⟨5, _⟩ => ⟨S20000x10, .bf16⟩
  | .local _ .vmem, ⟨6, _⟩ => ⟨S20000x10, .bf16⟩
  | .local _ .vmem, ⟨7, _⟩ => ⟨S10000x10, .f32⟩
  | .local _ .vmem, ⟨8, _⟩ => ⟨S10000x10, .f32⟩
  | .local _ .vmem, ⟨9, _⟩ => ⟨S10000x1, .f32⟩
  | .local _ .vmem, ⟨10, _⟩ => ⟨S10000x1, .f32⟩
  | .local _ .vmem, ⟨11, _⟩ => ⟨S1x10, .f32⟩
  | .local _ .vmem, ⟨12, _⟩ => ⟨S10x10, .f32⟩
  | .local _ .vmem, ⟨13, _⟩ => ⟨S10000x10, .bf16⟩
  | .local _ .vmem, ⟨14, _⟩ => ⟨S10000x10, .bf16⟩
  | .local _ .vmem, ⟨15, _⟩ => ⟨S20000x10, .f32⟩
  | .local _ .vmem, ⟨16, _⟩ => ⟨S20000x10, .f32⟩
  | .local _ .vmem, ⟨17, _⟩ => ⟨S20000x1, .f32⟩
  | .local _ .vmem, ⟨18, _⟩ => ⟨S20000x1, .f32⟩
  | .local _ .vmem, ⟨19, _⟩ => ⟨S1x10, .f32⟩
  | .local _ .vmem, ⟨20, _⟩ => ⟨S10x10, .f32⟩
  | .local _ .vmem, ⟨21, _⟩ => ⟨S1x10, .f32⟩
  | .local _ .vmem, ⟨22, _⟩ => ⟨S10x10, .f32⟩
  | .local _ .vmem, ⟨23, _⟩ => ⟨S1x10, .f32⟩
  | .local _ .vmem, ⟨24, _⟩ => ⟨S10x1, .f32⟩
  | .local _ .vmem, ⟨25, _⟩ => ⟨S1x1, .f32⟩
  | .local _ .vmem, ⟨26, _⟩ => ⟨S1x1, .f32⟩
  | .local _ .vmem, ⟨27, _⟩ => ⟨S1x1, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v8 : Ref sig .tc := ⟨.hbm, 37, rfl⟩
abbrev main_v9 : Ref sig .tc := ⟨.hbm, 38, rfl⟩
abbrev main_cst_4 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_5 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c : Ref sig .tc := ⟨.hbm, 55, rfl⟩
abbrev main_v24 : Ref sig .tc := ⟨.hbm, 56, rfl⟩
abbrev main_v25 : Ref sig .tc := ⟨.hbm, 57, rfl⟩
abbrev main_c_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_7 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_8 : Ref sig .tc := ⟨.hbm, 73, rfl⟩
abbrev main_v39 : Ref sig .tc := ⟨.hbm, 74, rfl⟩
abbrev main_v40 : Ref sig .tc := ⟨.hbm, 75, rfl⟩
abbrev main_c_9 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_10 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S20000x10 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x10 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v44 : BitVec 1 := Scalar.cmpi .eq arg0 c49_i32
  let v45 : BitVec 32 := Scalar.extui v44
  let c0_i32_28 : BitVec 32 := 0#32
  let v46 : BitVec 1 := Scalar.cmpi .ne v45 c0_i32_28
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S20000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S10x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S10x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  bcast_S_S16000000 : S_.BroadcastsInDim S16000000 (![] : Fin 0 → Fin S16000000.rank)
  bcast_S_S1000000 : S_.BroadcastsInDim S1000000 (![] : Fin 0 → Fin S1000000.rank)
  bcast_S16000000_S16000000x1_0 : S16000000.BroadcastsInDim S16000000x1 (![0] : Fin 1 → Fin S16000000x1.rank)
  bcast_S_S500000 : S_.BroadcastsInDim S500000 (![] : Fin 0 → Fin S500000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S500000_S500000x1_0 : S500000.BroadcastsInDim S500000x1 (![0] : Fin 1 → Fin S500000x1.rank)
  bcast_S_S500000x1 : S_.BroadcastsInDim S500000x1 (![] : Fin 0 → Fin S500000x1.rank)
  concatenates_S1000000x1_S1000000x1_S1000000x1_S1000000x3_d1 : Shape.Concatenates [S1000000x1, S1000000x1, S1000000x1] S1000000x3 1
  shapeCasts_S10_S1x10 : S10.ShapeCasts S1x10
  shapeCasts_S1_S1x1 : S1.ShapeCasts S1x1
  inb_S20000x3_S20000x1_0_0 : ∀ a, (![0, 0] : Fin 2 → Nat) a + S20000x1.size a ≤ S20000x3.size a
  h_S20000x1 : 0 < S20000x1.numel
  shapeCasts_S20000x1_S20000x1 : S20000x1.ShapeCasts S20000x1
  inb_S20000x3_S20000x1_0_1 : ∀ a, (![0, 1] : Fin 2 → Nat) a + S20000x1.size a ≤ S20000x3.size a
  inb_S20000x3_S20000x1_0_2 : ∀ a, (![0, 2] : Fin 2 → Nat) a + S20000x1.size a ≤ S20000x3.size a
  concatenates_S20000x1_S20000x1_S20000x2_d1 : Shape.Concatenates [S20000x1, S20000x1] S20000x2 1
  inb_S2x10_S2x10_0_0 : ∀ a, (![0, 0] : Fin 2 → Nat) a + S2x10.size a ≤ S2x10.size a
  h_S2x10 : 0 < S2x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S20000x10 : S1x10.Broadcasts S20000x10
  broadcasts_S20000x1_S20000x10 : S20000x1.Broadcasts S20000x10
  inb_S10x10_S10x10_0_0 : ∀ a, (![0, 0] : Fin 2 → Nat) a + S10x10.size a ≤ S10x10.size a
  h_S10x10 : 0 < S10x10.numel
  bitsLt_bf16_f32 : FTy.bits .bf16 < FTy.bits .f32
  inb_S20000x10_S20000x10_0_0 : ∀ a, (![0, 0] : Fin 2 → Nat) a + S20000x10.size a ≤ S20000x10.size a
  h_S20000x10 : 0 < S20000x10.numel
  packedbf16_S20000x10_S20000x10_0_0 : (Rect.unit (s := S20000x10) ![0, 0] S20000x10.size inb_S20000x10_S20000x10_0_0).PackedRows (EltTy.packing .bf16)
  bcast_S16000000x1_S16000000x10_0_1 : S16000000x1.BroadcastsInDim S16000000x10 (![0, 1] : Fin 2 → Fin S16000000x10.rank)
  bcast_S_S500000x10 : S_.BroadcastsInDim S500000x10 (![] : Fin 0 → Fin S500000x10.rank)
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x10 : S10000x1.Broadcasts S10000x10
  broadcasts_S1x10_S10000x10 : S1x10.Broadcasts S10000x10
  packedbf16_S10000x10_S10000x10_0_0 : (Rect.unit (s := S10000x10) ![0, 0] S10000x10.size inb_S10000x10_S10000x10_0_0).PackedRows (EltTy.packing .bf16)
  bcast_S_S1000000x10 : S_.BroadcastsInDim S1000000x10 (![] : Fin 0 → Fin S1000000x10.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S20000x10_S20000x10 : S20000x10.ShapeCasts S20000x10
  inb_S20000x1_S20000x1_0_0 : ∀ a, (![0, 0] : Fin 2 → Nat) a + S20000x1.size a ≤ S20000x1.size a
  inb_S10x1_S10x1_0_0 : ∀ a, (![0, 0] : Fin 2 → Nat) a + S10x1.size a ≤ S10x1.size a
  h_S10x1 : 0 < S10x1.numel
  broadcasts_S1x1_S20000x1 : S1x1.Broadcasts S20000x1
  reduces_S20000x1_S1 : S20000x1.Reduces [0] S1
  scatter_S1000000_S16000000x1_S16000000_n_0_0_1_wf : ScatterDims.WF S1000000 S16000000x1 S16000000 [] [0] [0] 1
  scatter_S500000_S16000000x1_S16000000_n_0_0_1_wf : ScatterDims.WF S500000 S16000000x1 S16000000 [] [0] [0] 1
  dot_S20000x2_S2x10_S20000x10_1_0_0_1_n_n_wf : DotDims.WF S20000x2 S2x10 S20000x10 [1] [0] [0] [1] [] []
  dot_S20000x10_S10x10_S20000x10_1_0_0_1_n_n_wf : DotDims.WF S20000x10 S10x10 S20000x10 [1] [0] [0] [1] [] []
  gather_S1000000x10_S16000000x1_S16000000x10_1_0_n_n_0_1_110_wf : GatherDims.WF S1000000x10 S16000000x1 S16000000x10 [1] [0] [] [0] [] 1 ![1, 10]
  scatter_S500000x10_S16000000x1_S16000000x10_1_0_0_1_wf : ScatterDims.WF S500000x10 S16000000x1 S16000000x10 [1] [0] [0] 1
  dot_S10000x10_S10x10_S10000x10_1_0_0_1_n_n_wf : DotDims.WF S10000x10 S10x10 S10000x10 [1] [0] [0] [1] [] []
  gather_S500000x10_S16000000x1_S16000000x10_1_0_n_n_0_1_110_wf : GatherDims.WF S500000x10 S16000000x1 S16000000x10 [1] [0] [] [0] [] 1 ![1, 10]
  scatter_S1000000x10_S16000000x1_S16000000x10_1_0_0_1_wf : ScatterDims.WF S1000000x10 S16000000x1 S16000000x10 [1] [0] [0] 1
  dot_S20000x10_S10x1_S20000x1_1_0_0_1_n_n_wf : DotDims.WF S20000x10 S10x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x3.size a ≤ S1000000x3.size a
  hwx0_0 : ∀ i : grid0.Coords, EltTy.bits .f32 = 32 ∨ (Rect.block (s := S1000000x3) S20000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x10.size a ≤ S2x10.size a
  hwx0_1 : ∀ i : grid0.Coords, EltTy.bits .f32 = 32 ∨ (Rect.block (s := S2x10) S2x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .f32 = 32 ∨ (Rect.block (s := S10x10) S10x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S20000x10.size a ≤ S1000000x10.size a
  hwx0_4 : ∀ i : grid0.Coords, EltTy.bits .bf16 = 32 ∨ (Rect.block (s := S1000000x10) S20000x10.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x10.size a ≤ S500000x10.size a
  hwx1_0 : ∀ i : grid1.Coords, EltTy.bits .f32 = 32 ∨ (Rect.block (s := S500000x10) S10000x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S500000x1.size a
  hwx1_1 : ∀ i : grid1.Coords, EltTy.bits .f32 = 32 ∨ (Rect.block (s := S500000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x10.size a ≤ S10x10.size a
  hwx1_3 : ∀ i : grid1.Coords, EltTy.bits .f32 = 32 ∨ (Rect.block (s := S10x10) S10x10.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x10.size a ≤ S500000x10.size a
  hwx1_4 : ∀ i : grid1.Coords, EltTy.bits .bf16 = 32 ∨ (Rect.block (s := S500000x10) S10000x10.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x10.size a ≤ S1000000x10.size a
  hwx2_0 : ∀ i : grid2.Coords, EltTy.bits .f32 = 32 ∨ (Rect.block (s := S1000000x10) S20000x10.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x1.size a ≤ S1000000x1.size a
  hwx2_1 : ∀ i : grid2.Coords, EltTy.bits .f32 = 32 ∨ (Rect.block (s := S1000000x1) S20000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10x10.size a ≤ S10x10.size a
  hwx2_3 : ∀ i : grid2.Coords, EltTy.bits .f32 = 32 ∨ (Rect.block (s := S10x10) S10x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S10x10.size a ≤ S10x10.size a
  hwx2_5 : ∀ i : grid2.Coords, EltTy.bits .f32 = 32 ∨ (Rect.block (s := S10x10) S10x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S10x1.size a ≤ S10x1.size a
  hwx2_7 : ∀ i : grid2.Coords, EltTy.bits .f32 = 32 ∨ (Rect.block (s := S10x1) S10x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)

variable [Facts₀]

def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def dot_S20000x2_S2x10_S20000x10_1_0_0_1_n_n : DotDims S20000x2 S2x10 S20000x10 where
  lhsContracting := [1]
  rhsContracting := [0]
  lhsNonContracting := [0]
  rhsNonContracting := [1]
  lhsBatch := []
  rhsBatch := []
  wf := dot_S20000x2_S2x10_S20000x10_1_0_0_1_n_n_wf
def dot_S20000x10_S10x10_S20000x10_1_0_0_1_n_n : DotDims S20000x10 S10x10 S20000x10 where
  lhsContracting := [1]
  rhsContracting := [0]
  lhsNonContracting := [0]
  rhsNonContracting := [1]
  lhsBatch := []
  rhsBatch := []
  wf := dot_S20000x10_S10x10_S20000x10_1_0_0_1_n_n_wf
def gather_S1000000x10_S16000000x1_S16000000x10_1_0_n_n_0_1_110 : GatherDims S1000000x10 S16000000x1 S16000000x10 where
  offsetDims := [1]
  collapsedSliceDims := [0]
  operandBatchingDims := []
  startIndicesBatchingDims := []
  startIndexMap := [0]
  indexVectorDim := 1
  sliceSizes := ![1, 10]
  wf := gather_S1000000x10_S16000000x1_S16000000x10_1_0_n_n_0_1_110_wf
def scatter_S500000x10_S16000000x1_S16000000x10_1_0_0_1 : ScatterDims S500000x10 S16000000x1 S16000000x10 where
  updateWindowDims := [1]
  insertedWindowDims := [0]
  scatterDimsToOperandDims := [0]
  indexVectorDim := 1
  wf := scatter_S500000x10_S16000000x1_S16000000x10_1_0_0_1_wf
def dot_S10000x10_S10x10_S10000x10_1_0_0_1_n_n : DotDims S10000x10 S10x10 S10000x10 where
  lhsContracting := [1]
  rhsContracting := [0]
  lhsNonContracting := [0]
  rhsNonContracting := [1]
  lhsBatch := []
  rhsBatch := []
  wf := dot_S10000x10_S10x10_S10000x10_1_0_0_1_n_n_wf
def gather_S500000x10_S16000000x1_S16000000x10_1_0_n_n_0_1_110 : GatherDims S500000x10 S16000000x1 S16000000x10 where
  offsetDims := [1]
  collapsedSliceDims := [0]
  operandBatchingDims := []
  startIndicesBatchingDims := []
  startIndexMap := [0]
  indexVectorDim := 1
  sliceSizes := ![1, 10]
  wf := gather_S500000x10_S16000000x1_S16000000x10_1_0_n_n_0_1_110_wf
def scatter_S1000000x10_S16000000x1_S16000000x10_1_0_0_1 : ScatterDims S1000000x10 S16000000x1 S16000000x10 where
  updateWindowDims := [1]
  insertedWindowDims := [0]
  scatterDimsToOperandDims := [0]
  indexVectorDim := 1
  wf := scatter_S1000000x10_S16000000x1_S16000000x10_1_0_0_1_wf
def dot_S20000x10_S10x1_S20000x1_1_0_0_1_n_n : DotDims S20000x10 S10x1 S20000x1 where
  lhsContracting := [1]
  rhsContracting := [0]
  lhsNonContracting := [0]
  rhsNonContracting := [1]
  lhsBatch := []
  rhsBatch := []
  wf := dot_S20000x10_S10x1_S20000x1_1_0_0_1_n_n_wf

abbrev win0_0 : Pipeline.Window sig grid0 :=
  Pipeline.Window.ofSpec (Memref.whole main_v17) S20000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S2x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S20000x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v37) S10000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S10x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S10000x10.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S20000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S20000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S10x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S10x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg18) S10x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v22) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v53) S1x1.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | ⟨_ + 10, h⟩ => absurd h (Nat.not_lt.2 (Nat.le_add_left _ _))

class Facts : Prop extends Facts₀ where

variable [Facts]
-- ==== ReferenceIdeal.lean ====
abbrev S1000000 : Shape := ⟨1, ![1000000]⟩
abbrev S500000 : Shape := ⟨1, ![500000]⟩
abbrev S16000000 : Shape := ⟨1, ![16000000]⟩
abbrev S2x10 : Shape := ⟨2, ![2, 10]⟩
abbrev S10 : Shape := ⟨1, ![10]⟩
abbrev S1x10 : Shape := ⟨2, ![1, 10]⟩
abbrev S10x10 : Shape := ⟨2, ![10, 10]⟩
abbrev S10x1 : Shape := ⟨2, ![10, 1]⟩
abbrev S1 : Shape := ⟨1, ![1]⟩
abbrev S_ : Shape := ⟨0, ![]⟩
abbrev S16000000x1 : Shape := ⟨2, ![16000000, 1]⟩
abbrev S1000000x1 : Shape := ⟨2, ![1000000, 1]⟩
abbrev S500000x1 : Shape := ⟨2, ![500000, 1]⟩
abbrev S1000000x2 : Shape := ⟨2, ![1000000, 2]⟩
abbrev S1000000x10 : Shape := ⟨2, ![1000000, 10]⟩
abbrev S500000x10 : Shape := ⟨2, ![500000, 10]⟩
abbrev S16000000x10 : Shape := ⟨2, ![16000000, 10]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S1000000, .f32⟩
  | 1 => ⟨S1000000, .f32⟩
  | 2 => ⟨S500000, .f32⟩
  | 3 => ⟨S16000000, .f32⟩
  | 4 => ⟨S16000000, .i32⟩
  | 5 => ⟨S16000000, .i32⟩
  | 6 => ⟨S2x10, .f32⟩
  | 7 => ⟨S10, .f32⟩
  | 8 => ⟨S1x10, .f32⟩
  | 9 => ⟨S10, .f32⟩
  | 10 => ⟨S10x10, .f32⟩
  | 11 => ⟨S10, .f32⟩
  | 12 => ⟨S10x10, .f32⟩
  | 13 => ⟨S10, .f32⟩
  | 14 => ⟨S10x10, .f32⟩
  | 15 => ⟨S10, .f32⟩
  | 16 => ⟨S10x10, .f32⟩
  | 17 => ⟨S10, .f32⟩
  | 18 => ⟨S10x1, .f32⟩
  | 19 => ⟨S1, .f32⟩
  | 20 => ⟨S_, .f32⟩
  | 21 => ⟨S16000000, .f32⟩
  | 22 => ⟨S_, .f32⟩
  | 23 => ⟨S1000000, .f32⟩
  | 24 => ⟨S16000000x1, .i32⟩
  | 25 => ⟨S1000000, .f32⟩
  | 26 => ⟨S_, .f32⟩
  | 27 => ⟨S_, .f32⟩
  | 28 => ⟨S1000000, .f32⟩
  | 29 => ⟨S1000000, .f32⟩
  | 30 => ⟨S_, .f32⟩
  | 31 => ⟨S500000, .f32⟩
  | 32 => ⟨S16000000x1, .i32⟩
  | 33 => ⟨S500000, .f32⟩
  | 34 => ⟨S_, .f32⟩
  | 35 => ⟨S_, .f32⟩
  | 36 => ⟨S500000, .f32⟩
  | 37 => ⟨S500000, .f32⟩
  | 38 => ⟨S1000000x1, .f32⟩
  | 39 => ⟨S_, .f32⟩
  | 40 => ⟨S1000000x1, .f32⟩
  | 41 => ⟨S1000000x1, .f32⟩
  | 42 => ⟨S500000x1, .f32⟩
  | 43 => ⟨S_, .f32⟩
  | 44 => ⟨S500000x1, .f32⟩
  | 45 => ⟨S500000x1, .f32⟩
  | 46 => ⟨S1000000x1, .f32⟩
  | 47 => ⟨S1000000x1, .f32⟩
  | 48 => ⟨S1000000x2, .f32⟩
  | 49 => ⟨S1000000x10, .f32⟩
  | 50 => ⟨S1x10, .f32⟩
  | 51 => ⟨S1000000x10, .f32⟩
  | 52 => ⟨S1000000x10, .f32⟩
  | 53 => ⟨S_, .f32⟩
  | 54 => ⟨S1000000x10, .f32⟩
  | 55 => ⟨S1000000x10, .f32⟩
  | 56 => ⟨S500000x1, .f32⟩
  | 57 => ⟨S500000x10, .f32⟩
  | 58 => ⟨S1x10, .f32⟩
  | 59 => ⟨S500000x10, .f32⟩
  | 60 => ⟨S500000x10, .f32⟩
  | 61 => ⟨S_, .f32⟩
  | 62 => ⟨S500000x10, .f32⟩
  | 63 => ⟨S500000x10, .f32⟩
  | 64 => ⟨S1000000x10, .f32⟩
  | 65 => ⟨S1000000x10, .f32⟩
  | 66 => ⟨S1000000x10, .f32⟩
  | 67 => ⟨S_, .i32⟩
  | 68 => ⟨S16000000, .i32⟩
  | 69 => ⟨S16000000, .i1⟩
  | 70 => ⟨S_, .i32⟩
  | 71 => ⟨S16000000, .i32⟩
  | 72 => ⟨S16000000, .i32⟩
  | 73 => ⟨S16000000, .i32⟩
  | 74 => ⟨S16000000x1, .i32⟩
  | 75 => ⟨S16000000x10, .f32⟩
  | 76 => ⟨S16000000x1, .f32⟩
  | 77 => ⟨S16000000x10, .f32⟩
  | 78 => ⟨S16000000x10, .f32⟩
  | 79 => ⟨S_, .f32⟩
  | 80 => ⟨S500000x10, .f32⟩
  | 81 => ⟨S16000000x1, .i32⟩
  | 82 => ⟨S500000x10, .f32⟩
  | 83 => ⟨S500000x10, .f32⟩
  | 84 => ⟨S500000x10, .f32⟩
  | 85 => ⟨S1x10, .f32⟩
  | 86 => ⟨S500000x10, .f32⟩
  | 87 => ⟨S500000x10, .f32⟩
  | 88 => ⟨S_, .f32⟩
  | 89 => ⟨S500000x10, .f32⟩
  | 90 => ⟨S500000x10, .f32⟩
  | 91 => ⟨S500000x10, .f32⟩
  | 92 => ⟨S500000x10, .f32⟩
  | 93 => ⟨S500000x10, .f32⟩
  | 94 => ⟨S_, .i32⟩
  | 95 => ⟨S16000000, .i32⟩
  | 96 => ⟨S16000000, .i1⟩
  | 97 => ⟨S_, .i32⟩
  | 98 => ⟨S16000000, .i32⟩
  | 99 => ⟨S16000000, .i32⟩
  | 100 => ⟨S16000000, .i32⟩
  | 101 => ⟨S16000000x1, .i32⟩
  | 102 => ⟨S16000000x10, .f32⟩
  | 103 => ⟨S16000000x1, .f32⟩
  | 104 => ⟨S16000000x10, .f32⟩
  | 105 => ⟨S16000000x10, .f32⟩
  | 106 => ⟨S_, .f32⟩
  | 107 => ⟨S1000000x10, .f32⟩
  | 108 => ⟨S16000000x1, .i32⟩
  | 109 => ⟨S1000000x10, .f32⟩
  | 110 => ⟨S1000000x10, .f32⟩
  | 111 => ⟨S1000000x10, .f32⟩
  | 112 => ⟨S1x10, .f32⟩
  | 113 => ⟨S1000000x10, .f32⟩
  | 114 => ⟨S1000000x10, .f32⟩
  | 115 => ⟨S_, .f32⟩
  | 116 => ⟨S1000000x10, .f32⟩
  | 117 => ⟨S1000000x10, .f32⟩
  | 118 => ⟨S1000000x10, .f32⟩
  | 119 => ⟨S1x10, .f32⟩
  | 120 => ⟨S1000000x10, .f32⟩
  | 121 => ⟨S1000000x10, .f32⟩
  | 122 => ⟨S_, .f32⟩
  | 123 => ⟨S1000000x10, .f32⟩
  | 124 => ⟨S1000000x10, .f32⟩
  | 125 => ⟨S1000000x10, .f32⟩
  | 126 => ⟨S1x10, .f32⟩
  | 127 => ⟨S1000000x10, .f32⟩
  | _ => ⟨S1000000, .f32⟩

abbrev hbmTy0_1 (i : Nat) : BufTy := match i % 128 with
  | 0 => ⟨S1000000x10, .f32⟩
  | 1 => ⟨S_, .f32⟩
  | 2 => ⟨S1000000x10, .f32⟩
  | 3 => ⟨S1000000x10, .f32⟩
  | 4 => ⟨S1000000x1, .f32⟩
  | 5 => ⟨S1x1, .f32⟩
  | 6 => ⟨S1000000x1, .f32⟩
  | 7 => ⟨S1000000x1, .f32⟩
  | 8 => ⟨S_, .f32⟩
  | 9 => ⟨S1, .f32⟩
  | 10 => ⟨S1x1, .f32⟩
  | 11 => ⟨S_, .f32⟩
  | 12 => ⟨S1x1, .f32⟩
  | 13 => ⟨S1x1, .f32⟩
  | _ => ⟨S1000000, .f32⟩

abbrev hbmTy (i : Nat) : BufTy := match i / 128 with
  | 0 => hbmTy0_0 i
  | 1 => hbmTy0_1 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v8 : Ref sig .tc := ⟨.hbm, 37, rfl⟩
abbrev main_v9 : Ref sig .tc := ⟨.hbm, 38, rfl⟩
abbrev main_cst_4 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_5 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_call2_cst : Ref sig .tc := ⟨.hbm, 53, rfl⟩
abbrev main_call2_v0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_call3_cst : Ref sig .tc := ⟨.hbm, 61, rfl⟩
abbrev main_call3_v0 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c : Ref sig .tc := ⟨.hbm, 67, rfl⟩
abbrev main_v32 : Ref sig .tc := ⟨.hbm, 68, rfl⟩
abbrev main_v33 : Ref sig .tc := ⟨.hbm, 69, rfl⟩
abbrev main_c_6 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_7 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_call4_cst : Ref sig .tc := ⟨.hbm, 88, rfl⟩
abbrev main_call4_v0 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_c_8 : Ref sig .tc := ⟨.hbm, 94, rfl⟩
abbrev main_v54 : Ref sig .tc := ⟨.hbm, 95, rfl⟩
abbrev main_v55 : Ref sig .tc := ⟨.hbm, 96, rfl⟩
abbrev main_c_9 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_10 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_call5_cst : Ref sig .tc := ⟨.hbm, 115, rfl⟩
abbrev main_call5_v0 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_call6_cst : Ref sig .tc := ⟨.hbm, 122, rfl⟩
abbrev main_call6_v0 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_call7_cst : Ref sig .tc := ⟨.hbm, 129, rfl⟩
abbrev main_call7_v0 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_11 : Ref sig .tc := ⟨.hbm, 136, rfl⟩
abbrev main_v87 : Ref sig .tc := ⟨.hbm, 137, rfl⟩
abbrev main_v88 : Ref sig .tc := ⟨.hbm, 138, rfl⟩
abbrev main_cst_12 : Ref sig .tc := ⟨.hbm, 139, rfl⟩
abbrev main_v89 : Ref sig .tc := ⟨.hbm, 140, rfl⟩
abbrev main_v90 : Ref sig .tc := ⟨.hbm, 141, rfl⟩

abbrev nD : Nat := 1
abbrev τ : Topo := Topo.v7x

variable {F : FTy → Type} [FloatOps F]

class Facts₀ : Prop where
  bcast_S_S16000000 : S_.BroadcastsInDim S16000000 (![] : Fin 0 → Fin S16000000.rank)
  bcast_S_S1000000 : S_.BroadcastsInDim S1000000 (![] : Fin 0 → Fin S1000000.rank)
  bcast_S16000000_S16000000x1_0 : S16000000.BroadcastsInDim S16000000x1 (![0] : Fin 1 → Fin S16000000x1.rank)
  bcast_S_S500000 : S_.BroadcastsInDim S500000 (![] : Fin 0 → Fin S500000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S500000_S500000x1_0 : S500000.BroadcastsInDim S500000x1 (![0] : Fin 1 → Fin S500000x1.rank)
  bcast_S_S500000x1 : S_.BroadcastsInDim S500000x1 (![] : Fin 0 → Fin S500000x1.rank)
  concatenates_S1000000x1_S1000000x1_S1000000x2_d1 : Shape.Concatenates [S1000000x1, S1000000x1] S1000000x2 1
  bcast_S10_S1x10_1 : S10.BroadcastsInDim S1x10 (![1] : Fin 1 → Fin S1x10.rank)
  bcast_S1x10_S1000000x10_0_1 : S1x10.BroadcastsInDim S1000000x10 (![0, 1] : Fin 2 → Fin S1000000x10.rank)
  bcast_S_S1000000x10 : S_.BroadcastsInDim S1000000x10 (![] : Fin 0 → Fin S1000000x10.rank)
  bcast_S1x10_S500000x10_0_1 : S1x10.BroadcastsInDim S500000x10 (![0, 1] : Fin 2 → Fin S500000x10.rank)
  bcast_S_S500000x10 : S_.BroadcastsInDim S500000x10 (![] : Fin 0 → Fin S500000x10.rank)
  bcast_S1000000x1_S1000000x10_0_1 : S1000000x1.BroadcastsInDim S1000000x10 (![0, 1] : Fin 2 → Fin S1000000x10.rank)
  bcast_S16000000x1_S16000000x10_0_1 : S16000000x1.BroadcastsInDim S16000000x10 (![0, 1] : Fin 2 → Fin S16000000x10.rank)
  bcast_S500000x1_S500000x10_0_1 : S500000x1.BroadcastsInDim S500000x10 (![0, 1] : Fin 2 → Fin S500000x10.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1_d0 : S1000000x1.ReducesTo [0] S1
  h_S_ : 0 < S_.numel
  bcast_S_S1x1 : S_.BroadcastsInDim S1x1 (![] : Fin 0 → Fin S1x1.rank)
  scatter_S1000000_S16000000x1_S16000000_n_0_0_1_wf : ScatterDims.WF S1000000 S16000000x1 S16000000 [] [0] [0] 1
  scatter_S500000_S16000000x1_S16000000_n_0_0_1_wf : ScatterDims.WF S500000 S16000000x1 S16000000 [] [0] [0] 1
  dot_S1000000x2_S2x10_S1000000x10_1_0_0_1_n_n_wf : DotDims.WF S1000000x2 S2x10 S1000000x10 [1] [0] [0] [1] [] []
  dot_S500000x1_S1x10_S500000x10_1_0_0_1_n_n_wf : DotDims.WF S500000x1 S1x10 S500000x10 [1] [0] [0] [1] [] []
  dot_S1000000x10_S10x10_S1000000x10_1_0_0_1_n_n_wf : DotDims.WF S1000000x10 S10x10 S1000000x10 [1] [0] [0] [1] [] []
  gather_S1000000x10_S16000000x1_S16000000x10_1_0_n_n_0_1_110_wf : GatherDims.WF S1000000x10 S16000000x1 S16000000x10 [1] [0] [] [0] [] 1 ![1, 10]
  scatter_S500000x10_S16000000x1_S16000000x10_1_0_0_1_wf : ScatterDims.WF S500000x10 S16000000x1 S16000000x10 [1] [0] [0] 1
  dot_S500000x10_S10x10_S500000x10_1_0_0_1_n_n_wf : DotDims.WF S500000x10 S10x10 S500000x10 [1] [0] [0] [1] [] []
  gather_S500000x10_S16000000x1_S16000000x10_1_0_n_n_0_1_110_wf : GatherDims.WF S500000x10 S16000000x1 S16000000x10 [1] [0] [] [0] [] 1 ![1, 10]
  scatter_S1000000x10_S16000000x1_S16000000x10_1_0_0_1_wf : ScatterDims.WF S1000000x10 S16000000x1 S16000000x10 [1] [0] [0] 1
  dot_S1000000x10_S10x1_S1000000x1_1_0_0_1_n_n_wf : DotDims.WF S1000000x10 S10x1 S1000000x1 [1] [0] [0] [1] [] []

variable [Facts₀]

def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def dot_S1000000x2_S2x10_S1000000x10_1_0_0_1_n_n : DotDims S1000000x2 S2x10 S1000000x10 where
  lhsContracting := [1]
  rhsContracting := [0]
  lhsNonContracting := [0]
  rhsNonContracting := [1]
  lhsBatch := []
  rhsBatch := []
  wf := dot_S1000000x2_S2x10_S1000000x10_1_0_0_1_n_n_wf
def dot_S500000x1_S1x10_S500000x10_1_0_0_1_n_n : DotDims S500000x1 S1x10 S500000x10 where
  lhsContracting := [1]
  rhsContracting := [0]
  lhsNonContracting := [0]
  rhsNonContracting := [1]
  lhsBatch := []
  rhsBatch := []
  wf := dot_S500000x1_S1x10_S500000x10_1_0_0_1_n_n_wf
def dot_S1000000x10_S10x10_S1000000x10_1_0_0_1_n_n : DotDims S1000000x10 S10x10 S1000000x10 where
  lhsContracting := [1]
  rhsContracting := [0]
  lhsNonContracting := [0]
  rhsNonContracting := [1]
  lhsBatch := []
  rhsBatch := []
  wf := dot_S1000000x10_S10x10_S1000000x10_1_0_0_1_n_n_wf
def gather_S1000000x10_S16000000x1_S16000000x10_1_0_n_n_0_1_110 : GatherDims S1000000x10 S16000000x1 S16000000x10 where
  offsetDims := [1]
  collapsedSliceDims := [0]
  operandBatchingDims := []
  startIndicesBatchingDims := []
  startIndexMap := [0]
  indexVectorDim := 1
  sliceSizes := ![1, 10]
  wf := gather_S1000000x10_S16000000x1_S16000000x10_1_0_n_n_0_1_110_wf
def scatter_S500000x10_S16000000x1_S16000000x10_1_0_0_1 : ScatterDims S500000x10 S16000000x1 S16000000x10 where
  updateWindowDims := [1]
  insertedWindowDims := [0]
  scatterDimsToOperandDims := [0]
  indexVectorDim := 1
  wf := scatter_S500000x10_S16000000x1_S16000000x10_1_0_0_1_wf
def dot_S500000x10_S10x10_S500000x10_1_0_0_1_n_n : DotDims S500000x10 S10x10 S500000x10 where
  lhsContracting := [1]
  rhsContracting := [0]
  lhsNonContracting := [0]
  rhsNonContracting := [1]
  lhsBatch := []
  rhsBatch := []
  wf := dot_S500000x10_S10x10_S500000x10_1_0_0_1_n_n_wf
def gather_S500000x10_S16000000x1_S16000000x10_1_0_n_n_0_1_110 : GatherDims S500000x10 S16000000x1 S16000000x10 where
  offsetDims := [1]
  collapsedSliceDims := [0]
  operandBatchingDims := []
  startIndicesBatchingDims := []
  startIndexMap := [0]
  indexVectorDim := 1
  sliceSizes := ![1, 10]
  wf := gather_S500000x10_S16000000x1_S16000000x10_1_0_n_n_0_1_110_wf
def scatter_S1000000x10_S16000000x1_S16000000x10_1_0_0_1 : ScatterDims S1000000x10 S16000000x1 S16000000x10 where
  updateWindowDims := [1]
  insertedWindowDims := [0]
  scatterDimsToOperandDims := [0]
  indexVectorDim := 1
  wf := scatter_S1000000x10_S16000000x1_S16000000x10_1_0_0_1_wf
def dot_S1000000x10_S10x1_S1000000x1_1_0_0_1_n_n : DotDims S1000000x10 S10x1 S1000000x1 where
  lhsContracting := [1]
  rhsContracting := [0]
  lhsNonContracting := [0]
  rhsNonContracting := [1]
  lhsBatch := []
  rhsBatch := []
  wf := dot_S1000000x10_S10x1_S1000000x1_1_0_0_1_n_n_wf

class Facts : Prop extends Facts₀ where

variable [Facts]
-- ==== Proof.K.R0Defs.lean ====
/-
  The first launch (the embedding of the variable nodes followed by the shared linear map): the block of each
  operand at a grid point, read off the arrays the launch finds, and what the body leaves in the output's staging
  buffer as one term of the four input blocks — the three columns of the packed feature block, the two weights and
  the bias loaded whole, the body's arithmetic (the generated payload) stored over the whole block.
-/
import proofs.«116843_j64098091925532_2_alg».proof.Proof.Gen.Kernel.Launch
import proofs.«116843_j64098091925532_2_alg».proof.Proof.Gen.Kernel.Skeleton
import proofs.«116843_j64098091925532_2_alg».proof.Proof.Gen.Kernel.Points
import Idealize.ShloMosaic.Lib.Pipeline.FrameBody

noncomputable section

namespace Cert.Kernel.FrameH

open Idealize.ShloMosaic Idealize.ShloMosaic.TcCoe Idealize.SL.Sem
open Cert.Kernel Cert.Kernel.Gen

variable {F : FTy → Type} [FloatOps F]
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three unit-width column rectangles of the packed feature block, and the whole-block rectangles. -/
abbrev r0_c0 : Rect S20000x3 := Rect.unit (s := S20000x3) ![0, 0] S20000x1.size inb_S20000x3_S20000x1_0_0
abbrev r0_c1 : Rect S20000x3 := Rect.unit (s := S20000x3) ![0, 1] S20000x1.size inb_S20000x3_S20000x1_0_1
abbrev r0_c2 : Rect S20000x3 := Rect.unit (s := S20000x3) ![0, 2] S20000x1.size inb_S20000x3_S20000x1_0_2
abbrev r0_wv : Rect S2x10 := Rect.unit (s := S2x10) ![0, 0] S2x10.size inb_S2x10_S2x10_0_0
abbrev r0_bv : Rect S1x10 := Rect.unit (s := S1x10) ![0, 0] S1x10.size inb_S1x10_S1x10_0_0
abbrev r0_w2 : Rect S10x10 := Rect.unit (s := S10x10) ![0, 0] S10x10.size inb_S10x10_S10x10_0_0
abbrev r0_o : Rect S20000x10 := Rect.unit (s := S20000x10) ![0, 0] S20000x10.size inb_S20000x10_S20000x10_0_0

/-- The output's staging buffer after the body, from the input blocks: its one store over the whole block. -/
def out0_4 (x0 : Vec F S20000x3 .f32) (x1 : Vec F S2x10 .f32) (x2 : Vec F S1x10 .f32) (x3 : Vec F S10x10 .f32) : Vec F S20000x10 .bf16 :=
  View.canon [⟨r0_o, k0_pay1 (View.ld x0 r0_c0) (View.ld x0 r0_c1) (View.ld x0 r0_c2) (View.ld x1 r0_wv) (View.ld x2 r0_bv) (View.ld x3 r0_w2)⟩]

end Cert.Kernel.FrameH

end
-- ==== Proof.K.R0.lean ====
/-
  The first launch (the embedding of the variable nodes followed by the shared linear map), its proof data and its
  body obligation at any entry contents `V`. Each input window's staging buffer holds its block at every grid
  point (the three small operands have a constant block index, so they are fetched once and kept); the body reads
  the three columns of the packed feature block and the three small operands whole, and stores its arithmetic over
  the whole output block, so after it the output's buffer is `out0_4` of the four input blocks.
-/
import proofs.«116843_j64098091925532_2_alg».proof.Proof.K.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axis
set_option maxRecDepth 16384

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Input window 0's current staging buffer holds its block at every point, fetched there or not, for any proof
    data whose array is the entry contents' and whose body leaves the block in place: unfetched, the block index
    has not moved, so the buffer still holds the same block. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents' and whose body leaves the block in place: unfetched, the block index
    has not moved, so the buffer still holds the same block. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents' and whose body leaves the block in place: unfetched, the block index
    has not moved, so the buffer still holds the same block. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents' and whose body leaves the block in place: unfetched, the block index
    has not moved, so the buffer still holds the same block. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The body's one store is over the whole block, so it covers it. -/
theorem cover0_4 (p0 : Vec F S20000x10 .bf16) (y : S20000x10.Idx) :
    ∃ pc ∈ ([⟨r0_o, p0⟩] : List (View.Piece (Elt F) S20000x10 .bf16)), y ∈ pc.1.set :=
  View.cover_of_tiled [⟨r0_o, p0⟩] S20000x10.size (by rfl) y

/-! ## The body's triple -/

set_option maxHeartbeats 1000000 in
/-- The body on whole staging memrefs, the inputs' at read contents `x0 … x3` and the output's at anything, runs to
    the continuation holding the inputs' as they were and the output's at `out0_4` of the inputs'. -/
theorem sound_kernel0 (c : Dev nD) (E : Set ℕ) (i : grid0.Coords)
    (arg1 : Memref sig .tc .vmem S20000x3 .f32) (harg1 : arg1.IsWhole) (arg2 : Memref sig .tc .vmem S2x10 .f32) (harg2 : arg2.IsWhole)
    (arg3 : Memref sig .tc .vmem S1x10 .f32) (harg3 : arg3.IsWhole) (arg4 : Memref sig .tc .vmem S10x10 .f32) (harg4 : arg4.IsWhole)
    (arg5 : Memref sig .tc .vmem S20000x10 .bf16) (harg5 : arg5.IsWhole)
    (x0 : Vec F S20000x3 .f32) (x1 : Vec F S2x10 .f32) (x2 : Vec F S1x10 .f32) (x3 : Vec F S10x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__embed_kernel i arg1 harg1 arg2 harg2 arg3 harg3 arg4 harg4 arg5 harg5) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the launch on core `c`: the arrays as the launch finds them; after the body at point `t` each
    input's buffer at its block and the output's at `out0_4` of the input blocks; the invariant the scoped rest and
    the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.FrameH

end
-- ==== Proof.K.R1Defs.lean ====
/-
  The second launch (bias, rectifier and degree scaling of the aggregated rows, then the shared linear map): the
  block of each operand at a grid point and what the body leaves in the output's staging buffer as one term of
  the four input blocks. The degree column is loaded twice by the body; both loads read the same block.
-/
import proofs.«116843_j64098091925532_2_alg».proof.Proof.Gen.Kernel.Launch
import proofs.«116843_j64098091925532_2_alg».proof.Proof.Gen.Kernel.Skeleton
import proofs.«116843_j64098091925532_2_alg».proof.Proof.Gen.Kernel.Points
import Idealize.ShloMosaic.Lib.Pipeline.FrameBody

noncomputable section

namespace Cert.Kernel.FrameH

open Idealize.ShloMosaic Idealize.ShloMosaic.TcCoe Idealize.SL.Sem
open Cert.Kernel Cert.Kernel.Gen

variable {F : FTy → Type} [FloatOps F]
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S10000x10 := Rect.unit (s := S10000x10) ![0, 0] S10000x10.size inb_S10000x10_S10000x10_0_0
abbrev r1_n : Rect S10000x1 := Rect.unit (s := S10000x1) ![0, 0] S10000x1.size inb_S10000x1_S10000x1_0_0
abbrev r1_b : Rect S1x10 := Rect.unit (s := S1x10) ![0, 0] S1x10.size inb_S1x10_S1x10_0_0
abbrev r1_w : Rect S10x10 := Rect.unit (s := S10x10) ![0, 0] S10x10.size inb_S10x10_S10x10_0_0

/-- The output's staging buffer after the body, from the input blocks: its one store over the whole block. -/
def out1_4 (x0 : Vec F S10000x10 .f32) (x1 : Vec F S10000x1 .f32) (x2 : Vec F S1x10 .f32) (x3 : Vec F S10x10 .f32) : Vec F S10000x10 .bf16 :=
  View.canon [⟨r1_a, k1_pay1 (View.ld x0 r1_a) (View.ld x1 r1_n) (View.ld x2 r1_b) (View.ld x1 r1_n) (View.ld x3 r1_w)⟩]

end Cert.Kernel.FrameH

end
-- ==== Proof.K.R1.lean ====
/-
  The second launch (bias, rectification and row scaling of the scattered sums, followed by the shared linear map),
  its proof data and its body obligation at any entry contents `V`. Each input window's staging buffer holds its
  block at every grid point (the bias and the weight have a constant block index, so they are fetched once and kept);
  the body reads the four operands whole (the row-scale column twice) and stores its arithmetic over the whole
  output block, so after it the output's buffer is `out1_4` of the four input blocks.
-/
import proofs.«116843_j64098091925532_2_alg».proof.Proof.K.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axis
set_option maxRecDepth 16384

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Input window 0's current staging buffer holds its block at every point, fetched there or not, for any proof
    data whose array is the entry contents' and whose body leaves the block in place: unfetched, the block index
    has not moved, so the buffer still holds the same block. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' and whose body leaves the block in place: unfetched, the block index
    has not moved, so the buffer still holds the same block. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' and whose body leaves the block in place: unfetched, the block index
    has not moved, so the buffer still holds the same block. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents' and whose body leaves the block in place: unfetched, the block index
    has not moved, so the buffer still holds the same block. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The body's one store is over the whole block, so it covers it. -/
theorem cover1_4 (p0 : Vec F S10000x10 .bf16) (y : S10000x10.Idx) :
    ∃ pc ∈ ([⟨r1_a, p0⟩] : List (View.Piece (Elt F) S10000x10 .bf16)), y ∈ pc.1.set :=
  View.cover_of_tiled [⟨r1_a, p0⟩] S10000x10.size (by rfl) y

/-! ## The body's triple -/

set_option maxHeartbeats 1000000 in
/-- The body on whole staging memrefs, the inputs' at read contents `x0 … x3` and the output's at anything, runs to
    the continuation holding the inputs' as they were and the output's at `out1_4` of the inputs'. -/
theorem sound_kernel1 (c : Dev nD) (E : Set ℕ) (i : grid1.Coords)
    (arg1 : Memref sig .tc .vmem S10000x10 .f32) (harg1 : arg1.IsWhole) (arg2 : Memref sig .tc .vmem S10000x1 .f32) (harg2 : arg2.IsWhole)
    (arg3 : Memref sig .tc .vmem S1x10 .f32) (harg3 : arg3.IsWhole) (arg4 : Memref sig .tc .vmem S10x10 .f32) (harg4 : arg4.IsWhole)
    (arg5 : Memref sig .tc .vmem S10000x10 .bf16) (harg5 : arg5.IsWhole)
    (x0 : Vec F S10000x10 .f32) (x1 : Vec F S10000x1 .f32) (x2 : Vec F S1x10 .f32) (x3 : Vec F S10x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gconv_kernel i arg1 harg1 arg2 harg2 arg3 harg3 arg4 harg4 arg5 harg5) K := by
  simp only [cc1__gconv_kernel_eq_skeleton]; unfold cc1__gconv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the launch on core `c`: the arrays as the launch finds them; after the body at point `t` each
    input's buffer at its block and the output's at `out1_4` of the input blocks; the invariant the scoped rest and
    the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.FrameH

end
-- ==== Proof.K.R2Runs.lean ====
/-
  The third launch (the multilayer map of each row tile, its row sum added to a running total kept in a one-cell
  scratch buffer, and at the last tile the total divided by the row count and stored into the one-cell output):
  what the body's runs at the three kinds of grid point share. The block of each operand at a grid point; that an
  input's staging buffer holds its block at every point, refetched or not; the two branch conditions of the body
  in closed form over the fifty points; where the output is left untouched and not written back; the staging and
  scratch buffers as the body is handed them; and the launch's resting invariant spelled buffer by buffer, with
  the scratch cell named apart from the other launches' staging buffers, which this launch never touches.
-/
import proofs.«116843_j64098091925532_2_alg».proof.Proof.Gen.Kernel.Launch
import proofs.«116843_j64098091925532_2_alg».proof.Proof.Gen.Kernel.Skeleton
import proofs.«116843_j64098091925532_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The operands' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, its
    block index has not moved), for any proof data over the entry contents whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, its
    block index has not moved), for any proof data over the entry contents whose body leaves the block in place. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, its
    block index has not moved), for any proof data over the entry contents whose body leaves the block in place. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, its
    block index has not moved), for any proof data over the entry contents whose body leaves the block in place. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, its
    block index has not moved), for any proof data over the entry contents whose body leaves the block in place. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, its
    block index has not moved), for any proof data over the entry contents whose body leaves the block in place. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (unfetched, its
    block index has not moved), for any proof data over the entry contents whose body leaves the block in place. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (unfetched, its
    block index has not moved), for any proof data over the entry contents whose body leaves the block in place. -/
theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not (unfetched, its
    block index has not moved), for any proof data over the entry contents whose body leaves the block in place. -/
theorem before2_8_of {c : Dev nD} (dat : Dat τ (Elt F) Unit ℕ (Pipeline.UD sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, over the grid -/

/-- The first branch (zero the running total) is taken when the grid coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 50 = 0 :=
  (by decide +kernel : ∀ t : Fin grid2.N, cond2_0 (grid2.coords t) ↔ t.val % 50 = 0)

/-- The second branch (divide the total and store the output) is taken when the grid coordinate is 49. -/
abbrev cond2_1 (i : grid2.Coords) : Prop := k2_cond2 i = 1#1
/-- It holds at the last point only. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
/-- At the first point the output is idle: nothing is stored into it and it is not written back. -/
theorem idleAt2_9_A : ∀ t : Fin cfg2.N, cond2_0 (grid2.coords t) → ¬cond2_1 (grid2.coords t) → cfg2.idle 9 (grid2.coords t) = true := by decide +kernel
theorem noFlush2_9_A : ∀ t : Fin cfg2.N, cond2_0 (grid2.coords t) → ¬cond2_1 (grid2.coords t) → (cfg2.win 9).flush t = false := by decide +kernel
/-- At the middle points likewise. -/
theorem idleAt2_9_B : ∀ t : Fin cfg2.N, ¬cond2_0 (grid2.coords t) → ¬cond2_1 (grid2.coords t) → cfg2.idle 9 (grid2.coords t) = true := by decide +kernel
theorem noFlush2_9_B : ∀ t : Fin cfg2.N, ¬cond2_0 (grid2.coords t) → ¬cond2_1 (grid2.coords t) → (cfg2.win 9).flush t = false := by decide +kernel
/-- At the last point the output is live: the body stores into it. -/
theorem liveAt2_9_C : ∀ t : Fin cfg2.N, ¬cond2_0 (grid2.coords t) → cond2_1 (grid2.coords t) → cfg2.idle 9 (grid2.coords t) = false := by decide +kernel

/-! ## The buffers the body is handed -/

/-- The output's one staging buffer as a view: its contents are stated through it. -/
abbrev VO2_9 : View sig .tc .vmem S1x1 .f32 := (Memref.whole cc2_stg9_0 : Memref sig .tc .vmem S1x1 .f32).view
abbrev ms2_0 (t : Fin cfg2.N) : Memref sig .tc .vmem S20000x10 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S20000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x10 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10x10 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x10 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S10x10 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x10 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S10x1 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x1 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x1 .f32 := win2_9.stage (cfg2.slots t 9)
abbrev hs2_9 (t : Fin cfg2.N) : (ms2_9 t).IsWhole := hstage2_9 ((cfg2.slots t 9).cast nbuf2_9)
/-- The scratch cell holding the running total: a whole scoped buffer of the kernel's own. -/
abbrev scM2_0 : Memref sig .tc .vmem S1x1 .f32 := Memref.whole cc2_scratch0
/-- The same as a view: what it holds is stated through it. -/
abbrev VS2_0 : View sig .tc .vmem S1x1 .f32 := scM2_0.view

/-- The launch's resting invariant, buffer by buffer: the other launches' staging buffers each at some contents, the
    scratch cell owned at some contents, and the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ d, owns (c : Thread nD τ) scM2_0 fullShare d)) ∗ (∃ r, prngReg c r)) := by
  unfold Pipeline.ΦA; rw [scopedRest2_eq]; simp only [scM2_0, owns_whole]; try rfl

end Cert.Kernel.FrameH

end
-- ==== Proof.K.R2RunA.lean ====
/-
  The body of the third launch run at the first grid point (the running total is zeroed first; the output is not stored):
  on whole staging buffers holding the nine input blocks, it ends with the inputs as they were and with the listed
  pieces written into the scratch cell (the output's buffer handed back untouched). The pieces are found by running the body's
  memory operations in order.
-/
import proofs.«116843_j64098091925532_2_alg».proof.Proof.K.R2Runs

set_option maxRecDepth 16384

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- The pieces the body's stores leave in the output's buffer and in the scratch cell (last store first), with the
    proof that the body runs from the stated buffers to a continuation holding them. -/
noncomputable def kernelRun2_A (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) :
    Σ' (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

end Cert.Kernel.FrameH

end
-- ==== Proof.K.R2RunB.lean ====
/-
  The body of the third launch run at a middle grid point (neither branch is taken: the row sum is added to the running total left by the point before):
  on whole staging buffers holding the nine input blocks, it ends with the inputs as they were and with the listed
  pieces written into the scratch cell (the output's buffer handed back untouched). The pieces are found by running the body's
  memory operations in order.
-/
import proofs.«116843_j64098091925532_2_alg».proof.Proof.K.R2Runs

set_option maxRecDepth 16384

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- The pieces the body's stores leave in the output's buffer and in the scratch cell (last store first), with the
    proof that the body runs from the stated buffers to a continuation holding them. -/
noncomputable def kernelRun2_B (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) :
    Σ' (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

end Cert.Kernel.FrameH

end
-- ==== Proof.K.R2RunC.lean ====
/-
  The body of the third launch run at the last grid point (the row sum is added to the running total, which is then read back, divided by the row count and stored into the output):
  on whole staging buffers holding the nine input blocks, it ends with the inputs as they were and with the listed
  pieces written into the scratch cell and into the output's buffer. The pieces are found by running the body's
  memory operations in order.
-/
import proofs.«116843_j64098091925532_2_alg».proof.Proof.K.R2Runs

set_option maxRecDepth 16384

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- The pieces the body's stores leave in the output's buffer and in the scratch cell (last store first), with the
    proof that the body runs from the stated buffers to a continuation holding them. -/
noncomputable def kernelRun2_C (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) :
    Σ' (L9 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS0

end Cert.Kernel.FrameH

end
-- ==== Proof.K.R2.lean ====
/-
  The third launch's proof data and body obligation. What each kind of grid point leaves in the output's staging
  buffer and in the scratch cell (the pieces its run found, read back); the two after every point, by recursion
  on the point: the first point starts the running total from zero, every later point adds its row sum to what the
  point before left, and the last point also stores the total divided by the row count into the output. The
  launch's invariant names the scratch cell's contents after each point and carries the other launches' staging
  buffers along untouched. Last, the accumulation in terms of the body's arithmetic alone.
-/
import proofs.«116843_j64098091925532_2_alg».proof.Proof.K.R2RunA
import proofs.«116843_j64098091925532_2_alg».proof.Proof.K.R2RunB
import proofs.«116843_j64098091925532_2_alg».proof.Proof.K.R2RunC

set_option maxRecDepth 16384

noncomputable section

namespace Cert.Kernel.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves -/

/-- What case A leaves in the output's staging buffer: its pieces read back (none: a placeholder nothing consults, the window being idle there). -/
def out2_A_9 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) : Vec F S1x1 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).1)

/-- Case A's pieces for the scratch cell cover it. -/
theorem scover2_A_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (y : S1x1.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1 S1x1.size (by sl_kernel_rfl) y

/-- What case A leaves in the scratch cell: its pieces read back. -/
def sout2_A_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) : Vec F S1x1 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1)

/-- What case B leaves in the output's staging buffer: its pieces read back (none: a placeholder nothing consults, the window being idle there). -/
def out2_B_9 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) : Vec F S1x1 .f32 :=
  VO2_9.read (Elt F) (VO2_9.writes (Elt F) VO2_9.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1)

/-- Case B's pieces for the scratch cell cover it. -/
theorem scover2_B_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) (y : S1x1.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1 S1x1.size (by sl_kernel_rfl) y

/-- What case B leaves in the scratch cell: its pieces read back. -/
def sout2_B_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) : Vec F S1x1 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1)

/-- The last point's pieces for the output cover its one cell. -/
theorem cover2_C_9 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) (y : S1x1.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1 S1x1.size (by sl_kernel_rfl) y

/-- What case C leaves in the output's staging buffer: its pieces read back. -/
def out2_C_9 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) : Vec F S1x1 .f32 :=
  VO2_9.read (Elt F) (VO2_9.writes (Elt F) VO2_9.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1)

/-- Case C's pieces for the scratch cell cover it. -/
theorem scover2_C_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) (y : S1x1.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1 S1x1.size (by sl_kernel_rfl) y

/-- What case C leaves in the scratch cell: its pieces read back. -/
def sout2_C_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) : Vec F S1x1 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1)

/-! ## What the output's buffer and the scratch cell hold after each point -/

/-- No point after the first takes the first branch. -/
theorem not_first_succ (n : ℕ) (hn : n + 1 < cfg2.N) : ¬cond2_0 (grid2.coords ⟨n + 1, hn⟩) := fun h => by
  have h' := (hcond2_0 ⟨n + 1, hn⟩).mp h
  have hN : n + 1 < 50 := lt_of_lt_of_eq hn (show cfg2.N = 50 from N_2)
  (try dsimp only at h'); omega

/-- THE ACCUMULATION: the output's staging buffer and the scratch cell after the body at position `n`. The first point
    runs from an arbitrary scratch; every later point runs over the scratch the point before left. -/
def outsAt2 (c : Dev nD) : (n : ℕ) → n < cfg2.N → Vec F S1x1 .f32 × Vec F S1x1 .f32
  | 0, hn => (out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩))
  | n + 1, hn =>
    if h1 : (n + 1) % 50 = 49 then
      (out2_C_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (not_first_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (not_first_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2)
    else
      (out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (not_first_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (not_first_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2)

/-- `outsAt2` at the first point. -/
theorem outsAt2_A (c : Dev nD) (t : Fin cfg2.N) (h0 : t.val % 50 = 0) (h1 : ¬t.val % 50 = 49) :
    outsAt2 V c t.val t.isLt = (out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)) := by
  obtain ⟨n, hn⟩ := t
  cases n with
  | zero => exact rfl
  | succ n => exact (by exfalso; have hN : n + 1 < 50 := lt_of_lt_of_eq hn (show cfg2.N = 50 from N_2); (try dsimp only at h0); omega)

/-- `outsAt2` at a middle point: over what the point before left. -/
theorem outsAt2_B (c : Dev nD) (t : Fin cfg2.N) (h0 : ¬t.val % 50 = 0) (h1 : ¬t.val % 50 = 49) :
    outsAt2 V c t.val t.isLt = (out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt2` at the last point: over what the point before left. -/
theorem outsAt2_C (c : Dev nD) (t : Fin cfg2.N) (h0 : ¬t.val % 50 = 0) (h1 : t.val % 50 = 49) :
    outsAt2 V c t.val t.isLt = (out2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The launch's invariant -/

/-- The invariant before position `n`: before the first point the launch's resting invariant (the scratch cell at
    anything); afterwards the same with the scratch cell at what the point before left in it. The other launches'
    staging buffers are carried along at some contents throughout. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The launch's proof data -/

/-- The proof data of the third launch on core `c`: the arrays as the launch finds them; after the body at point `t`
    each input's buffer at its block and the output's at `outsAt2`'s first component; the invariant `PhiS2`; nothing
    owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
  Φ t := PhiS2 V c t.val (Nat.le_of_lt_succ t.isLt)
  q _ := fullShare
  owed _ := 0

/-- The proof data's arrays are the entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
/-- The body at any point. The inputs' buffers hold their blocks; the closed forms of the two conditions say which
    kind of point this is, so that kind's run applies; the invariant hands the body the scratch cell at what the point
    before left (at anything at the first point) and takes it back at this point's contents; the other launches'
    staging buffers and the generator register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val % 50 = 0
  · by_cases h1 : t.val % 50 = 49
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [show (dat2 V c).leavesExact 8 t = owns (c : Thread nD τ) (ms2_8 t) fullShare ((dat2 V c).after 8 t) from by
        unfold Dat.leavesExact; rw [liveAt2_8 t], after2_8]
      rw [Dat.leavesExact_idle (dat2 V c) 9 t (idleAt2_9_A t ((hcond2_0 t).mpr h0) (fun h => h1 ((hcond2_1 t).mp h))) (noFlush2_9_A t ((hcond2_0 t).mpr h0) (fun h => h1 ((hcond2_1 t).mp h)))]
      rw [outsAt2_A V c t h0 h1]
      dsimp only
      have hz : t.val = 0 := by omega
      rw [PhiS2_castSucc V c t, PhiS2_zero V c _ _ hz, PhiA2_eq]
      iintro ⟨⟨⟨HR0, HR1, HR2, HR3, HR4, HR5, HR6, HR7, HR8, HR9, HR10, HR11, HR12, HR13, HR14, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HR0 HR1 HR2 HR3 HR4 HR5 HR6 HR7 HR8 HR9 HR10 HR11 HR12 HR13 HR14 HS0 Hg]
      · isplitl [HR0 HR1 HR2 HR3 HR4 HR5 HR6 HR7 HR8 HR9 HR10 HR11 HR12 HR13 HR14 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          unfold owns; iexists _; isplitr
          swap; · iexact HS0
          ipureintro; exact View.read_writes_of_cover _ _ _ _ _ (scover2_A_0 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

  · by_cases h1 : t.val % 50 = 49
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [show (dat2 V c).leavesExact 8 t = owns (c : Thread nD τ) (ms2_8 t) fullShare ((dat2 V c).after 8 t) from by
        unfold Dat.leavesExact; rw [liveAt2_8 t], after2_8]
      rw [show (dat2 V c).leavesExact 9 t = owns (c : Thread nD τ) (ms2_9 t) fullShare ((dat2 V c).after 9 t) from by
        unfold Dat.leavesExact; rw [liveAt2_9_C t (fun h => h0 ((hcond2_0 t).mp h)) ((hcond2_1 t).mpr h1)], after2_9]
      rw [outsAt2_C V c t h0 h1]
      dsimp only
      have hz : t.val ≠ 0 := by omega
      rw [PhiS2_castSucc V c t, PhiS2_pos V c _ _ hz]
      iintro ⟨⟨⟨HR0, HR1, HR2, HR3, HR4, HR5, HR6, HR7, HR8, HR9, HR10, HR11, HR12, HR13, HR14, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, ⟨%es0, HS0⟩⟩
      isplitl [HR0 HR1 HR2 HR3 HR4 HR5 HR6 HR7 HR8 HR9 HR10 HR11 HR12 HR13 HR14 HS0 Hg]
      · isplitl [HR0 HR1 HR2 HR3 HR4 HR5 HR6 HR7 HR8 HR9 HR10 HR11 HR12 HR13 HR14 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          unfold owns; iexists _; isplitr
          swap; · iexact HS0
          ipureintro; exact View.read_writes_of_cover _ _ _ _ _ (scover2_C_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover2_C_9 c _ _ _ _ _ _ _ _ _ _ _ _ _ _ _ _ _ _ _ _ _ _ _ _ _ _ _ _ _ _ _ _ _ _ _)

    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [show (dat2 V c).leavesExact 8 t = owns (c : Thread nD τ) (ms2_8 t) fullShare ((dat2 V c).after 8 t) from by
        unfold Dat.leavesExact; rw [liveAt2_8 t], after2_8]
      rw [Dat.leavesExact_idle (dat2 V c) 9 t (idleAt2_9_B t (fun h => h0 ((hcond2_0 t).mp h)) (fun h => h1 ((hcond2_1 t).mp h))) (noFlush2_9_B t (fun h => h0 ((hcond2_0 t).mp h)) (fun h => h1 ((hcond2_1 t).mp h)))]
      rw [outsAt2_B V c t h0 h1]
      dsimp only
      have hz : t.val ≠ 0 := by omega
      rw [PhiS2_castSucc V c t, PhiS2_pos V c _ _ hz]
      iintro ⟨⟨⟨HR0, HR1, HR2, HR3, HR4, HR5, HR6, HR7, HR8, HR9, HR10, HR11, HR12, HR13, HR14, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HR0 HR1 HR2 HR3 HR4 HR5 HR6 HR7 HR8 HR9 HR10 HR11 HR12 HR13 HR14 HS0 Hg]
      · isplitl [HR0 HR1 HR2 HR3 HR4 HR5 HR6 HR7 HR8 HR9 HR10 HR11 HR12 HR13 HR14 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          unfold owns; iexists _; isplitr
          swap; · iexact HS0
          ipureintro; exact View.read_writes_of_cover _ _ _ _ _ (scover2_B_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the resting invariant back: the scratch cell's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HR14, HS0⟩, Hg⟩
  isplitl [HR0 HR1 HR2 HR3 HR4 HR5 HR6 HR7 HR8 HR9 HR10 HR11 HR12 HR13 HR14 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Cert.Kernel.FrameH

end
-- ==== Proof.K.Run.lean ====
/-
  The kernel program's run, assembled: its three launches among the host stretches, each launch entered at the buffer
  contents the stretch before it leaves and left at those contents with the launch's output array replaced by the fold of
  its write-backs. The result buffer ends at what the third launch's write-backs leave; every argument ends as launched.
-/
import proofs.«116843_j64098091925532_2_alg».proof.Proof.K.RunCond
import proofs.«116843_j64098091925532_2_alg».proof.Proof.K.R0
import proofs.«116843_j64098091925532_2_alg».proof.Proof.K.R1
import proofs.«116843_j64098091925532_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FrameH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents the launches leave -/

/-- A valuation read at the TensorCore's references (what a launch's proof data take). -/
abbrev atTc (W : Dev nD → Valuation τ sig (Elt F)) : (c : Dev nD) → (b : Ref sig .tc) → Buf (Elt F) ((c : Thread nD τ).loc b) :=
  fun c b => W c b

/-- After launch 0: its arrays at what the pipeline leaves, every other buffer as entered. -/
def XA (c : Dev nD) : Valuation τ sig (Elt F) :=
  Pipeline.withArrays spec0 c (Gen.V5 m c) fun w => (dat0 (atTc (Gen.V5 m)) c).arrAt w cfg0.N
/-- The contents launch 1 is entered at: the host stretch after launch 0, run from launch 0's exit contents. -/
def VA7 (c : Dev nD) : Valuation τ sig (Elt F) := Gen.V7 m (fun _ r c => XA m c r) c
/-- After launch 1. -/
def XB (c : Dev nD) : Valuation τ sig (Elt F) :=
  Pipeline.withArrays spec1 c (VA7 m c) fun w => (dat1 (atTc (VA7 m)) c).arrAt w cfg1.N
/-- The contents launch 2 is entered at. -/
def VA9 (c : Dev nD) : Valuation τ sig (Elt F) :=
  Gen.V9 m (fun n r c => match n with | 6 => XA m c r | _ => XB m c r) c
/-- After launch 2. -/
def XC (c : Dev nD) : Valuation τ sig (Elt F) :=
  Pipeline.withArrays spec2 c (VA9 m c) fun w => (dat2 (atTc (VA9 m)) c).arrAt w cfg2.N

/-- What each launch leaves in the buffers it may change, as the conditional frame asks for it. -/
def outs : Gen.Outs (F := F) := fun n r c => match n with
  | 6 => XA m c r
  | 8 => XB m c r
  | _ => XC m c r

theorem V7_outs (c : Dev nD) : Gen.V7 m (outs m) c = VA7 m c := rfl
theorem V9_outs (c : Dev nD) : Gen.V9 m (outs m) c = VA9 m c := rfl

theorem XA_arr (c : Dev nD) (w : Fin cfg0.W) :
    XA m c (Proc.devRef .tc (Pipeline.arrRef spec0 w)) = (dat0 (atTc (Gen.V5 m)) c).arrAt w cfg0.N := by
  unfold XA; exact Pipeline.withArrays_arr spec0 launch0.win.arr_inj c _ _ w
theorem XB_arr (c : Dev nD) (w : Fin cfg1.W) :
    XB m c (Proc.devRef .tc (Pipeline.arrRef spec1 w)) = (dat1 (atTc (VA7 m)) c).arrAt w cfg1.N := by
  unfold XB; exact Pipeline.withArrays_arr spec1 launch1.win.arr_inj c _ _ w
theorem XC_arr (c : Dev nD) (w : Fin cfg2.W) :
    XC m c (Proc.devRef .tc (Pipeline.arrRef spec2 w)) = (dat2 (atTc (VA9 m)) c).arrAt w cfg2.N := by
  unfold XC; exact Pipeline.withArrays_arr spec2 launch2.win.arr_inj c _ _ w

/-! ## The proof data family and the thread state -/

/-- Every launch's proof data, each at its entry contents — a literal match on the launch. -/
def pdats : (p : Fin 3) → (c : Dev nD) → Dat τ (Elt F) Unit ℕ (Pipeline.UD sig nD τ) ℕ (cfgs p) c
  | ⟨0, _⟩ => fun c => dat0 (atTc (Gen.V5 m)) c
  | ⟨1, _⟩ => fun c => dat1 (atTc (VA7 m)) c
  | ⟨2, _⟩ => fun c => dat2 (atTc (VA9 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

set_option maxHeartbeats 1000000 in
/-- At launch 0's exit each of its arrays holds what the pipeline leaves: an input's array is as entered (no window
    writes it back), the output's is the fold of its write-backs, which is what `outs` records there. -/
theorem hF0 (c : Dev nD) : ∀ w : Fin cfg0.W, (pdats m 0 c).arrAt w cfg0.N = atTc (Gen.V6 m (outs m)) c (Pipeline.arrRef spec0 w)
  | ⟨0, _⟩ => (((pdats m 0 c).arrAt_in 0 rfl _).trans (A_eq0 (atTc (Gen.V5 m)) c 0)).trans (Gen.V6_of m (outs m) c (Pipeline.arrRef spec0 0) (by decide)).symm
  | ⟨1, _⟩ => (((pdats m 0 c).arrAt_in 1 rfl _).trans (A_eq0 (atTc (Gen.V5 m)) c 1)).trans (Gen.V6_of m (outs m) c (Pipeline.arrRef spec0 1) (by decide)).symm
  | ⟨2, _⟩ => (((pdats m 0 c).arrAt_in 2 rfl _).trans (A_eq0 (atTc (Gen.V5 m)) c 2)).trans (Gen.V6_of m (outs m) c (Pipeline.arrRef spec0 2) (by decide)).symm
  | ⟨3, _⟩ => (((pdats m 0 c).arrAt_in 3 rfl _).trans (A_eq0 (atTc (Gen.V5 m)) c 3)).trans (Gen.V6_of m (outs m) c (Pipeline.arrRef spec0 3) (by decide)).symm
  | ⟨4, _⟩ => ((XA_arr m c 4).symm.trans (by
      show XA m c (Proc.devRef .tc main_v23) = Gen.V6 m (outs m) c (Proc.devRef .tc main_v23)
      simp only [Gen.V6, Function.update_self]
      rfl))
/-- Every buffer that is not one of launch 0's arrays is as entered. -/
theorem hrest0 (c : Dev nD) : ∀ b, b ∉ Finset.univ.image (Pipeline.arrRef spec0) → atTc (Gen.V6 m (outs m)) c b = atTc (Gen.V5 m) c b :=
  fun b hb => Gen.V6_of m (outs m) c b fun h => hb (by
    rw [List.mem_singleton.mp h]; exact Finset.mem_image.mpr ⟨4, Finset.mem_univ _, rfl⟩)

set_option maxHeartbeats 1000000 in
/-- A buffer launch 1 does not write is, at its exit, as at its entry. -/
theorem keep1 (c : Dev nD) (b : Ref sig .tc) (hb : b ∉ ([main_v38] : List (Ref sig .tc))) :
    atTc (Gen.V8 m (outs m)) c b = atTc (VA7 m) c b := by
  show Gen.V8 m (outs m) c b = VA7 m c b
  rw [← V7_outs m c]
  exact Gen.V8_of m (outs m) c b hb
set_option maxHeartbeats 1000000 in
/-- At launch 1's exit each of its arrays holds what the pipeline leaves: an input's array is as entered (no window
    writes it back), the output's is the fold of its write-backs, which is what `outs` records there. -/
theorem hF1 (c : Dev nD) : ∀ w : Fin cfg1.W, (pdats m 1 c).arrAt w cfg1.N = atTc (Gen.V8 m (outs m)) c (Pipeline.arrRef spec1 w)
  | ⟨0, _⟩ => (((pdats m 1 c).arrAt_in 0 rfl _).trans (A_eq1 (atTc (VA7 m)) c 0)).trans (keep1 m c (Pipeline.arrRef spec1 0) (by decide)).symm
  | ⟨1, _⟩ => (((pdats m 1 c).arrAt_in 1 rfl _).trans (A_eq1 (atTc (VA7 m)) c 1)).trans (keep1 m c (Pipeline.arrRef spec1 1) (by decide)).symm
  | ⟨2, _⟩ => (((pdats m 1 c).arrAt_in 2 rfl _).trans (A_eq1 (atTc (VA7 m)) c 2)).trans (keep1 m c (Pipeline.arrRef spec1 2) (by decide)).symm
  | ⟨3, _⟩ => (((pdats m 1 c).arrAt_in 3 rfl _).trans (A_eq1 (atTc (VA7 m)) c 3)).trans (keep1 m c (Pipeline.arrRef spec1 3) (by decide)).symm
  | ⟨4, _⟩ => ((XB_arr m c 4).symm.trans (by
      show XB m c (Proc.devRef .tc main_v38) = Gen.V8 m (outs m) c (Proc.devRef .tc main_v38)
      simp only [Gen.V8, Function.update_self]
      rfl))
/-- Every buffer that is not one of launch 1's arrays is as entered. -/
theorem hrest1 (c : Dev nD) : ∀ b, b ∉ Finset.univ.image (Pipeline.arrRef spec1) → atTc (Gen.V8 m (outs m)) c b = atTc (VA7 m) c b :=
  fun b hb => keep1 m c b fun h => hb (by
    rw [List.mem_singleton.mp h]; exact Finset.mem_image.mpr ⟨4, Finset.mem_univ _, rfl⟩)

set_option maxHeartbeats 1000000 in
/-- A buffer launch 2 does not write is, at its exit, as at its entry. -/
theorem keep2 (c : Dev nD) (b : Ref sig .tc) (hb : b ∉ ([main_v53] : List (Ref sig .tc))) :
    atTc (Gen.V10 m (outs m)) c b = atTc (VA9 m) c b := by
  show Gen.V10 m (outs m) c b = VA9 m c b
  rw [← V9_outs m c]
  exact Gen.V10_of m (outs m) c b hb
set_option maxHeartbeats 1000000 in
/-- At launch 2's exit each of its arrays holds what the pipeline leaves: an input's array is as entered (no window
    writes it back), the output's is the fold of its write-backs, which is what `outs` records there. -/
theorem hF2 (c : Dev nD) : ∀ w : Fin cfg2.W, (pdats m 2 c).arrAt w cfg2.N = atTc (Gen.V10 m (outs m)) c (Pipeline.arrRef spec2 w)
  | ⟨0, _⟩ => (((pdats m 2 c).arrAt_in 0 rfl _).trans (A_eq2 (atTc (VA9 m)) c 0)).trans (keep2 m c (Pipeline.arrRef spec2 0) (by decide)).symm
  | ⟨1, _⟩ => (((pdats m 2 c).arrAt_in 1 rfl _).trans (A_eq2 (atTc (VA9 m)) c 1)).trans (keep2 m c (Pipeline.arrRef spec2 1) (by decide)).symm
  | ⟨2, _⟩ => (((pdats m 2 c).arrAt_in 2 rfl _).trans (A_eq2 (atTc (VA9 m)) c 2)).trans (keep2 m c (Pipeline.arrRef spec2 2) (by decide)).symm
  | ⟨3, _⟩ => (((pdats m 2 c).arrAt_in 3 rfl _).trans (A_eq2 (atTc (VA9 m)) c 3)).trans (keep2 m c (Pipeline.arrRef spec2 3) (by decide)).symm
  | ⟨4, _⟩ => (((pdats m 2 c).arrAt_in 4 rfl _).trans (A_eq2 (atTc (VA9 m)) c 4)).trans (keep2 m c (Pipeline.arrRef spec2 4) (by decide)).symm
  | ⟨5, _⟩ => (((pdats m 2 c).arrAt_in 5 rfl _).trans (A_eq2 (atTc (VA9 m)) c 5)).trans (keep2 m c (Pipeline.arrRef spec2 5) (by decide)).symm
  | ⟨6, _⟩ => (((pdats m 2 c).arrAt_in 6 rfl _).trans (A_eq2 (atTc (VA9 m)) c 6)).trans (keep2 m c (Pipeline.arrRef spec2 6) (by decide)).symm
  | ⟨7, _⟩ => (((pdats m 2 c).arrAt_in 7 rfl _).trans (A_eq2 (atTc (VA9 m)) c 7)).trans (keep2 m c (Pipeline.arrRef spec2 7) (by decide)).symm
  | ⟨8, _⟩ => (((pdats m 2 c).arrAt_in 8 rfl _).trans (A_eq2 (atTc (VA9 m)) c 8)).trans (keep2 m c (Pipeline.arrRef spec2 8) (by decide)).symm
  | ⟨9, _⟩ => ((XC_arr m c 9).symm.trans (by
      show XC m c (Proc.devRef .tc main_v53) = Gen.V10 m (outs m) c (Proc.devRef .tc main_v53)
      simp only [Gen.V10, Function.update_self]
      rfl))
/-- Every buffer that is not one of launch 2's arrays is as entered. -/
theorem hrest2 (c : Dev nD) : ∀ b, b ∉ Finset.univ.image (Pipeline.arrRef spec2) → atTc (Gen.V10 m (outs m)) c b = atTc (VA9 m) c b :=
  fun b hb => keep2 m c b fun h => hb (by
    rw [List.mem_singleton.mp h]; exact Finset.mem_image.mpr ⟨9, Finset.mem_univ _, rfl⟩)

/-! ## The launches as segments -/

set_option backward.isDefEq.respectTransparency.types false in
/-- LAUNCH 0 over the thread state: entered from every unscoped buffer at the contents before it, left at the contents
    after it. Its arrays are split out of the unscoped buffers and put back at the exit contents; the generator register
    goes into the launch's invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (Gen.V5 m)) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (atTc (Gen.V5 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (Gen.V5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (atTc (Gen.V5 m) c) (atTc (Gen.V6 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at the contents before it, left at the contents
    after it. Its arrays are split out of the unscoped buffers and put back at the exit contents; the generator register
    goes into the launch's invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (VA7 m)) c).loose
  hwaits := Pipeline.hwaits_of_owed_zero _ _ _ _ L lv 1 fun _ _ => rfl
  pre c := iprop(StableHlo.held (c : Thread nD τ) (Pipeline.ucRefs τ sig) (VA7 m c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (atTc (VA7 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (VA7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (atTc (VA7 m) c) (atTc (Gen.V8 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 over the thread state: entered from every unscoped buffer at the contents before it, left at the contents
    after it. Its arrays are split out of the unscoped buffers and put back at the exit contents; the generator register
    goes into the launch's invariant and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (VA9 m)) c).loose
  hwaits := Pipeline.hwaits_of_owed_zero _ _ _ _ L lv 2 fun _ _ => rfl
  pre c := iprop(StableHlo.held (c : Thread nD τ) (Pipeline.ucRefs τ sig) (VA9 m c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (atTc (VA9 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (VA9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atTc (VA9 m)) c)
    unfold Pipeline.ΦA
    iintro ⟨Hp, -, Hr⟩
    isplitl [Hr]; · iexact Hr
    iexact Hp
  hout c := by
    rw [Pipeline.ownSems0_none]
    refine BIBase.Entails.trans (hout2 (atTc (VA9 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (atTc (VA9 m) c) (atTc (Gen.V10 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program terminates, nothing faulting; the result buffer ends at what the third
    launch's write-backs leave in it and every argument array ends as launched. -/
theorem run : θ_run defs (onTc (τ := τ) (main (F := F))) ⟨m, fun _ => 0, ρ⟩ (fun r => ∀ c : Dev nD,
      r.2.mem ((c.tc : Thread nD τ).loc main_v53) = Gen.V10 m (outs m) c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  GenP.run_cond m embL () 𝒱₀ L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V7_outs m c]; exact .rfl) (fun c => .rfl)
    (reg2 m) (fun c => by rw [V9_outs m c]; exact .rfl) (fun c => .rfl)

/-- The result buffer's final contents, by name: the fold of the third launch's write-backs of its output window. -/
theorem result_eq (c : Dev nD) : Gen.V10 m (outs m) c main_v53 = (dat2 (atTc (VA9 m)) c).arrAt 9 cfg2.N := by
  show Gen.V10 m (outs m) c (Proc.devRef .tc main_v53) = _
  simp only [Gen.V10, Function.update_self]
  exact XC_arr m c 9

/-- The frame: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2) (run m ρ)

end Cert.Kernel.FrameH

end
-- ==== Proof.KI.R0Defs.lean ====
/-
  The first launch (the embedding of the variable nodes followed by the shared linear map): the block of each
  operand at a grid point, read off the arrays the launch finds, and what the body leaves in the output's staging
  buffer as one term of the four input blocks — the three columns of the packed feature block, the two weights and
  the bias loaded whole, the body's arithmetic (the generated payload) stored over the whole block.
-/
import proofs.«116843_j64098091925532_2_alg».proof.Proof.Gen.KernelIdeal.Launch
import proofs.«116843_j64098091925532_2_alg».proof.Proof.Gen.KernelIdeal.Skeleton
import proofs.«116843_j64098091925532_2_alg».proof.Proof.Gen.KernelIdeal.Points
import Idealize.ShloMosaic.Lib.Pipeline.FrameBody

noncomputable section

namespace Cert.KernelIdeal.FrameH

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three unit-width column rectangles of the packed feature block, and the whole-block rectangles. -/
abbrev r0_c0 : Rect S20000x3 := Rect.unit (s := S20000x3) ![0, 0] S20000x1.size inb_S20000x3_S20000x1_0_0
abbrev r0_c1 : Rect S20000x3 := Rect.unit (s := S20000x3) ![0, 1] S20000x1.size inb_S20000x3_S20000x1_0_1
abbrev r0_c2 : Rect S20000x3 := Rect.unit (s := S20000x3) ![0, 2] S20000x1.size inb_S20000x3_S20000x1_0_2
abbrev r0_wv : Rect S2x10 := Rect.unit (s := S2x10) ![0, 0] S2x10.size inb_S2x10_S2x10_0_0
abbrev r0_bv : Rect S1x10 := Rect.unit (s := S1x10) ![0, 0] S1x10.size inb_S1x10_S1x10_0_0
abbrev r0_w2 : Rect S10x10 := Rect.unit (s := S10x10) ![0, 0] S10x10.size inb_S10x10_S10x10_0_0
abbrev r0_o : Rect S20000x10 := Rect.unit (s := S20000x10) ![0, 0] S20000x10.size inb_S20000x10_S20000x10_0_0

/-- The output's staging buffer after the body, from the input blocks: its one store over the whole block. -/
def out0_4 (x0 : Vec F S20000x3 .f32) (x1 : Vec F S2x10 .f32) (x2 : Vec F S1x10 .f32) (x3 : Vec F S10x10 .f32) : Vec F S20000x10 .bf16 :=
  View.canon [⟨r0_o, k0_pay1 (View.ld x0 r0_c0) (View.ld x0 r0_c1) (View.ld x0 r0_c2) (View.ld x1 r0_wv) (View.ld x2 r0_bv) (View.ld x3 r0_w2)⟩]

end Cert.KernelIdeal.FrameH

end
-- ==== Proof.KI.R0.lean ====
/-
  The first launch (the embedding of the variable nodes followed by the shared linear map), its proof data and its
  body obligation at any entry contents `V`. Each input window's staging buffer holds its block at every grid
  point (the three small operands have a constant block index, so they are fetched once and kept); the body reads
  the three columns of the packed feature block and the three small operands whole, and stores its arithmetic over
  the whole output block, so after it the output's buffer is `out0_4` of the four input blocks.
-/
import proofs.«116843_j64098091925532_2_alg».proof.Proof.KI.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axis
set_option maxRecDepth 16384

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Input window 0's current staging buffer holds its block at every point, fetched there or not, for any proof
    data whose array is the entry contents' and whose body leaves the block in place: unfetched, the block index
    has not moved, so the buffer still holds the same block. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents' and whose body leaves the block in place: unfetched, the block index
    has not moved, so the buffer still holds the same block. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents' and whose body leaves the block in place: unfetched, the block index
    has not moved, so the buffer still holds the same block. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents' and whose body leaves the block in place: unfetched, the block index
    has not moved, so the buffer still holds the same block. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The body's one store is over the whole block, so it covers it. -/
theorem cover0_4 (p0 : Vec F S20000x10 .bf16) (y : S20000x10.Idx) :
    ∃ pc ∈ ([⟨r0_o, p0⟩] : List (View.Piece (Elt F) S20000x10 .bf16)), y ∈ pc.1.set :=
  View.cover_of_tiled [⟨r0_o, p0⟩] S20000x10.size (by rfl) y

/-! ## The body's triple -/

set_option maxHeartbeats 1000000 in
/-- The body on whole staging memrefs, the inputs' at read contents `x0 … x3` and the output's at anything, runs to
    the continuation holding the inputs' as they were and the output's at `out0_4` of the inputs'. -/
theorem sound_kernel0 (c : Dev nD) (E : Set ℕ) (i : grid0.Coords)
    (arg1 : Memref sig .tc .vmem S20000x3 .f32) (harg1 : arg1.IsWhole) (arg2 : Memref sig .tc .vmem S2x10 .f32) (harg2 : arg2.IsWhole)
    (arg3 : Memref sig .tc .vmem S1x10 .f32) (harg3 : arg3.IsWhole) (arg4 : Memref sig .tc .vmem S10x10 .f32) (harg4 : arg4.IsWhole)
    (arg5 : Memref sig .tc .vmem S20000x10 .bf16) (harg5 : arg5.IsWhole)
    (x0 : Vec F S20000x3 .f32) (x1 : Vec F S2x10 .f32) (x2 : Vec F S1x10 .f32) (x3 : Vec F S10x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__embed_kernel i arg1 harg1 arg2 harg2 arg3 harg3 arg4 harg4 arg5 harg5) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the launch on core `c`: the arrays as the launch finds them; after the body at point `t` each
    input's buffer at its block and the output's at `out0_4` of the input blocks; the invariant the scoped rest and
    the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.FrameH

end
-- ==== Proof.KI.R1Defs.lean ====
/-
  The second launch (bias, rectifier and degree scaling of the aggregated rows, then the shared linear map): the
  block of each operand at a grid point and what the body leaves in the output's staging buffer as one term of
  the four input blocks. The degree column is loaded twice by the body; both loads read the same block.
-/
import proofs.«116843_j64098091925532_2_alg».proof.Proof.Gen.KernelIdeal.Launch
import proofs.«116843_j64098091925532_2_alg».proof.Proof.Gen.KernelIdeal.Skeleton
import proofs.«116843_j64098091925532_2_alg».proof.Proof.Gen.KernelIdeal.Points
import Idealize.ShloMosaic.Lib.Pipeline.FrameBody

noncomputable section

namespace Cert.KernelIdeal.FrameH

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S10000x10 := Rect.unit (s := S10000x10) ![0, 0] S10000x10.size inb_S10000x10_S10000x10_0_0
abbrev r1_n : Rect S10000x1 := Rect.unit (s := S10000x1) ![0, 0] S10000x1.size inb_S10000x1_S10000x1_0_0
abbrev r1_b : Rect S1x10 := Rect.unit (s := S1x10) ![0, 0] S1x10.size inb_S1x10_S1x10_0_0
abbrev r1_w : Rect S10x10 := Rect.unit (s := S10x10) ![0, 0] S10x10.size inb_S10x10_S10x10_0_0

/-- The output's staging buffer after the body, from the input blocks: its one store over the whole block. -/
def out1_4 (x0 : Vec F S10000x10 .f32) (x1 : Vec F S10000x1 .f32) (x2 : Vec F S1x10 .f32) (x3 : Vec F S10x10 .f32) : Vec F S10000x10 .bf16 :=
  View.canon [⟨r1_a, k1_pay1 (View.ld x0 r1_a) (View.ld x1 r1_n) (View.ld x2 r1_b) (View.ld x1 r1_n) (View.ld x3 r1_w)⟩]

end Cert.KernelIdeal.FrameH

end
-- ==== Proof.KI.R1.lean ====
/-
  The second launch (bias, rectification and row scaling of the scattered sums, followed by the shared linear map),
  its proof data and its body obligation at any entry contents `V`. Each input window's staging buffer holds its
  block at every grid point (the bias and the weight have a constant block index, so they are fetched once and kept);
  the body reads the four operands whole (the row-scale column twice) and stores its arithmetic over the whole
  output block, so after it the output's buffer is `out1_4` of the four input blocks.
-/
import proofs.«116843_j64098091925532_2_alg».proof.Proof.KI.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axis
set_option maxRecDepth 16384

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Input window 0's current staging buffer holds its block at every point, fetched there or not, for any proof
    data whose array is the entry contents' and whose body leaves the block in place: unfetched, the block index
    has not moved, so the buffer still holds the same block. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' and whose body leaves the block in place: unfetched, the block index
    has not moved, so the buffer still holds the same block. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' and whose body leaves the block in place: unfetched, the block index
    has not moved, so the buffer still holds the same block. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents' and whose body leaves the block in place: unfetched, the block index
    has not moved, so the buffer still holds the same block. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The body's one store is over the whole block, so it covers it. -/
theorem cover1_4 (p0 : Vec F S10000x10 .bf16) (y : S10000x10.Idx) :
    ∃ pc ∈ ([⟨r1_a, p0⟩] : List (View.Piece (Elt F) S10000x10 .bf16)), y ∈ pc.1.set :=
  View.cover_of_tiled [⟨r1_a, p0⟩] S10000x10.size (by rfl) y

/-! ## The body's triple -/

set_option maxHeartbeats 1000000 in
/-- The body on whole staging memrefs, the inputs' at read contents `x0 … x3` and the output's at anything, runs to
    the continuation holding the inputs' as they were and the output's at `out1_4` of the inputs'. -/
theorem sound_kernel1 (c : Dev nD) (E : Set ℕ) (i : grid1.Coords)
    (arg1 : Memref sig .tc .vmem S10000x10 .f32) (harg1 : arg1.IsWhole) (arg2 : Memref sig .tc .vmem S10000x1 .f32) (harg2 : arg2.IsWhole)
    (arg3 : Memref sig .tc .vmem S1x10 .f32) (harg3 : arg3.IsWhole) (arg4 : Memref sig .tc .vmem S10x10 .f32) (harg4 : arg4.IsWhole)
    (arg5 : Memref sig .tc .vmem S10000x10 .bf16) (harg5 : arg5.IsWhole)
    (x0 : Vec F S10000x10 .f32) (x1 : Vec F S10000x1 .f32) (x2 : Vec F S1x10 .f32) (x3 : Vec F S10x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gconv_kernel i arg1 harg1 arg2 harg2 arg3 harg3 arg4 harg4 arg5 harg5) K := by
  simp only [cc1__gconv_kernel_eq_skeleton]; unfold cc1__gconv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the launch on core `c`: the arrays as the launch finds them; after the body at point `t` each
    input's buffer at its block and the output's at `out1_4` of the input blocks; the invariant the scoped rest and
    the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.FrameH

end
-- ==== Proof.KI.R2Runs.lean ====
/-
  The third launch (the multilayer map of each row tile, its row sum added to a running total kept in a one-cell
  scratch buffer, and at the last tile the total divided by the row count and stored into the one-cell output):
  what the body's runs at the three kinds of grid point share. The block of each operand at a grid point; that an
  input's staging buffer holds its block at every point, refetched or not; the two branch conditions of the body
  in closed form over the fifty points; where the output is left untouched and not written back; the staging and
  scratch buffers as the body is handed them; and the launch's resting invariant spelled buffer by buffer, with
  the scratch cell named apart from the other launches' staging buffers, which this launch never touches.
-/
import proofs.«116843_j64098091925532_2_alg».proof.Proof.Gen.KernelIdeal.Launch
import proofs.«116843_j64098091925532_2_alg».proof.Proof.Gen.KernelIdeal.Skeleton
import proofs.«116843_j64098091925532_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The operands' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, its
    block index has not moved), for any proof data over the entry contents whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, its
    block index has not moved), for any proof data over the entry contents whose body leaves the block in place. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, its
    block index has not moved), for any proof data over the entry contents whose body leaves the block in place. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, its
    block index has not moved), for any proof data over the entry contents whose body leaves the block in place. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, its
    block index has not moved), for any proof data over the entry contents whose body leaves the block in place. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, its
    block index has not moved), for any proof data over the entry contents whose body leaves the block in place. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (unfetched, its
    block index has not moved), for any proof data over the entry contents whose body leaves the block in place. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (unfetched, its
    block index has not moved), for any proof data over the entry contents whose body leaves the block in place. -/
theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not (unfetched, its
    block index has not moved), for any proof data over the entry contents whose body leaves the block in place. -/
theorem before2_8_of {c : Dev nD} (dat : Dat τ (Elt F) Unit ℕ (Pipeline.UD sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, over the grid -/

/-- The first branch (zero the running total) is taken when the grid coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 50 = 0 :=
  (by decide +kernel : ∀ t : Fin grid2.N, cond2_0 (grid2.coords t) ↔ t.val % 50 = 0)

/-- The second branch (divide the total and store the output) is taken when the grid coordinate is 49. -/
abbrev cond2_1 (i : grid2.Coords) : Prop := k2_cond2 i = 1#1
/-- It holds at the last point only. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
/-- At the first point the output is idle: nothing is stored into it and it is not written back. -/
theorem idleAt2_9_A : ∀ t : Fin cfg2.N, cond2_0 (grid2.coords t) → ¬cond2_1 (grid2.coords t) → cfg2.idle 9 (grid2.coords t) = true := by decide +kernel
theorem noFlush2_9_A : ∀ t : Fin cfg2.N, cond2_0 (grid2.coords t) → ¬cond2_1 (grid2.coords t) → (cfg2.win 9).flush t = false := by decide +kernel
/-- At the middle points likewise. -/
theorem idleAt2_9_B : ∀ t : Fin cfg2.N, ¬cond2_0 (grid2.coords t) → ¬cond2_1 (grid2.coords t) → cfg2.idle 9 (grid2.coords t) = true := by decide +kernel
theorem noFlush2_9_B : ∀ t : Fin cfg2.N, ¬cond2_0 (grid2.coords t) → ¬cond2_1 (grid2.coords t) → (cfg2.win 9).flush t = false := by decide +kernel
/-- At the last point the output is live: the body stores into it. -/
theorem liveAt2_9_C : ∀ t : Fin cfg2.N, ¬cond2_0 (grid2.coords t) → cond2_1 (grid2.coords t) → cfg2.idle 9 (grid2.coords t) = false := by decide +kernel

/-! ## The buffers the body is handed -/

/-- The output's one staging buffer as a view: its contents are stated through it. -/
abbrev VO2_9 : View sig .tc .vmem S1x1 .f32 := (Memref.whole cc2_stg9_0 : Memref sig .tc .vmem S1x1 .f32).view
abbrev ms2_0 (t : Fin cfg2.N) : Memref sig .tc .vmem S20000x10 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S20000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x10 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10x10 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x10 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S10x10 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x10 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S10x1 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x1 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x1 .f32 := win2_9.stage (cfg2.slots t 9)
abbrev hs2_9 (t : Fin cfg2.N) : (ms2_9 t).IsWhole := hstage2_9 ((cfg2.slots t 9).cast nbuf2_9)
/-- The scratch cell holding the running total: a whole scoped buffer of the kernel's own. -/
abbrev scM2_0 : Memref sig .tc .vmem S1x1 .f32 := Memref.whole cc2_scratch0
/-- The same as a view: what it holds is stated through it. -/
abbrev VS2_0 : View sig .tc .vmem S1x1 .f32 := scM2_0.view

/-- The launch's resting invariant, buffer by buffer: the other launches' staging buffers each at some contents, the
    scratch cell owned at some contents, and the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ d, owns (c : Thread nD τ) scM2_0 fullShare d)) ∗ (∃ r, prngReg c r)) := by
  unfold Pipeline.ΦA; rw [scopedRest2_eq]; simp only [scM2_0, owns_whole]; try rfl

end Cert.KernelIdeal.FrameH

end
-- ==== Proof.KI.R2RunA.lean ====
/-
  The body of the third launch run at the first grid point (the running total is zeroed first; the output is not stored):
  on whole staging buffers holding the nine input blocks, it ends with the inputs as they were and with the listed
  pieces written into the scratch cell (the output's buffer handed back untouched). The pieces are found by running the body's
  memory operations in order.
-/
import proofs.«116843_j64098091925532_2_alg».proof.Proof.KI.R2Runs

set_option maxRecDepth 16384

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- The pieces the body's stores leave in the output's buffer and in the scratch cell (last store first), with the
    proof that the body runs from the stated buffers to a continuation holding them. -/
noncomputable def kernelRun2_A (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) :
    Σ' (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

end Cert.KernelIdeal.FrameH

end
-- ==== Proof.KI.R2RunB.lean ====
/-
  The body of the third launch run at a middle grid point (neither branch is taken: the row sum is added to the running total left by the point before):
  on whole staging buffers holding the nine input blocks, it ends with the inputs as they were and with the listed
  pieces written into the scratch cell (the output's buffer handed back untouched). The pieces are found by running the body's
  memory operations in order.
-/
import proofs.«116843_j64098091925532_2_alg».proof.Proof.KI.R2Runs

set_option maxRecDepth 16384

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- The pieces the body's stores leave in the output's buffer and in the scratch cell (last store first), with the
    proof that the body runs from the stated buffers to a continuation holding them. -/
noncomputable def kernelRun2_B (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) :
    Σ' (L9 : List (View.Piece (Elt F) S1x1 .f32)), { LS0 : List (View.Piece (Elt F) S1x1 .f32) //
      ∀ (xi9 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

end Cert.KernelIdeal.FrameH

end
-- ==== Proof.KI.R2RunC.lean ====
/-
  The body of the third launch run at the last grid point (the row sum is added to the running total, which is then read back, divided by the row count and stored into the output):
  on whole staging buffers holding the nine input blocks, it ends with the inputs as they were and with the listed
  pieces written into the scratch cell and into the output's buffer. The pieces are found by running the body's
  memory operations in order.
-/
import proofs.«116843_j64098091925532_2_alg».proof.Proof.KI.R2Runs

set_option maxRecDepth 16384

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- The pieces the body's stores leave in the output's buffer and in the scratch cell (last store first), with the
    proof that the body runs from the stated buffers to a continuation holding them. -/
noncomputable def kernelRun2_C (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) :
    Σ' (L9 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc2__mlp_kernel_eq_skeleton]; unfold cc2__mlp_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS0

end Cert.KernelIdeal.FrameH

end
-- ==== Proof.KI.R2.lean ====
/-
  The third launch's proof data and body obligation. What each kind of grid point leaves in the output's staging
  buffer and in the scratch cell (the pieces its run found, read back); the two after every point, by recursion
  on the point: the first point starts the running total from zero, every later point adds its row sum to what the
  point before left, and the last point also stores the total divided by the row count into the output. The
  launch's invariant names the scratch cell's contents after each point and carries the other launches' staging
  buffers along untouched. Last, the accumulation in terms of the body's arithmetic alone.
-/
import proofs.«116843_j64098091925532_2_alg».proof.Proof.KI.R2RunA
import proofs.«116843_j64098091925532_2_alg».proof.Proof.KI.R2RunB
import proofs.«116843_j64098091925532_2_alg».proof.Proof.KI.R2RunC

set_option maxRecDepth 16384

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves -/

/-- What case A leaves in the output's staging buffer: its pieces read back (none: a placeholder nothing consults, the window being idle there). -/
def out2_A_9 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) : Vec F S1x1 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).1)

/-- Case A's pieces for the scratch cell cover it. -/
theorem scover2_A_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (y : S1x1.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1 S1x1.size (by sl_kernel_rfl) y

/-- What case A leaves in the scratch cell: its pieces read back. -/
def sout2_A_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) : Vec F S1x1 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1)

/-- What case B leaves in the output's staging buffer: its pieces read back (none: a placeholder nothing consults, the window being idle there). -/
def out2_B_9 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) : Vec F S1x1 .f32 :=
  VO2_9.read (Elt F) (VO2_9.writes (Elt F) VO2_9.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1)

/-- Case B's pieces for the scratch cell cover it. -/
theorem scover2_B_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) (y : S1x1.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1 S1x1.size (by sl_kernel_rfl) y

/-- What case B leaves in the scratch cell: its pieces read back. -/
def sout2_B_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) : Vec F S1x1 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1)

/-- The last point's pieces for the output cover its one cell. -/
theorem cover2_C_9 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) (y : S1x1.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1 S1x1.size (by sl_kernel_rfl) y

/-- What case C leaves in the output's staging buffer: its pieces read back. -/
def out2_C_9 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) : Vec F S1x1 .f32 :=
  VO2_9.read (Elt F) (VO2_9.writes (Elt F) VO2_9.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1)

/-- Case C's pieces for the scratch cell cover it. -/
theorem scover2_C_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) (y : S1x1.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1 S1x1.size (by sl_kernel_rfl) y

/-- What case C leaves in the scratch cell: its pieces read back. -/
def sout2_C_0 (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) : Vec F S1x1 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1)

/-! ## What the output's buffer and the scratch cell hold after each point -/

/-- No point after the first takes the first branch. -/
theorem not_first_succ (n : ℕ) (hn : n + 1 < cfg2.N) : ¬cond2_0 (grid2.coords ⟨n + 1, hn⟩) := fun h => by
  have h' := (hcond2_0 ⟨n + 1, hn⟩).mp h
  have hN : n + 1 < 50 := lt_of_lt_of_eq hn (show cfg2.N = 50 from N_2)
  (try dsimp only at h'); omega

/-- THE ACCUMULATION: the output's staging buffer and the scratch cell after the body at position `n`. The first point
    runs from an arbitrary scratch; every later point runs over the scratch the point before left. -/
def outsAt2 (c : Dev nD) : (n : ℕ) → n < cfg2.N → Vec F S1x1 .f32 × Vec F S1x1 .f32
  | 0, hn => (out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩))
  | n + 1, hn =>
    if h1 : (n + 1) % 50 = 49 then
      (out2_C_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (not_first_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (not_first_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2)
    else
      (out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (not_first_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (not_first_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn)).2)

/-- `outsAt2` at the first point. -/
theorem outsAt2_A (c : Dev nD) (t : Fin cfg2.N) (h0 : t.val % 50 = 0) (h1 : ¬t.val % 50 = 49) :
    outsAt2 V c t.val t.isLt = (out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)) := by
  obtain ⟨n, hn⟩ := t
  cases n with
  | zero => exact rfl
  | succ n => exact (by exfalso; have hN : n + 1 < 50 := lt_of_lt_of_eq hn (show cfg2.N = 50 from N_2); (try dsimp only at h0); omega)

/-- `outsAt2` at a middle point: over what the point before left. -/
theorem outsAt2_B (c : Dev nD) (t : Fin cfg2.N) (h0 : ¬t.val % 50 = 0) (h1 : ¬t.val % 50 = 49) :
    outsAt2 V c t.val t.isLt = (out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt2` at the last point: over what the point before left. -/
theorem outsAt2_C (c : Dev nD) (t : Fin cfg2.N) (h0 : ¬t.val % 50 = 0) (h1 : t.val % 50 = 49) :
    outsAt2 V c t.val t.isLt = (out2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The launch's invariant -/

/-- The invariant before position `n`: before the first point the launch's resting invariant (the scratch cell at
    anything); afterwards the same with the scratch cell at what the point before left in it. The other launches'
    staging buffers are carried along at some contents throughout. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The launch's proof data -/

/-- The proof data of the third launch on core `c`: the arrays as the launch finds them; after the body at point `t`
    each input's buffer at its block and the output's at `outsAt2`'s first component; the invariant `PhiS2`; nothing
    owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
  Φ t := PhiS2 V c t.val (Nat.le_of_lt_succ t.isLt)
  q _ := fullShare
  owed _ := 0

/-- The proof data's arrays are the entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t.val t.isLt).1 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
/-- The body at any point. The inputs' buffers hold their blocks; the closed forms of the two conditions say which
    kind of point this is, so that kind's run applies; the invariant hands the body the scratch cell at what the point
    before left (at anything at the first point) and takes it back at this point's contents; the other launches'
    staging buffers and the generator register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  by_cases h0 : t.val % 50 = 0
  · by_cases h1 : t.val % 50 = 49
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [show (dat2 V c).leavesExact 8 t = owns (c : Thread nD τ) (ms2_8 t) fullShare ((dat2 V c).after 8 t) from by
        unfold Dat.leavesExact; rw [liveAt2_8 t], after2_8]
      rw [Dat.leavesExact_idle (dat2 V c) 9 t (idleAt2_9_A t ((hcond2_0 t).mpr h0) (fun h => h1 ((hcond2_1 t).mp h))) (noFlush2_9_A t ((hcond2_0 t).mpr h0) (fun h => h1 ((hcond2_1 t).mp h)))]
      rw [outsAt2_A V c t h0 h1]
      dsimp only
      have hz : t.val = 0 := by omega
      rw [PhiS2_castSucc V c t, PhiS2_zero V c _ _ hz, PhiA2_eq]
      iintro ⟨⟨⟨HR0, HR1, HR2, HR3, HR4, HR5, HR6, HR7, HR8, HR9, HR10, HR11, HR12, HR13, HR14, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HR0 HR1 HR2 HR3 HR4 HR5 HR6 HR7 HR8 HR9 HR10 HR11 HR12 HR13 HR14 HS0 Hg]
      · isplitl [HR0 HR1 HR2 HR3 HR4 HR5 HR6 HR7 HR8 HR9 HR10 HR11 HR12 HR13 HR14 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          unfold owns; iexists _; isplitr
          swap; · iexact HS0
          ipureintro; exact View.read_writes_of_cover _ _ _ _ _ (scover2_A_0 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

  · by_cases h1 : t.val % 50 = 49
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [show (dat2 V c).leavesExact 8 t = owns (c : Thread nD τ) (ms2_8 t) fullShare ((dat2 V c).after 8 t) from by
        unfold Dat.leavesExact; rw [liveAt2_8 t], after2_8]
      rw [show (dat2 V c).leavesExact 9 t = owns (c : Thread nD τ) (ms2_9 t) fullShare ((dat2 V c).after 9 t) from by
        unfold Dat.leavesExact; rw [liveAt2_9_C t (fun h => h0 ((hcond2_0 t).mp h)) ((hcond2_1 t).mpr h1)], after2_9]
      rw [outsAt2_C V c t h0 h1]
      dsimp only
      have hz : t.val ≠ 0 := by omega
      rw [PhiS2_castSucc V c t, PhiS2_pos V c _ _ hz]
      iintro ⟨⟨⟨HR0, HR1, HR2, HR3, HR4, HR5, HR6, HR7, HR8, HR9, HR10, HR11, HR12, HR13, HR14, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, ⟨%es0, HS0⟩⟩
      isplitl [HR0 HR1 HR2 HR3 HR4 HR5 HR6 HR7 HR8 HR9 HR10 HR11 HR12 HR13 HR14 HS0 Hg]
      · isplitl [HR0 HR1 HR2 HR3 HR4 HR5 HR6 HR7 HR8 HR9 HR10 HR11 HR12 HR13 HR14 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          unfold owns; iexists _; isplitr
          swap; · iexact HS0
          ipureintro; exact View.read_writes_of_cover _ _ _ _ _ (scover2_C_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover2_C_9 c _ _ _ _ _ _ _ _ _ _ _ _ _ _ _ _ _ _ _ _ _ _ _ _ _ _ _ _ _ _ _ _ _ _ _)

    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [show (dat2 V c).leavesExact 8 t = owns (c : Thread nD τ) (ms2_8 t) fullShare ((dat2 V c).after 8 t) from by
        unfold Dat.leavesExact; rw [liveAt2_8 t], after2_8]
      rw [Dat.leavesExact_idle (dat2 V c) 9 t (idleAt2_9_B t (fun h => h0 ((hcond2_0 t).mp h)) (fun h => h1 ((hcond2_1 t).mp h))) (noFlush2_9_B t (fun h => h0 ((hcond2_0 t).mp h)) (fun h => h1 ((hcond2_1 t).mp h)))]
      rw [outsAt2_B V c t h0 h1]
      dsimp only
      have hz : t.val ≠ 0 := by omega
      rw [PhiS2_castSucc V c t, PhiS2_pos V c _ _ hz]
      iintro ⟨⟨⟨HR0, HR1, HR2, HR3, HR4, HR5, HR6, HR7, HR8, HR9, HR10, HR11, HR12, HR13, HR14, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HR0 HR1 HR2 HR3 HR4 HR5 HR6 HR7 HR8 HR9 HR10 HR11 HR12 HR13 HR14 HS0 Hg]
      · isplitl [HR0 HR1 HR2 HR3 HR4 HR5 HR6 HR7 HR8 HR9 HR10 HR11 HR12 HR13 HR14 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          unfold owns; iexists _; isplitr
          swap; · iexact HS0
          ipureintro; exact View.read_writes_of_cover _ _ _ _ _ (scover2_B_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the resting invariant back: the scratch cell's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HR14, HS0⟩, Hg⟩
  isplitl [HR0 HR1 HR2 HR3 HR4 HR5 HR6 HR7 HR8 HR9 HR10 HR11 HR12 HR13 HR14 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Cert.KernelIdeal.FrameH

end
-- ==== Proof.KI.Run.lean ====
/-
  The kernel program's run, assembled: its three launches among the host stretches, each launch entered at the buffer
  contents the stretch before it leaves and left at those contents with the launch's output array replaced by the fold of
  its write-backs. The result buffer ends at what the third launch's write-backs leave; every argument ends as launched.
-/
import proofs.«116843_j64098091925532_2_alg».proof.Proof.KI.RunCond
import proofs.«116843_j64098091925532_2_alg».proof.Proof.KI.R0
import proofs.«116843_j64098091925532_2_alg».proof.Proof.KI.R1
import proofs.«116843_j64098091925532_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FrameH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents the launches leave -/

/-- A valuation read at the TensorCore's references (what a launch's proof data take). -/
abbrev atTc (W : Dev nD → Valuation τ sig (Elt F)) : (c : Dev nD) → (b : Ref sig .tc) → Buf (Elt F) ((c : Thread nD τ).loc b) :=
  fun c b => W c b

/-- After launch 0: its arrays at what the pipeline leaves, every other buffer as entered. -/
def XA (c : Dev nD) : Valuation τ sig (Elt F) :=
  Pipeline.withArrays spec0 c (Gen.V5 m c) fun w => (dat0 (atTc (Gen.V5 m)) c).arrAt w cfg0.N
/-- The contents launch 1 is entered at: the host stretch after launch 0, run from launch 0's exit contents. -/
def VA7 (c : Dev nD) : Valuation τ sig (Elt F) := Gen.V7 m (fun _ r c => XA m c r) c
/-- After launch 1. -/
def XB (c : Dev nD) : Valuation τ sig (Elt F) :=
  Pipeline.withArrays spec1 c (VA7 m c) fun w => (dat1 (atTc (VA7 m)) c).arrAt w cfg1.N
/-- The contents launch 2 is entered at. -/
def VA9 (c : Dev nD) : Valuation τ sig (Elt F) :=
  Gen.V9 m (fun n r c => match n with | 6 => XA m c r | _ => XB m c r) c
/-- After launch 2. -/
def XC (c : Dev nD) : Valuation τ sig (Elt F) :=
  Pipeline.withArrays spec2 c (VA9 m c) fun w => (dat2 (atTc (VA9 m)) c).arrAt w cfg2.N

/-- What each launch leaves in the buffers it may change, as the conditional frame asks for it. -/
def outs : Gen.Outs (F := F) := fun n r c => match n with
  | 6 => XA m c r
  | 8 => XB m c r
  | _ => XC m c r

theorem V7_outs (c : Dev nD) : Gen.V7 m (outs m) c = VA7 m c := rfl
theorem V9_outs (c : Dev nD) : Gen.V9 m (outs m) c = VA9 m c := rfl

theorem XA_arr (c : Dev nD) (w : Fin cfg0.W) :
    XA m c (Proc.devRef .tc (Pipeline.arrRef spec0 w)) = (dat0 (atTc (Gen.V5 m)) c).arrAt w cfg0.N := by
  unfold XA; exact Pipeline.withArrays_arr spec0 launch0.win.arr_inj c _ _ w
theorem XB_arr (c : Dev nD) (w : Fin cfg1.W) :
    XB m c (Proc.devRef .tc (Pipeline.arrRef spec1 w)) = (dat1 (atTc (VA7 m)) c).arrAt w cfg1.N := by
  unfold XB; exact Pipeline.withArrays_arr spec1 launch1.win.arr_inj c _ _ w
theorem XC_arr (c : Dev nD) (w : Fin cfg2.W) :
    XC m c (Proc.devRef .tc (Pipeline.arrRef spec2 w)) = (dat2 (atTc (VA9 m)) c).arrAt w cfg2.N := by
  unfold XC; exact Pipeline.withArrays_arr spec2 launch2.win.arr_inj c _ _ w

/-! ## The proof data family and the thread state -/

/-- Every launch's proof data, each at its entry contents — a literal match on the launch. -/
def pdats : (p : Fin 3) → (c : Dev nD) → Dat τ (Elt F) Unit ℕ (Pipeline.UD sig nD τ) ℕ (cfgs p) c
  | ⟨0, _⟩ => fun c => dat0 (atTc (Gen.V5 m)) c
  | ⟨1, _⟩ => fun c => dat1 (atTc (VA7 m)) c
  | ⟨2, _⟩ => fun c => dat2 (atTc (VA9 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

set_option maxHeartbeats 1000000 in
/-- At launch 0's exit each of its arrays holds what the pipeline leaves: an input's array is as entered (no window
    writes it back), the output's is the fold of its write-backs, which is what `outs` records there. -/
theorem hF0 (c : Dev nD) : ∀ w : Fin cfg0.W, (pdats m 0 c).arrAt w cfg0.N = atTc (Gen.V6 m (outs m)) c (Pipeline.arrRef spec0 w)
  | ⟨0, _⟩ => (((pdats m 0 c).arrAt_in 0 rfl _).trans (A_eq0 (atTc (Gen.V5 m)) c 0)).trans (Gen.V6_of m (outs m) c (Pipeline.arrRef spec0 0) (by decide)).symm
  | ⟨1, _⟩ => (((pdats m 0 c).arrAt_in 1 rfl _).trans (A_eq0 (atTc (Gen.V5 m)) c 1)).trans (Gen.V6_of m (outs m) c (Pipeline.arrRef spec0 1) (by decide)).symm
  | ⟨2, _⟩ => (((pdats m 0 c).arrAt_in 2 rfl _).trans (A_eq0 (atTc (Gen.V5 m)) c 2)).trans (Gen.V6_of m (outs m) c (Pipeline.arrRef spec0 2) (by decide)).symm
  | ⟨3, _⟩ => (((pdats m 0 c).arrAt_in 3 rfl _).trans (A_eq0 (atTc (Gen.V5 m)) c 3)).trans (Gen.V6_of m (outs m) c (Pipeline.arrRef spec0 3) (by decide)).symm
  | ⟨4, _⟩ => ((XA_arr m c 4).symm.trans (by
      show XA m c (Proc.devRef .tc main_v23) = Gen.V6 m (outs m) c (Proc.devRef .tc main_v23)
      simp only [Gen.V6, Function.update_self]
      rfl))
/-- Every buffer that is not one of launch 0's arrays is as entered. -/
theorem hrest0 (c : Dev nD) : ∀ b, b ∉ Finset.univ.image (Pipeline.arrRef spec0) → atTc (Gen.V6 m (outs m)) c b = atTc (Gen.V5 m) c b :=
  fun b hb => Gen.V6_of m (outs m) c b fun h => hb (by
    rw [List.mem_singleton.mp h]; exact Finset.mem_image.mpr ⟨4, Finset.mem_univ _, rfl⟩)

set_option maxHeartbeats 1000000 in
/-- A buffer launch 1 does not write is, at its exit, as at its entry. -/
theorem keep1 (c : Dev nD) (b : Ref sig .tc) (hb : b ∉ ([main_v38] : List (Ref sig .tc))) :
    atTc (Gen.V8 m (outs m)) c b = atTc (VA7 m) c b := by
  show Gen.V8 m (outs m) c b = VA7 m c b
  rw [← V7_outs m c]
  exact Gen.V8_of m (outs m) c b hb
set_option maxHeartbeats 1000000 in
/-- At launch 1's exit each of its arrays holds what the pipeline leaves: an input's array is as entered (no window
    writes it back), the output's is the fold of its write-backs, which is what `outs` records there. -/
theorem hF1 (c : Dev nD) : ∀ w : Fin cfg1.W, (pdats m 1 c).arrAt w cfg1.N = atTc (Gen.V8 m (outs m)) c (Pipeline.arrRef spec1 w)
  | ⟨0, _⟩ => (((pdats m 1 c).arrAt_in 0 rfl _).trans (A_eq1 (atTc (VA7 m)) c 0)).trans (keep1 m c (Pipeline.arrRef spec1 0) (by decide)).symm
  | ⟨1, _⟩ => (((pdats m 1 c).arrAt_in 1 rfl _).trans (A_eq1 (atTc (VA7 m)) c 1)).trans (keep1 m c (Pipeline.arrRef spec1 1) (by decide)).symm
  | ⟨2, _⟩ => (((pdats m 1 c).arrAt_in 2 rfl _).trans (A_eq1 (atTc (VA7 m)) c 2)).trans (keep1 m c (Pipeline.arrRef spec1 2) (by decide)).symm
  | ⟨3, _⟩ => (((pdats m 1 c).arrAt_in 3 rfl _).trans (A_eq1 (atTc (VA7 m)) c 3)).trans (keep1 m c (Pipeline.arrRef spec1 3) (by decide)).symm
  | ⟨4, _⟩ => ((XB_arr m c 4).symm.trans (by
      show XB m c (Proc.devRef .tc main_v38) = Gen.V8 m (outs m) c (Proc.devRef .tc main_v38)
      simp only [Gen.V8, Function.update_self]
      rfl))
/-- Every buffer that is not one of launch 1's arrays is as entered. -/
theorem hrest1 (c : Dev nD) : ∀ b, b ∉ Finset.univ.image (Pipeline.arrRef spec1) → atTc (Gen.V8 m (outs m)) c b = atTc (VA7 m) c b :=
  fun b hb => keep1 m c b fun h => hb (by
    rw [List.mem_singleton.mp h]; exact Finset.mem_image.mpr ⟨4, Finset.mem_univ _, rfl⟩)

set_option maxHeartbeats 1000000 in
/-- A buffer launch 2 does not write is, at its exit, as at its entry. -/
theorem keep2 (c : Dev nD) (b : Ref sig .tc) (hb : b ∉ ([main_v53] : List (Ref sig .tc))) :
    atTc (Gen.V10 m (outs m)) c b = atTc (VA9 m) c b := by
  show Gen.V10 m (outs m) c b = VA9 m c b
  rw [← V9_outs m c]
  exact Gen.V10_of m (outs m) c b hb
set_option maxHeartbeats 1000000 in
/-- At launch 2's exit each of its arrays holds what the pipeline leaves: an input's array is as entered (no window
    writes it back), the output's is the fold of its write-backs, which is what `outs` records there. -/
theorem hF2 (c : Dev nD) : ∀ w : Fin cfg2.W, (pdats m 2 c).arrAt w cfg2.N = atTc (Gen.V10 m (outs m)) c (Pipeline.arrRef spec2 w)
  | ⟨0, _⟩ => (((pdats m 2 c).arrAt_in 0 rfl _).trans (A_eq2 (atTc (VA9 m)) c 0)).trans (keep2 m c (Pipeline.arrRef spec2 0) (by decide)).symm
  | ⟨1, _⟩ => (((pdats m 2 c).arrAt_in 1 rfl _).trans (A_eq2 (atTc (VA9 m)) c 1)).trans (keep2 m c (Pipeline.arrRef spec2 1) (by decide)).symm
  | ⟨2, _⟩ => (((pdats m 2 c).arrAt_in 2 rfl _).trans (A_eq2 (atTc (VA9 m)) c 2)).trans (keep2 m c (Pipeline.arrRef spec2 2) (by decide)).symm
  | ⟨3, _⟩ => (((pdats m 2 c).arrAt_in 3 rfl _).trans (A_eq2 (atTc (VA9 m)) c 3)).trans (keep2 m c (Pipeline.arrRef spec2 3) (by decide)).symm
  | ⟨4, _⟩ => (((pdats m 2 c).arrAt_in 4 rfl _).trans (A_eq2 (atTc (VA9 m)) c 4)).trans (keep2 m c (Pipeline.arrRef spec2 4) (by decide)).symm
  | ⟨5, _⟩ => (((pdats m 2 c).arrAt_in 5 rfl _).trans (A_eq2 (atTc (VA9 m)) c 5)).trans (keep2 m c (Pipeline.arrRef spec2 5) (by decide)).symm
  | ⟨6, _⟩ => (((pdats m 2 c).arrAt_in 6 rfl _).trans (A_eq2 (atTc (VA9 m)) c 6)).trans (keep2 m c (Pipeline.arrRef spec2 6) (by decide)).symm
  | ⟨7, _⟩ => (((pdats m 2 c).arrAt_in 7 rfl _).trans (A_eq2 (atTc (VA9 m)) c 7)).trans (keep2 m c (Pipeline.arrRef spec2 7) (by decide)).symm
  | ⟨8, _⟩ => (((pdats m 2 c).arrAt_in 8 rfl _).trans (A_eq2 (atTc (VA9 m)) c 8)).trans (keep2 m c (Pipeline.arrRef spec2 8) (by decide)).symm
  | ⟨9, _⟩ => ((XC_arr m c 9).symm.trans (by
      show XC m c (Proc.devRef .tc main_v53) = Gen.V10 m (outs m) c (Proc.devRef .tc main_v53)
      simp only [Gen.V10, Function.update_self]
      rfl))
/-- Every buffer that is not one of launch 2's arrays is as entered. -/
theorem hrest2 (c : Dev nD) : ∀ b, b ∉ Finset.univ.image (Pipeline.arrRef spec2) → atTc (Gen.V10 m (outs m)) c b = atTc (VA9 m) c b :=
  fun b hb => keep2 m c b fun h => hb (by
    rw [List.mem_singleton.mp h]; exact Finset.mem_image.mpr ⟨9, Finset.mem_univ _, rfl⟩)

/-! ## The launches as segments -/

set_option backward.isDefEq.respectTransparency.types false in
/-- LAUNCH 0 over the thread state: entered from every unscoped buffer at the contents before it, left at the contents
    after it. Its arrays are split out of the unscoped buffers and put back at the exit contents; the generator register
    goes into the launch's invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (Gen.V5 m)) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (atTc (Gen.V5 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (Gen.V5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (atTc (Gen.V5 m) c) (atTc (Gen.V6 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at the contents before it, left at the contents
    after it. Its arrays are split out of the unscoped buffers and put back at the exit contents; the generator register
    goes into the launch's invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (VA7 m)) c).loose
  hwaits := Pipeline.hwaits_of_owed_zero _ _ _ _ L lv 1 fun _ _ => rfl
  pre c := iprop(StableHlo.held (c : Thread nD τ) (Pipeline.ucRefs τ sig) (VA7 m c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (atTc (VA7 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (VA7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (atTc (VA7 m) c) (atTc (Gen.V8 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 over the thread state: entered from every unscoped buffer at the contents before it, left at the contents
    after it. Its arrays are split out of the unscoped buffers and put back at the exit contents; the generator register
    goes into the launch's invariant and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (VA9 m)) c).loose
  hwaits := Pipeline.hwaits_of_owed_zero _ _ _ _ L lv 2 fun _ _ => rfl
  pre c := iprop(StableHlo.held (c : Thread nD τ) (Pipeline.ucRefs τ sig) (VA9 m c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (atTc (VA9 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (VA9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atTc (VA9 m)) c)
    unfold Pipeline.ΦA
    iintro ⟨Hp, -, Hr⟩
    isplitl [Hr]; · iexact Hr
    iexact Hp
  hout c := by
    rw [Pipeline.ownSems0_none]
    refine BIBase.Entails.trans (hout2 (atTc (VA9 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (atTc (VA9 m) c) (atTc (Gen.V10 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program terminates, nothing faulting; the result buffer ends at what the third
    launch's write-backs leave in it and every argument array ends as launched. -/
theorem run : θ_run defs (onTc (τ := τ) (main (F := F))) ⟨m, fun _ => 0, ρ⟩ (fun r => ∀ c : Dev nD,
      r.2.mem ((c.tc : Thread nD τ).loc main_v53) = Gen.V10 m (outs m) c main_v53
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  GenP.run_cond m embL () 𝒱₀ L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => .rfl)
    (reg1 m) (fun c => by rw [V7_outs m c]; exact .rfl) (fun c => .rfl)
    (reg2 m) (fun c => by rw [V9_outs m c]; exact .rfl) (fun c => .rfl)

/-- The result buffer's final contents, by name: the fold of the third launch's write-backs of its output window. -/
theorem result_eq (c : Dev nD) : Gen.V10 m (outs m) c main_v53 = (dat2 (atTc (VA9 m)) c).arrAt 9 cfg2.N := by
  show Gen.V10 m (outs m) c (Proc.devRef .tc main_v53) = _
  simp only [Gen.V10, Function.update_self]
  exact XC_arr m c 9

/-- The frame: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2) (run m ρ)

end Cert.KernelIdeal.FrameH

end
-- ==== Proof.KI.R2Acc.lean ====
/-
  The third launch's accumulation in the body's arithmetic alone. At each kind of grid point the pieces the body
  leaves in the scratch cell, and at the last point in the output's buffer, are single stores through the whole
  one-cell block, and every load the body makes is a load through a whole block: so what a buffer holds afterwards
  is the stored value itself, and a load reads the buffer's contents themselves. Hence the scratch cell after the
  first point is the first tile's row sum added to the zero just stored; after every later point it is the tile's
  row sum added to what the point before left; and the output's buffer after the last point is the final total
  divided by the row count.
-/
import proofs.«116843_j64098091925532_2_alg».proof.Proof.KI.R2
import Idealize.ShloMosaic.Lib.Pipeline.Value

set_option maxRecDepth 16384

noncomputable section

namespace Cert.KernelIdeal.FrameH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves, as a term of the body's arithmetic -/

/-- The zero offsets of a whole-block access, however spelt. -/
theorem hz2 : (![0, 0] : Fin 2 → ℕ) = fun _ => 0 := by funext a; fin_cases a <;> rfl

/-- At the first point the scratch cell ends at the tile's row sum added to the zero just stored. -/
theorem sout2_A_0_eq (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) :
    sout2_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 = k2_pay1 (k2_pay4 x0 x1 x2 x3 x4 x5 x6 x7) x8 (k2_pay3 (F := F)) := by
  unfold sout2_A_0
  rw [View.read_writes_junk_eq_canon]
  unfold kernelRun2_A; dsimp only; sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S20000x10) hz2, View.ld_unit_zero (S := S20000x1) hz2, View.ld_unit_zero (S := S1x10) hz2, View.ld_unit_zero (S := S10x10) hz2, View.ld_unit_zero (S := S10x1) hz2, View.ld_unit_zero (S := S1x1) hz2]

/-- At a middle point the scratch cell ends at the tile's row sum added to what it held. -/
theorem sout2_B_0_eq (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : ¬cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) :
    sout2_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k2_pay1 (k2_pay4 x0 x1 x2 x3 x4 x5 x6 x7) x8 xs0 := by
  unfold sout2_B_0
  rw [View.read_writes_junk_eq_canon]
  unfold kernelRun2_B; dsimp only; sl_unfold_words
  rw [View.canon_unit_zero (S := S1x1) hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S20000x10) hz2, View.ld_unit_zero (S := S20000x1) hz2, View.ld_unit_zero (S := S1x10) hz2, View.ld_unit_zero (S := S10x10) hz2, View.ld_unit_zero (S := S10x1) hz2, View.ld_unit_zero (S := S1x1) hz2]

/-- At the last point likewise, -/
theorem sout2_C_0_eq (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) :
    sout2_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k2_pay1 (k2_pay4 x0 x1 x2 x3 x4 x5 x6 x7) x8 xs0 := by
  unfold sout2_C_0
  rw [View.read_writes_junk_eq_canon]
  unfold kernelRun2_C; dsimp only; sl_unfold_words
  rw [View.canon_unit_zero (S := S1x1) hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S20000x10) hz2, View.ld_unit_zero (S := S20000x1) hz2, View.ld_unit_zero (S := S1x10) hz2, View.ld_unit_zero (S := S10x10) hz2, View.ld_unit_zero (S := S10x1) hz2, View.ld_unit_zero (S := S1x1) hz2]

/-- and the output's buffer ends at that total divided by the row count. -/
theorem out2_C_9_eq (c : Dev nD) (i : grid2.Coords) (arg1 : Memref sig .tc .vmem S20000x10 .f32) (harg1 : arg1.IsWhole) (arg2 : Memref sig .tc .vmem S20000x1 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S10x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond2_0 i) (hc1 : cond2_1 i)
    (x0 : Vec F S20000x10 .f32) (x1 : Vec F S20000x1 .f32) (x2 : Vec F S1x10 .f32) (x3 : Vec F S10x10 .f32) (x4 : Vec F S1x10 .f32) (x5 : Vec F S10x10 .f32) (x6 : Vec F S1x10 .f32) (x7 : Vec F S10x1 .f32) (x8 : Vec F S1x1 .f32) (xs0 : Vec F S1x1 .f32) :
    out2_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0 = k2_pay2 (k2_pay1 (k2_pay4 x0 x1 x2 x3 x4 x5 x6 x7) x8 xs0) := by
  unfold out2_C_9
  rw [View.read_writes_junk_eq_canon]
  unfold kernelRun2_C; dsimp only; sl_unfold_words
  rw [View.canon_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S20000x10) hz2, View.ld_unit_zero (S := S20000x1) hz2, View.ld_unit_zero (S := S1x10) hz2, View.ld_unit_zero (S := S10x10) hz2, View.ld_unit_zero (S := S10x1) hz2, View.ld_unit_zero (S := S1x1) hz2]

/-! ## The accumulation, point by point -/

/-- THE FIRST POINT: the scratch cell ends at the first tile's row sum added to zero. -/
theorem scratch2_zero (c : Dev nD) (h : 0 < cfg2.N) :
    (outsAt2 V c 0 h).2 = k2_pay1 (k2_pay4 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩)) (iblk2 V c 8 ⟨0, h⟩) (k2_pay3 (F := F)) := by
  have h0 : (⟨0, h⟩ : Fin cfg2.N).val % 50 = 0 := Nat.zero_mod _
  have h1 : ¬(⟨0, h⟩ : Fin cfg2.N).val % 50 = 49 := by show ¬(0 % 50 = 49); decide
  rw [show outsAt2 V c 0 h = outsAt2 V c (⟨0, h⟩ : Fin cfg2.N).val (⟨0, h⟩ : Fin cfg2.N).isLt from rfl, outsAt2_A V c (⟨0, h⟩ : Fin cfg2.N) h0 h1]
  exact sout2_A_0_eq c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) (ms2_7 (⟨0, h⟩ : Fin cfg2.N)) (hs2_7 (⟨0, h⟩ : Fin cfg2.N)) (ms2_8 (⟨0, h⟩ : Fin cfg2.N)) (hs2_8 (⟨0, h⟩ : Fin cfg2.N)) (ms2_9 (⟨0, h⟩ : Fin cfg2.N)) (hs2_9 (⟨0, h⟩ : Fin cfg2.N)) scM2_0 (Memref.isWhole_whole _) ((hcond2_0 (⟨0, h⟩ : Fin cfg2.N)).mpr h0) (fun h' => h1 ((hcond2_1 (⟨0, h⟩ : Fin cfg2.N)).mp h')) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N)) (iblk2 V c 5 (⟨0, h⟩ : Fin cfg2.N)) (iblk2 V c 6 (⟨0, h⟩ : Fin cfg2.N)) (iblk2 V c 7 (⟨0, h⟩ : Fin cfg2.N)) (iblk2 V c 8 (⟨0, h⟩ : Fin cfg2.N))

/-- EVERY LATER POINT: the scratch cell ends at the tile's row sum added to what the point before left. -/
theorem scratch2_succ (c : Dev nD) (n : ℕ) (h : n + 1 < cfg2.N) :
    (outsAt2 V c (n + 1) h).2 = k2_pay1 (k2_pay4 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩)) (iblk2 V c 8 ⟨n + 1, h⟩) (outsAt2 V c n (Nat.lt_of_succ_lt h)).2 := by
  have hN : n + 1 < 50 := lt_of_lt_of_eq h (show cfg2.N = 50 from N_2)
  have h0 : ¬(⟨n + 1, h⟩ : Fin cfg2.N).val % 50 = 0 := by show ¬((n + 1) % 50 = 0); omega
  rw [show outsAt2 V c (n + 1) h = outsAt2 V c (⟨n + 1, h⟩ : Fin cfg2.N).val (⟨n + 1, h⟩ : Fin cfg2.N).isLt from rfl]
  by_cases h1 : (⟨n + 1, h⟩ : Fin cfg2.N).val % 50 = 49
  · rw [outsAt2_C V c (⟨n + 1, h⟩ : Fin cfg2.N) h0 h1]
    exact sout2_C_0_eq c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (ms2_8 (⟨n + 1, h⟩ : Fin cfg2.N)) (hs2_8 (⟨n + 1, h⟩ : Fin cfg2.N)) (ms2_9 (⟨n + 1, h⟩ : Fin cfg2.N)) (hs2_9 (⟨n + 1, h⟩ : Fin cfg2.N)) scM2_0 (Memref.isWhole_whole _) (fun h' => h0 ((hcond2_0 (⟨n + 1, h⟩ : Fin cfg2.N)).mp h')) ((hcond2_1 (⟨n + 1, h⟩ : Fin cfg2.N)).mpr h1) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (iblk2 V c 5 (⟨n + 1, h⟩ : Fin cfg2.N)) (iblk2 V c 6 (⟨n + 1, h⟩ : Fin cfg2.N)) (iblk2 V c 7 (⟨n + 1, h⟩ : Fin cfg2.N)) (iblk2 V c 8 (⟨n + 1, h⟩ : Fin cfg2.N)) (outsAt2 V c n (Nat.lt_of_succ_lt h)).2
  · rw [outsAt2_B V c (⟨n + 1, h⟩ : Fin cfg2.N) h0 h1]
    exact sout2_B_0_eq c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (ms2_8 (⟨n + 1, h⟩ : Fin cfg2.N)) (hs2_8 (⟨n + 1, h⟩ : Fin cfg2.N)) (ms2_9 (⟨n + 1, h⟩ : Fin cfg2.N)) (hs2_9 (⟨n + 1, h⟩ : Fin cfg2.N)) scM2_0 (Memref.isWhole_whole _) (fun h' => h0 ((hcond2_0 (⟨n + 1, h⟩ : Fin cfg2.N)).mp h')) (fun h' => h1 ((hcond2_1 (⟨n + 1, h⟩ : Fin cfg2.N)).mp h')) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (iblk2 V c 5 (⟨n + 1, h⟩ : Fin cfg2.N)) (iblk2 V c 6 (⟨n + 1, h⟩ : Fin cfg2.N)) (iblk2 V c 7 (⟨n + 1, h⟩ : Fin cfg2.N)) (iblk2 V c 8 (⟨n + 1, h⟩ : Fin cfg2.N)) (outsAt2 V c n (Nat.lt_of_succ_lt h)).2

/-- THE LAST POINT: the output's buffer ends at the scratch cell's final total divided by the row count. -/
theorem out2_last (c : Dev nD) (h : 49 < cfg2.N) :
    (outsAt2 V c 49 h).1 = k2_pay2 (outsAt2 V c 49 h).2 := by
  have h0 : ¬(⟨49, h⟩ : Fin cfg2.N).val % 50 = 0 := by show ¬(49 % 50 = 0); decide
  have h1 : (⟨49, h⟩ : Fin cfg2.N).val % 50 = 49 := by show 49 % 50 = 49; decide
  rw [show outsAt2 V c 49 h = outsAt2 V c (⟨49, h⟩ : Fin cfg2.N).val (⟨49, h⟩ : Fin cfg2.N).isLt from rfl, outsAt2_C V c (⟨49, h⟩ : Fin cfg2.N) h0 h1]
  exact (out2_C_9_eq c (grid2.coords (⟨49, h⟩ : Fin cfg2.N)) (ms2_0 (⟨49, h⟩ : Fin cfg2.N)) (hs2_0 (⟨49, h⟩ : Fin cfg2.N)) (ms2_1 (⟨49, h⟩ : Fin cfg2.N)) (hs2_1 (⟨49, h⟩ : Fin cfg2.N)) (ms2_2 (⟨49, h⟩ : Fin cfg2.N)) (hs2_2 (⟨49, h⟩ : Fin cfg2.N)) (ms2_3 (⟨49, h⟩ : Fin cfg2.N)) (hs2_3 (⟨49, h⟩ : Fin cfg2.N)) (ms2_4 (⟨49, h⟩ : Fin cfg2.N)) (hs2_4 (⟨49, h⟩ : Fin cfg2.N)) (ms2_5 (⟨49, h⟩ : Fin cfg2.N)) (hs2_5 (⟨49, h⟩ : Fin cfg2.N)) (ms2_6 (⟨49, h⟩ : Fin cfg2.N)) (hs2_6 (⟨49, h⟩ : Fin cfg2.N)) (ms2_7 (⟨49, h⟩ : Fin cfg2.N)) (hs2_7 (⟨49, h⟩ : Fin cfg2.N)) (ms2_8 (⟨49, h⟩ : Fin cfg2.N)) (hs2_8 (⟨49, h⟩ : Fin cfg2.N)) (ms2_9 (⟨49, h⟩ : Fin cfg2.N)) (hs2_9 (⟨49, h⟩ : Fin cfg2.N)) scM2_0 (Memref.isWhole_whole _) (fun h' => h0 ((hcond2_0 (⟨49, h⟩ : Fin cfg2.N)).mp h')) ((hcond2_1 (⟨49, h⟩ : Fin cfg2.N)).mpr h1) (iblk2 V c 0 (⟨49, h⟩ : Fin cfg2.N)) (iblk2 V c 1 (⟨49, h⟩ : Fin cfg2.N)) (iblk2 V c 2 (⟨49, h⟩ : Fin cfg2.N)) (iblk2 V c 3 (⟨49, h⟩ : Fin cfg2.N)) (iblk2 V c 4 (⟨49, h⟩ : Fin cfg2.N)) (iblk2 V c 5 (⟨49, h⟩ : Fin cfg2.N)) (iblk2 V c 6 (⟨49, h⟩ : Fin cfg2.N)) (iblk2 V c 7 (⟨49, h⟩ : Fin cfg2.N)) (iblk2 V c 8 (⟨49, h⟩ : Fin cfg2.N)) (outsAt2 V c ((⟨49, h⟩ : Fin cfg2.N).val - 1) (Nat.lt_of_le_of_lt (Nat.sub_le _ _) (⟨49, h⟩ : Fin cfg2.N).isLt)).2).trans
    (congrArg k2_pay2 (sout2_C_0_eq c (grid2.coords (⟨49, h⟩ : Fin cfg2.N)) (ms2_0 (⟨49, h⟩ : Fin cfg2.N)) (hs2_0 (⟨49, h⟩ : Fin cfg2.N)) (ms2_1 (⟨49, h⟩ : Fin cfg2.N)) (hs2_1 (⟨49, h⟩ : Fin cfg2.N)) (ms2_2 (⟨49, h⟩ : Fin cfg2.N)) (hs2_2 (⟨49, h⟩ : Fin cfg2.N)) (ms2_3 (⟨49, h⟩ : Fin cfg2.N)) (hs2_3 (⟨49, h⟩ : Fin cfg2.N)) (ms2_4 (⟨49, h⟩ : Fin cfg2.N)) (hs2_4 (⟨49, h⟩ : Fin cfg2.N)) (ms2_5 (⟨49, h⟩ : Fin cfg2.N)) (hs2_5 (⟨49, h⟩ : Fin cfg2.N)) (ms2_6 (⟨49, h⟩ : Fin cfg2.N)) (hs2_6 (⟨49, h⟩ : Fin cfg2.N)) (ms2_7 (⟨49, h⟩ : Fin cfg2.N)) (hs2_7 (⟨49, h⟩ : Fin cfg2.N)) (ms2_8 (⟨49, h⟩ : Fin cfg2.N)) (hs2_8 (⟨49, h⟩ : Fin cfg2.N)) (ms2_9 (⟨49, h⟩ : Fin cfg2.N)) (hs2_9 (⟨49, h⟩ : Fin cfg2.N)) scM2_0 (Memref.isWhole_whole _) (fun h' => h0 ((hcond2_0 (⟨49, h⟩ : Fin cfg2.N)).mp h')) ((hcond2_1 (⟨49, h⟩ : Fin cfg2.N)).mpr h1) (iblk2 V c 0 (⟨49, h⟩ : Fin cfg2.N)) (iblk2 V c 1 (⟨49, h⟩ : Fin cfg2.N)) (iblk2 V c 2 (⟨49, h⟩ : Fin cfg2.N)) (iblk2 V c 3 (⟨49, h⟩ : Fin cfg2.N)) (iblk2 V c 4 (⟨49, h⟩ : Fin cfg2.N)) (iblk2 V c 5 (⟨49, h⟩ : Fin cfg2.N)) (iblk2 V c 6 (⟨49, h⟩ : Fin cfg2.N)) (iblk2 V c 7 (⟨49, h⟩ : Fin cfg2.N)) (iblk2 V c 8 (⟨49, h⟩ : Fin cfg2.N)) (outsAt2 V c ((⟨49, h⟩ : Fin cfg2.N).val - 1) (Nat.lt_of_le_of_lt (Nat.sub_le _ _) (⟨49, h⟩ : Fin cfg2.N).isLt)).2).symm)

end Cert.KernelIdeal.FrameH

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Val.Cols.lean ====
/-
  A column broadcast along rows, read at an index.

  A table with one column, [a, 1], broadcast to [a, b] repeats its column: at (p, c) the result is the operand's
  entry in row p.
-/
import Idealize.ShloMosaic.Lib.ValueIdx
import Idealize.ShloMosaic.Lib.ValueLayout

namespace Cert.KernelIdeal.ValH

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.ValH
-- ==== Proof.Val.Pay0.lean ====
/-
  The first launch's block computation read at an index, at the extended reals.

  The body takes the three columns c, x, n of a packed feature block, sets c and x side by side as a two-column table,
  multiplies by the 2x10 table Wv, adds the bias row bv, rectifies, scales row p by n (p), and multiplies by the 10x10
  table W2.  Entry (p, q) of the stored block is the sum over the hidden coordinate k of
  (max (∑ j < 2, [c | x] (p, j) * Wv (j, k) + bv (0, k)) 0 * n (p, 0)) * W2 (k, q).
  The zero of the rectifier is kept as the extended real the all-zero f32 pattern denotes.

  `E0` is the same expression over the whole packed feature array (1000000 rows, columns 0 and 1 the two features,
  column 2 the scale).
-/
import proofs.«116843_j64098091925532_2_alg».proof.Proof.Gen.KernelIdeal.Skeleton
import proofs.«116843_j64098091925532_2_alg».proof.Proof.LibTileMatmul
import proofs.«116843_j64098091925532_2_alg».proof.Proof.Val.Cols

noncomputable section

namespace Cert.KernelIdeal.ValH

open Idealize.ShloMosaic Idealize.ShloMosaic.ValueIdx Idealize.ShloMosaic.TileMatmul
open Cert.KernelIdeal Cert.KernelIdeal.Gen
open scoped BigOperators

/-- Two columns set side by side read, in column 0, the first and, in column 1, the second. -/
theorem two_columns_apply {α : Type} (c0 c1 : S20000x1.Idx → α) (p : Fin 20000) :
    concatenate S20000x2 1 [⟨S20000x1, c0⟩, ⟨S20000x1, c1⟩] concatenates_S20000x1_S20000x1_S20000x2_d1 (ix2 p (0 : Fin 2))
        = c0 (ix2 p (0 : Fin 1))
    ∧ concatenate S20000x2 1 [⟨S20000x1, c0⟩, ⟨S20000x1, c1⟩] concatenates_S20000x1_S20000x1_S20000x2_d1 (ix2 p (1 : Fin 2))
        = c1 (ix2 p (0 : Fin 1)) := by
  constructor
  · refine concatenate_pair_apply_left (1 : Fin 2) c0 c1 _ (ix2 p (0 : Fin 2)) rfl (ix2 p (0 : Fin 1)) fun b => ?_
    match b with
    | ⟨0, _⟩ => rfl
    | ⟨1, _⟩ => rfl
  · refine concatenate_pair_apply_right (1 : Fin 2) c0 c1 _ (ix2 p (1 : Fin 2)) rfl rfl (ix2 p (0 : Fin 1)) (fun b hb => ?_) rfl
    match b with
    | ⟨0, _⟩ => rfl
    | ⟨1, _⟩ => exact absurd rfl hb

/-- What the first launch leaves in its output array, index by index, from the arrays it finds: row `p`, column `q`
    holds `∑ k, (max (∑ j < 2, feat (p, j) * wv (j, k) + bv (0, k)) 0 * feat (p, 2)) * w2 (k, q)`. -/
def E0 (feat : Vec Ideal S1000000x3 .f32) (wv : Vec Ideal S2x10 .f32) (bv : Vec Ideal S1x10 .f32)
    (w2 : Vec Ideal S10x10 .f32) : Vec Ideal S1000000x10 .bf16 :=
  fun i => ∑ k : Fin 10, (max ((∑ j : Fin 2, feat (ix2 (i 0) (Fin.castSucc j)) * wv (ix2 j k)) + bv (ix2 (0 : Fin 1) k))
      (Ideal.ofBits .f32 0x00000000#32) * feat (ix2 (i 0) (2 : Fin 3))) * w2 (ix2 k (i 1))

theorem E0_apply (feat : Vec Ideal S1000000x3 .f32) (wv : Vec Ideal S2x10 .f32) (bv : Vec Ideal S1x10 .f32)
    (w2 : Vec Ideal S10x10 .f32) (r : Fin 1000000) (q : Fin 10) :
    E0 feat wv bv w2 (ix2 r q)
      = ∑ k : Fin 10, (max ((∑ j : Fin 2, feat (ix2 r (Fin.castSucc j)) * wv (ix2 j k)) + bv (ix2 (0 : Fin 1) k))
          (Ideal.ofBits .f32 0x00000000#32) * feat (ix2 r (2 : Fin 3))) * w2 (ix2 k q) := rfl

/-- The block the body stores, at `(p, q)`. -/
theorem k0_pay1_apply (c0 c1 c2 : Vec Ideal S20000x1 .f32) (wv : Vec Ideal S2x10 .f32) (bv : Vec Ideal S1x10 .f32)
    (w2 : Vec Ideal S10x10 .f32) (p : Fin 20000) (q : Fin 10) :
    k0_pay1 c0 c1 c2 wv bv w2 (ix2 p q)
      = ∑ k : Fin 10, (max ((∑ j : Fin 2,
            concatenate S20000x2 1 [⟨S20000x1, c0⟩, ⟨S20000x1, c1⟩] concatenates_S20000x1_S20000x1_S20000x2_d1 (ix2 p j)
              * wv (ix2 j k)) + bv (ix2 (0 : Fin 1) k))
          (Ideal.ofBits .f32 0x00000000#32) * c2 (ix2 p (0 : Fin 1))) * w2 (ix2 k q) := by
  unfold k0_pay1
  refine (matmul_zero_apply (φ₁ := .f32) (φ₂ := .f32) dot_S20000x10_S10x10_S20000x10_1_0_0_1_n_n_wf none _ w2 p q).trans ?_
  refine Finset.sum_congr rfl fun k _ => ?_
  refine congrArg (· * w2 (ix2 k q)) ?_
  rw [mulf_apply, maximumf_apply, addf_apply, broadcast_apply]
  simp only [shapeCast_self]
  rw [broadcastTo_a1_ab_apply, broadcastTo_1b_ab_apply, shapeCast_self c0, shapeCast_self c1]
  exact congrArg (fun s => max (s + bv (ix2 (0 : Fin 1) k)) (Ideal.ofBits .f32 0x00000000#32) * c2 (ix2 p (0 : Fin 1)))
    (matmul_zero_apply (φ₁ := .f32) (φ₂ := .f32) dot_S20000x2_S2x10_S20000x10_1_0_0_1_n_n_wf none
      (concatenate S20000x2 1 [⟨S20000x1, c0⟩, ⟨S20000x1, c1⟩] concatenates_S20000x1_S20000x1_S20000x2_d1) wv p k)

/-- A stored block entry is the array entry `E0` names, when the block's operands are the arrays' entries on row `r`
    and column `q`. -/
theorem k0_pay1_eq_E0 (feat : Vec Ideal S1000000x3 .f32) (wv : Vec Ideal S2x10 .f32) (bv : Vec Ideal S1x10 .f32)
    (w2 : Vec Ideal S10x10 .f32) (c0 c1 c2 : Vec Ideal S20000x1 .f32) (x1 : Vec Ideal S2x10 .f32)
    (x2 : Vec Ideal S1x10 .f32) (x3 : Vec Ideal S10x10 .f32) (p : Fin 20000) (q : Fin 10) (r : Fin 1000000)
    (h0 : c0 (ix2 p (0 : Fin 1)) = feat (ix2 r (0 : Fin 3))) (h1 : c1 (ix2 p (0 : Fin 1)) = feat (ix2 r (1 : Fin 3)))
    (h2 : c2 (ix2 p (0 : Fin 1)) = feat (ix2 r (2 : Fin 3)))
    (hw : ∀ (j : Fin 2) (k : Fin 10), x1 (ix2 j k) = wv (ix2 j k))
    (hb : ∀ k : Fin 10, x2 (ix2 (0 : Fin 1) k) = bv (ix2 (0 : Fin 1) k))
    (h3 : ∀ k : Fin 10, x3 (ix2 k q) = w2 (ix2 k q)) :
    k0_pay1 c0 c1 c2 x1 x2 x3 (ix2 p q) = E0 feat wv bv w2 (ix2 r q) := by
  rw [k0_pay1_apply, E0_apply]
  obtain ⟨l0, l1⟩ := two_columns_apply c0 c1 p
  refine Finset.sum_congr rfl fun k _ => ?_
  rw [h2, hb k, h3 k]
  refine congrArg (fun s => max (s + bv (ix2 (0 : Fin 1) k)) (Ideal.ofBits .f32 0x00000000#32) * feat (ix2 r (2 : Fin 3)) * w2 (ix2 k q)) ?_
  refine Finset.sum_congr rfl fun j _ => ?_
  rw [hw j k]
  refine congrArg (· * wv (ix2 j k)) ?_
  match j with
  | ⟨0, _⟩ => exact l0.trans h0
  | ⟨1, _⟩ => exact l1.trans h1

end Cert.KernelIdeal.ValH

end
-- ==== Proof.Val.Launch0.lean ====
/-
  What the first launch leaves in its output array.

  The launch walks 50 row blocks of 20000 rows.  At block t the body reads rows t*20000 … of the packed feature array
  (its three columns one by one), the whole 2x10 table, the whole bias row and the whole 10x10 table, and writes rows
  t*20000 … of the output.  Each written block is the same rows of ONE whole-array expression, `E0` of the arrays found
  at entry; the 50 blocks cover every row (row r lies in block r / 20000), so the array ends holding `E0`.
-/
import proofs.«116843_j64098091925532_2_alg».proof.Proof.KI.R0Defs
import proofs.«116843_j64098091925532_2_alg».proof.Proof.Val.Pay0
import Idealize.ShloMosaic.Lib.Pipeline.Value

noncomputable section

namespace Cert.KernelIdeal.ValH

open Cert.KernelIdeal Cert.KernelIdeal.Gen Cert.KernelIdeal.FrameH
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The block index maps of the first launch, decided over its 50 points: the packed features and the output sit at
    block row `t`, the two tables and the bias row at block 0. -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (c : Dev nD) (dat : Dat τ (Elt Ideal) Unit ℕ (Pipeline.UD sig nD τ) ℕ cfg0 c)

/-- What point `t` writes back is block `t` of `E0` of the arrays found at entry. -/
theorem flushed0_eq
    (hafter : ∀ t, dat.after 4 t = out0_4 (iblk0 V c 0 t) (iblk0 V c 1 t) (iblk0 V c 2 t) (iblk0 V c 3 t))
    (t : Fin cfg0.N) :
    dat.flushed 4 t = ((cfg0.win 4).blk t).view.read (Elt Ideal)
      (E0 (V c main_v17) (V c main_arg6) (V c main_v18) (V c main_arg12)) := by
  show (cfg0.win 4).cut (grid0.coords t) (dat.after 4 t) = _
  rw [hafter]
  unfold out0_4
  rw [View.canon_unit_zero zero_offsets0]
  simp only [View.ld_unit_zero (S := S2x10) zero_offsets0, View.ld_unit_zero (S := S1x10) zero_offsets0,
    View.ld_unit_zero (S := S10x10) zero_offsets0]
  obtain ⟨e00, e01, e10, e11, e20, e21, e30, e31, e40, e41⟩ := index_maps0 t
  funext j
  obtain ⟨p, q, rfl⟩ : ∃ (p : Fin 20000) (q : Fin 10), j = ix2 p q := ⟨j 0, j 1, eq_ix2 j⟩
  have ht : t.val < 50 := lt_of_lt_of_eq t.isLt N_0
  have hr : t.val * 20000 + p.val < 1000000 := by have := p.isLt; omega
  have hemb : ((cfg0.win 4).blk t).view.emb (ix2 p q) = ix2 (⟨t.val * 20000 + p.val, hr⟩ : Fin 1000000) q := by
    funext a; apply Fin.ext
    match a with
    | ⟨0, _⟩ => show win0_4.index t (0 : Fin 2) * 20000 + 1 * p.val = t.val * 20000 + p.val; omega
    | ⟨1, _⟩ => show win0_4.index t (1 : Fin 2) * 10 + 1 * q.val = q.val; omega
  show k0_pay1 (View.ld (iblk0 V c 0 t) r0_c0) (View.ld (iblk0 V c 0 t) r0_c1) (View.ld (iblk0 V c 0 t) r0_c2)
      (iblk0 V c 1 t) (iblk0 V c 2 t) (iblk0 V c 3 t) (ix2 p q)
    = E0 (V c main_v17) (V c main_arg6) (V c main_v18) (V c main_arg12) (((cfg0.win 4).blk t).view.emb (ix2 p q))
  rw [hemb]
  refine k0_pay1_eq_E0 _ _ _ _ _ _ _ _ _ _ p q _ ?_ ?_ ?_ (fun j k => ?_) (fun k => ?_) (fun k => ?_)
  · show V c main_v17 (((cfg0.win 0).blk t).view.emb (r0_c0.emb (ix2 p (0 : Fin 1))))
      = V c main_v17 (ix2 (⟨t.val * 20000 + p.val, hr⟩ : Fin 1000000) (0 : Fin 3))
    refine congrArg _ (funext fun a => Fin.ext ?_)
    match a with
    | ⟨0, _⟩ => show win0_0.index t (0 : Fin 2) * 20000 + 1 * (0 + 1 * p.val) = t.val * 20000 + p.val; omega
    | ⟨1, _⟩ => show win0_0.index t (1 : Fin 2) * 3 + 1 * (0 + 1 * 0) = 0; omega
  · show V c main_v17 (((cfg0.win 0).blk t).view.emb (r0_c1.emb (ix2 p (0 : Fin 1))))
      = V c main_v17 (ix2 (⟨t.val * 20000 + p.val, hr⟩ : Fin 1000000) (1 : Fin 3))
    refine congrArg _ (funext fun a => Fin.ext ?_)
    match a with
    | ⟨0, _⟩ => show win0_0.index t (0 : Fin 2) * 20000 + 1 * (0 + 1 * p.val) = t.val * 20000 + p.val; omega
    | ⟨1, _⟩ => show win0_0.index t (1 : Fin 2) * 3 + 1 * (1 + 1 * 0) = 1; omega
  · show V c main_v17 (((cfg0.win 0).blk t).view.emb (r0_c2.emb (ix2 p (0 : Fin 1))))
      = V c main_v17 (ix2 (⟨t.val * 20000 + p.val, hr⟩ : Fin 1000000) (2 : Fin 3))
    refine congrArg _ (funext fun a => Fin.ext ?_)
    match a with
    | ⟨0, _⟩ => show win0_0.index t (0 : Fin 2) * 20000 + 1 * (0 + 1 * p.val) = t.val * 20000 + p.val; omega
    | ⟨1, _⟩ => show win0_0.index t (1 : Fin 2) * 3 + 1 * (2 + 1 * 0) = 2; omega
  · show V c main_arg6 (((cfg0.win 1).blk t).view.emb (ix2 j k)) = V c main_arg6 (ix2 j k)
    refine congrArg _ (funext fun a => Fin.ext ?_)
    match a with
    | ⟨0, _⟩ => show win0_1.index t (0 : Fin 2) * 2 + 1 * j.val = j.val; omega
    | ⟨1, _⟩ => show win0_1.index t (1 : Fin 2) * 10 + 1 * k.val = k.val; omega
  · show V c main_v18 (((cfg0.win 2).blk t).view.emb (ix2 (0 : Fin 1) k)) = V c main_v18 (ix2 (0 : Fin 1) k)
    refine congrArg _ (funext fun a => Fin.ext ?_)
    match a with
    | ⟨0, _⟩ => show win0_2.index t (0 : Fin 2) * 1 + 1 * 0 = 0; omega
    | ⟨1, _⟩ => show win0_2.index t (1 : Fin 2) * 10 + 1 * k.val = k.val; omega
  · show V c main_arg12 (((cfg0.win 3).blk t).view.emb (ix2 k q)) = V c main_arg12 (ix2 k q)
    refine congrArg _ (funext fun a => Fin.ext ?_)
    match a with
    | ⟨0, _⟩ => show win0_3.index t (0 : Fin 2) * 10 + 1 * k.val = k.val; omega
    | ⟨1, _⟩ => show win0_3.index t (1 : Fin 2) * 10 + 1 * q.val = q.val; omega

/-- An index of the output array is in point `t`'s block iff each coordinate is in the block's range on its axis. -/
theorem mem_blk0 (t : Fin cfg0.N) (i : S1000000x10.Idx) :
    i ∈ ((cfg0.win 4).blk t).view.set ↔ ∀ a : Fin 2, win0_4.index t a * S20000x10.size a ≤ (i a).val ∧ (i a).val < win0_4.index t a * S20000x10.size a + S20000x10.size a := by
  show i ∈ ((View.whole main_v23).slice (win0_4.rect t)).set ↔ _
  rw [View.set_slice_whole, Rect.mem_set_unit]
  exact Iff.rfl

/-- Every index of the output array is in some point's block: row `r` in block `r / 20000`. -/
theorem cover0 (i : S1000000x10.Idx) : ∃ t : Fin cfg0.N, (cfg0.win 4).flush t = true ∧ i ∈ ((cfg0.win 4).blk t).view.set := by
  have hi0 : (i 0).val < 1000000 := (i 0).isLt
  have hi1 : (i 1).val < 10 := (i 1).isLt
  have hN : cfg0.N = 50 := N_0
  let t : Fin cfg0.N := ⟨(i 0).val / 20000, by rw [hN]; omega⟩
  obtain ⟨e00, e01, e10, e11, e20, e21, e30, e31, e40, e41⟩ := index_maps0 t
  have e40' : win0_4.index t (0 : Fin 2) = (i 0).val / 20000 := e40
  refine ⟨t, flush0_4 t, ?_⟩
  rw [mem_blk0]
  intro a
  match a with
  | ⟨0, _⟩ => show win0_4.index t (0 : Fin 2) * 20000 ≤ (i 0).val ∧ (i 0).val < win0_4.index t (0 : Fin 2) * 20000 + 20000; omega
  | ⟨1, _⟩ => show win0_4.index t (1 : Fin 2) * 10 ≤ (i 1).val ∧ (i 1).val < win0_4.index t (1 : Fin 2) * 10 + 10; omega

/-- THE OUTPUT ARRAY after the first launch is `E0` of the arrays it found. -/
theorem final0
    (hA : ∀ w, dat.A w = V c (Pipeline.arrRef spec0 w))
    (hafter : ∀ t, dat.after 4 t = out0_4 (iblk0 V c 0 t) (iblk0 V c 1 t) (iblk0 V c 2 t) (iblk0 V c 3 t)) :
    dat.arrAt 4 cfg0.N = E0 (V c main_v17) (V c main_arg6) (V c main_v18) (V c main_arg12) :=
  dat.arrAt_eq_of_cover 4 (E0 (V c main_v17) (V c main_arg6) (V c main_v18) (V c main_arg12))
    (fun t _ => flushed0_eq V c dat hafter t) cover0

end Cert.KernelIdeal.ValH

end
-- ==== Proof.Val.Pay1.lean ====
/-
  The second launch's block computation read at an index, at the extended reals.

  For a block of aggregated rows a, the degree column n, the bias row b and the weight table W, the body stores
  relu(a * n + b) * n times W.  Entry (p, q) of the stored block is therefore the sum over the hidden coordinate k of
  (max (a (p, k) * n (p, 0) + b (0, k)) 0 * n (p, 0)) * W (k, q): the product into the zero accumulator is that finite
  sum, the broadcasts repeat the column and the row, and the final narrowing of the format changes nothing here.
  The zero of the rectifier is kept as the extended real the all-zero f32 pattern denotes.

  `E1` is the same expression over whole arrays (500000 rows); a block entry equals the array entry it sits at as soon
  as the block's operands agree with the arrays' on the row and the column involved.
-/
import proofs.«116843_j64098091925532_2_alg».proof.Proof.Gen.KernelIdeal.Skeleton
import proofs.«116843_j64098091925532_2_alg».proof.Proof.LibTileMatmul
import proofs.«116843_j64098091925532_2_alg».proof.Proof.Val.Cols

noncomputable section

namespace Cert.KernelIdeal.ValH

open Idealize.ShloMosaic Idealize.ShloMosaic.ValueIdx Idealize.ShloMosaic.TileMatmul
open Cert.KernelIdeal Cert.KernelIdeal.Gen
open scoped BigOperators

/-- What the second launch leaves in its output array, index by index, from the arrays it finds: row `p`, column `q`
    holds `∑ k, (max (agg (p, k) * nrm (p, 0) + b2 (0, k)) 0 * nrm (p, 0)) * w2 (k, q)`. -/
def E1 (agg : Vec Ideal S500000x10 .f32) (nrm : Vec Ideal S500000x1 .f32) (b2 : Vec Ideal S1x10 .f32)
    (w2 : Vec Ideal S10x10 .f32) : Vec Ideal S500000x10 .bf16 :=
  fun i => ∑ k : Fin 10, (max (agg (ix2 (i 0) k) * nrm (ix2 (i 0) (0 : Fin 1)) + b2 (ix2 (0 : Fin 1) k))
      (Ideal.ofBits .f32 0x00000000#32) * nrm (ix2 (i 0) (0 : Fin 1))) * w2 (ix2 k (i 1))

theorem E1_apply (agg : Vec Ideal S500000x10 .f32) (nrm : Vec Ideal S500000x1 .f32) (b2 : Vec Ideal S1x10 .f32)
    (w2 : Vec Ideal S10x10 .f32) (r : Fin 500000) (q : Fin 10) :
    E1 agg nrm b2 w2 (ix2 r q)
      = ∑ k : Fin 10, (max (agg (ix2 r k) * nrm (ix2 r (0 : Fin 1)) + b2 (ix2 (0 : Fin 1) k))
          (Ideal.ofBits .f32 0x00000000#32) * nrm (ix2 r (0 : Fin 1))) * w2 (ix2 k q) := rfl

/-- The block the body stores, at `(p, q)`. -/
theorem k1_pay1_apply (x0 : Vec Ideal S10000x10 .f32) (x1 : Vec Ideal S10000x1 .f32) (x2 : Vec Ideal S1x10 .f32)
    (x3 : Vec Ideal S10x10 .f32) (p : Fin 10000) (q : Fin 10) :
    k1_pay1 x0 x1 x2 x1 x3 (ix2 p q)
      = ∑ k : Fin 10, (max (x0 (ix2 p k) * x1 (ix2 p (0 : Fin 1)) + x2 (ix2 (0 : Fin 1) k)) (Ideal.ofBits .f32 0x00000000#32)
          * x1 (ix2 p (0 : Fin 1))) * x3 (ix2 k q) := by
  unfold k1_pay1
  refine (matmul_zero_apply (φ₁ := .f32) (φ₂ := .f32) dot_S10000x10_S10x10_S10000x10_1_0_0_1_n_n_wf none _ x3 p q).trans ?_
  refine Finset.sum_congr rfl fun k _ => ?_
  refine congrArg (· * x3 (ix2 k q)) ?_
  rw [mulf_apply, maximumf_apply, addf_apply, mulf_apply, broadcast_apply]
  simp only [shapeCast_self]
  rw [broadcastTo_a1_ab_apply, broadcastTo_1b_ab_apply]
  rfl

/-- A stored block entry is the array entry `E1` names, when the block's operands are the arrays' entries on row `r`
    and column `q`. -/
theorem k1_pay1_eq_E1 (agg : Vec Ideal S500000x10 .f32) (nrm : Vec Ideal S500000x1 .f32) (b2 : Vec Ideal S1x10 .f32)
    (w2 : Vec Ideal S10x10 .f32) (x0 : Vec Ideal S10000x10 .f32) (x1 : Vec Ideal S10000x1 .f32)
    (x2 : Vec Ideal S1x10 .f32) (x3 : Vec Ideal S10x10 .f32) (p : Fin 10000) (q : Fin 10) (r : Fin 500000)
    (h0 : ∀ k : Fin 10, x0 (ix2 p k) = agg (ix2 r k)) (h1 : x1 (ix2 p (0 : Fin 1)) = nrm (ix2 r (0 : Fin 1)))
    (h2 : ∀ k : Fin 10, x2 (ix2 (0 : Fin 1) k) = b2 (ix2 (0 : Fin 1) k))
    (h3 : ∀ k : Fin 10, x3 (ix2 k q) = w2 (ix2 k q)) :
    k1_pay1 x0 x1 x2 x1 x3 (ix2 p q) = E1 agg nrm b2 w2 (ix2 r q) := by
  rw [k1_pay1_apply, E1_apply]
  refine Finset.sum_congr rfl fun k _ => ?_
  rw [h0 k, h1, h2 k, h3 k]

end Cert.KernelIdeal.ValH

end
-- ==== Proof.Val.Launch1.lean ====
/-
  What the second launch leaves in its output array.

  The launch walks 50 row blocks of 10000 rows.  At block t the body reads rows t*10000 … of the aggregated rows and of
  the degree column, the whole bias row and the whole weight table, and writes rows t*10000 … of the output.  Each
  written block is the same rows of ONE whole-array expression, `E1` of the arrays found at entry; the 50 blocks cover
  every row (row r lies in block r / 10000), so the array ends holding `E1`.
-/
import proofs.«116843_j64098091925532_2_alg».proof.Proof.KI.R1Defs
import proofs.«116843_j64098091925532_2_alg».proof.Proof.Val.Pay1
import Idealize.ShloMosaic.Lib.Pipeline.Value

noncomputable section

namespace Cert.KernelIdeal.ValH

open Cert.KernelIdeal Cert.KernelIdeal.Gen Cert.KernelIdeal.FrameH
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps of the second launch, decided over its 50 points: the row-blocked operands and the output sit
    at block row `t`, the bias row and the weight table at block 0. -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (c : Dev nD) (dat : Dat τ (Elt Ideal) Unit ℕ (Pipeline.UD sig nD τ) ℕ cfg1 c)

/-- What point `t` writes back is block `t` of `E1` of the arrays found at entry. -/
theorem flushed1_eq
    (hafter : ∀ t, dat.after 4 t = out1_4 (iblk1 V c 0 t) (iblk1 V c 1 t) (iblk1 V c 2 t) (iblk1 V c 3 t))
    (t : Fin cfg1.N) :
    dat.flushed 4 t = ((cfg1.win 4).blk t).view.read (Elt Ideal)
      (E1 (V c main_v37) (V c main_v14) (V c main_v19) (V c main_arg12)) := by
  show (cfg1.win 4).cut (grid1.coords t) (dat.after 4 t) = _
  rw [hafter]
  unfold out1_4
  rw [View.canon_unit_zero zero_offsets]
  simp only [View.ld_unit_zero (S := S10000x10) zero_offsets, View.ld_unit_zero (S := S10000x1) zero_offsets,
    View.ld_unit_zero (S := S1x10) zero_offsets, View.ld_unit_zero (S := S10x10) zero_offsets]
  obtain ⟨e00, e01, e10, e11, e20, e21, e30, e31, e40, e41⟩ := index_maps1 t
  funext j
  obtain ⟨p, q, rfl⟩ : ∃ (p : Fin 10000) (q : Fin 10), j = ix2 p q := ⟨j 0, j 1, eq_ix2 j⟩
  have ht : t.val < 50 := lt_of_lt_of_eq t.isLt N_1
  have hr : t.val * 10000 + p.val < 500000 := by have := p.isLt; omega
  have hemb : ((cfg1.win 4).blk t).view.emb (ix2 p q) = ix2 (⟨t.val * 10000 + p.val, hr⟩ : Fin 500000) q := by
    funext a; apply Fin.ext
    match a with
    | ⟨0, _⟩ => show win1_4.index t (0 : Fin 2) * 10000 + 1 * p.val = t.val * 10000 + p.val; omega
    | ⟨1, _⟩ => show win1_4.index t (1 : Fin 2) * 10 + 1 * q.val = q.val; omega
  show k1_pay1 (iblk1 V c 0 t) (iblk1 V c 1 t) (iblk1 V c 2 t) (iblk1 V c 1 t) (iblk1 V c 3 t) (ix2 p q)
    = E1 (V c main_v37) (V c main_v14) (V c main_v19) (V c main_arg12) (((cfg1.win 4).blk t).view.emb (ix2 p q))
  rw [hemb]
  refine k1_pay1_eq_E1 _ _ _ _ _ _ _ _ p q _ (fun k => ?_) ?_ (fun k => ?_) (fun k => ?_)
  · show V c main_v37 (((cfg1.win 0).blk t).view.emb (ix2 p k)) = V c main_v37 (ix2 (⟨t.val * 10000 + p.val, hr⟩ : Fin 500000) k)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 10 + 1 * k.val = k.val; omega
  · show V c main_v14 (((cfg1.win 1).blk t).view.emb (ix2 p (0 : Fin 1))) = V c main_v14 (ix2 (⟨t.val * 10000 + p.val, hr⟩ : Fin 500000) (0 : Fin 1))
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 1 + 1 * 0 = 0; omega
  · show V c main_v19 (((cfg1.win 2).blk t).view.emb (ix2 (0 : Fin 1) k)) = V c main_v19 (ix2 (0 : Fin 1) k)
    refine congrArg _ (funext fun a => Fin.ext ?_)
    match a with
    | ⟨0, _⟩ => show win1_2.index t (0 : Fin 2) * 1 + 1 * 0 = 0; omega
    | ⟨1, _⟩ => show win1_2.index t (1 : Fin 2) * 10 + 1 * k.val = k.val; omega
  · show V c main_arg12 (((cfg1.win 3).blk t).view.emb (ix2 k q)) = V c main_arg12 (ix2 k q)
    refine congrArg _ (funext fun a => Fin.ext ?_)
    match a with
    | ⟨0, _⟩ => show win1_3.index t (0 : Fin 2) * 10 + 1 * k.val = k.val; omega
    | ⟨1, _⟩ => show win1_3.index t (1 : Fin 2) * 10 + 1 * q.val = q.val; omega

/-- An index of the output array is in point `t`'s block iff each coordinate is in the block's range on its axis. -/
theorem mem_blk1 (t : Fin cfg1.N) (i : S500000x10.Idx) :
    i ∈ ((cfg1.win 4).blk t).view.set ↔ ∀ a : Fin 2, win1_4.index t a * S10000x10.size a ≤ (i a).val ∧ (i a).val < win1_4.index t a * S10000x10.size a + S10000x10.size a := by
  show i ∈ ((View.whole main_v38).slice (win1_4.rect t)).set ↔ _
  rw [View.set_slice_whole, Rect.mem_set_unit]
  exact Iff.rfl

/-- Every index of the output array is in some point's block: row `r` in block `r / 10000`. -/
theorem cover1 (i : S500000x10.Idx) : ∃ t : Fin cfg1.N, (cfg1.win 4).flush t = true ∧ i ∈ ((cfg1.win 4).blk t).view.set := by
  have hi0 : (i 0).val < 500000 := (i 0).isLt
  have hi1 : (i 1).val < 10 := (i 1).isLt
  have hN : cfg1.N = 50 := N_1
  let t : Fin cfg1.N := ⟨(i 0).val / 10000, by rw [hN]; omega⟩
  obtain ⟨e00, e01, e10, e11, e20, e21, e30, e31, e40, e41⟩ := index_maps1 t
  have e40' : win1_4.index t (0 : Fin 2) = (i 0).val / 10000 := e40
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 10 ≤ (i 1).val ∧ (i 1).val < win1_4.index t (1 : Fin 2) * 10 + 10; omega

/-- THE OUTPUT ARRAY after the second launch is `E1` of the arrays it found. -/
theorem final1
    (hA : ∀ w, dat.A w = V c (Pipeline.arrRef spec1 w))
    (hafter : ∀ t, dat.after 4 t = out1_4 (iblk1 V c 0 t) (iblk1 V c 1 t) (iblk1 V c 2 t) (iblk1 V c 3 t)) :
    dat.arrAt 4 cfg1.N = E1 (V c main_v37) (V c main_v14) (V c main_v19) (V c main_arg12) :=
  dat.arrAt_eq_of_cover 4 (E1 (V c main_v37) (V c main_v14) (V c main_v19) (V c main_arg12))
    (fun t _ => flushed1_eq V c dat hafter t) cover1

end Cert.KernelIdeal.ValH

end
-- ==== Proof.Val.Launch2Defs.lean ====
/-
  What the third launch computes, as mathematics.

  Every row of the aggregated table goes through the same small network: the row (ten numbers) is scaled by the row's
  degree factor, shifted by a bias and clipped below at zero; two hidden layers follow, each a product with a 10 × 10
  weight table plus a bias, clipped below at zero; the last layer is a product with a 10 × 1 weight column, which gives
  one number for the row, its logit.  The launch's result is the mean over all rows of logit plus output bias: the sum over
  the 1 000 000 rows divided by the literal 1e6.

  The network is written once over a row of ten numbers and its scale (`mlpRow`), so that the same formula reads a row of
  a 20 000-row tile and a row of the whole table.
-/
import proofs.«116843_j64098091925532_2_alg».proof.Proof.Gen.KernelIdeal.Skeleton
import Idealize.ShloMosaic.Lib.ValueIdx

noncomputable section

open scoped BigOperators

namespace Cert.KernelIdeal.ValL2

open Idealize.ShloMosaic Idealize.ShloMosaic.ValueIdx

/-- The input layer at hidden unit k: the row's entry k times the row's scale, plus the bias, clipped below at zero. -/
def hid0 (x : Fin 10 → EReal) (s : EReal) (b2 : FVec Ideal S1x10 .f32) (k : Fin 10) : EReal :=
  max (x k * s + b2 (ix2 (0 : Fin 1) k)) 0

/-- A hidden layer at unit j: the previous layer's product with the weights' column j, plus the bias, clipped below at
    zero. -/
def dense (h : Fin 10 → EReal) (w : FVec Ideal S10x10 .f32) (b : FVec Ideal S1x10 .f32) (j : Fin 10) : EReal :=
  max ((∑ k : Fin 10, h k * w (ix2 k j)) + b (ix2 (0 : Fin 1) j)) 0

/-- The network on one row: three clipped layers and the product with the output column. -/
def mlpRow (x : Fin 10 → EReal) (s : EReal) (b2 : FVec Ideal S1x10 .f32) (wo1 : FVec Ideal S10x10 .f32)
    (bo1 : FVec Ideal S1x10 .f32) (wo2 : FVec Ideal S10x10 .f32) (bo2 : FVec Ideal S1x10 .f32)
    (wo3 : FVec Ideal S10x1 .f32) : EReal :=
  ∑ i : Fin 10, dense (dense (hid0 x s b2) wo1 bo1) wo2 bo2 i * wo3 (ix2 i (0 : Fin 1))

/-- The logit of row r of the whole table. -/
def rowLogit (agg : Vec Ideal S1000000x10 .f32) (nrm : Vec Ideal S1000000x1 .f32) (b2 : Vec Ideal S1x10 .f32)
    (wo1 : Vec Ideal S10x10 .f32) (bo1 : Vec Ideal S1x10 .f32) (wo2 : Vec Ideal S10x10 .f32)
    (bo2 : Vec Ideal S1x10 .f32) (wo3 : Vec Ideal S10x1 .f32) : Fin 1000000 → EReal :=
  fun r => mlpRow (fun k => agg (ix2 r k)) (nrm (ix2 r (0 : Fin 1))) b2 wo1 bo1 wo2 bo2 wo3

/-- The explicit formula: three nested sums over ten terms, each layer clipped below at zero. -/
theorem rowLogit_apply (agg : Vec Ideal S1000000x10 .f32) (nrm : Vec Ideal S1000000x1 .f32) (b2 : Vec Ideal S1x10 .f32)
    (wo1 : Vec Ideal S10x10 .f32) (bo1 : Vec Ideal S1x10 .f32) (wo2 : Vec Ideal S10x10 .f32)
    (bo2 : Vec Ideal S1x10 .f32) (wo3 : Vec Ideal S10x1 .f32) (r : Fin 1000000) :
    rowLogit agg nrm b2 wo1 bo1 wo2 bo2 wo3 r
      = ∑ i : Fin 10,
          max ((∑ j : Fin 10,
                  max ((∑ k : Fin 10,
                          max (agg (ix2 r k) * nrm (ix2 r (0 : Fin 1)) + b2 (ix2 (0 : Fin 1) k)) 0 * wo1 (ix2 k j))
                        + bo1 (ix2 (0 : Fin 1) j)) 0 * wo2 (ix2 j i))
                + bo2 (ix2 (0 : Fin 1) i)) 0 * wo3 (ix2 i (0 : Fin 1)) := rfl

/-- The launch's result: the sum over all rows of logit plus output bias, divided by the literal 1e6. -/
def E2 (agg : Vec Ideal S1000000x10 .f32) (nrm : Vec Ideal S1000000x1 .f32) (b2 : Vec Ideal S1x10 .f32)
    (wo1 : Vec Ideal S10x10 .f32) (bo1 : Vec Ideal S1x10 .f32) (wo2 : Vec Ideal S10x10 .f32)
    (bo2 : Vec Ideal S1x10 .f32) (wo3 : Vec Ideal S10x1 .f32) (bo3 : Vec Ideal S1x1 .f32) : Vec Ideal S1x1 .f32 :=
  fun _ => Ideal.div (∑ r : Fin 1000000, (rowLogit agg nrm b2 wo1 bo1 wo2 bo2 wo3 r + bo3 (ix2 (0 : Fin 1) (0 : Fin 1))))
    (Ideal.ofBits .f32 0x49742400#32)

end Cert.KernelIdeal.ValL2

end
-- ==== Proof.Val.Launch2Row.lean ====
/-
  The network's tile payload read at a row.

  The in-kernel computation on a tile of 20 000 rows is elementwise in the row: scale, bias and clip; then three
  products with small weight tables, which at a row are finite sums over the ten hidden units.  Read at row r, it is the
  row network `mlpRow` on the tile's row r and that row's scale.
-/
import proofs.«116843_j64098091925532_2_alg».proof.Proof.Val.Launch2Defs
import proofs.«116843_j64098091925532_2_alg».proof.Proof.LibTileMatmul
import Idealize.ShloMosaic.Lib.ValueLayout
import Idealize.ShloMosaic.Lib.Pipeline.Value

noncomputable section

open scoped BigOperators

namespace Cert.KernelIdeal.ValL2

open Idealize.ShloMosaic Idealize.ShloMosaic.ValueIdx Idealize.ShloMosaic.TileMatmul

/-- A [20000, 1] column broadcast along the ten lanes reads, at (p, c), the column's entry p. -/
theorem bcast_col_apply {α : Type} (v : S20000x1.Idx → α) (h : S20000x1.Broadcasts S20000x10) (p : Fin 20000) (c : Fin 10) :
    broadcastTo S20000x10 v h (ix2 p c) = v (ix2 p (0 : Fin 1)) := by
  refine broadcastTo_apply v h (ix2 p c) (ix2 p (0 : Fin 1)) fun ax => ?_
  match ax with
  | ⟨0, _⟩ =>
    show p.val = if (20000 : ℕ) = 1 then 0 else p.val
    rw [if_neg (by decide)]
  | ⟨1, _⟩ => rfl

/-- The scaled, shifted and clipped tile at (p, k). -/
theorem layer0_apply (a : FVec Ideal S20000x10 .f32) (n : FVec Ideal S20000x1 .f32) (b2 : FVec Ideal S1x10 .f32)
    (h1 : S20000x10.ShapeCasts S20000x10) (h2 : S20000x1.ShapeCasts S20000x1) (h3 : S20000x1.Broadcasts S20000x10)
    (h4 : S1x10.ShapeCasts S1x10) (h5 : S1x10.Broadcasts S20000x10) (p : Fin 20000) (k : Fin 10) :
    maximumf (addf (mulf (shapeCast S20000x10 a h1) (broadcastTo S20000x10 (shapeCast S20000x1 n h2) h3))
        (broadcastTo S20000x10 (shapeCast S1x10 b2 h4) h5))
      (broadcast S20000x10 (Scalar.ofBits (F := Ideal) .f32 0x00000000#32)) (ix2 p k)
      = hid0 (fun k => a (ix2 p k)) (n (ix2 p (0 : Fin 1))) b2 k := by
  rw [shapeCast_self, shapeCast_self, shapeCast_self]
  show max (a (ix2 p k) * broadcastTo S20000x10 n h3 (ix2 p k) + broadcastTo S20000x10 b2 h5 (ix2 p k))
      (Ideal.ofBits .f32 0x00000000#32) = _
  rw [bcast_col_apply, broadcastTo_1b_ab_apply, Ideal.ofBits_zero_f32]
  rfl

/-- The 20000 × 10 by 10 × 10 product into zero, at (p, j): the sum over the ten hidden units. -/
theorem mm10_apply (X : FVec Ideal S20000x10 .f32) (w : FVec Ideal S10x10 .f32) (p : Fin 20000) (j : Fin 10) :
    matmul (F := Ideal) dot_S20000x10_S10x10_S20000x10_1_0_0_1_n_n none X w
        (constant (F := Ideal) S20000x10 .f32 0x00000000#32) (ix2 p j)
      = ∑ k : Fin 10, X (ix2 p k) * w (ix2 k j) :=
  matmul_zero_apply dot_S20000x10_S10x10_S20000x10_1_0_0_1_n_n.wf none X w p j

/-- The 20000 × 10 by 10 × 1 product into zero, at (p, 0). -/
theorem mm1_apply (X : FVec Ideal S20000x10 .f32) (w : FVec Ideal S10x1 .f32) (p : Fin 20000) (q : Fin 1) :
    matmul (F := Ideal) dot_S20000x10_S10x1_S20000x1_1_0_0_1_n_n none X w
        (constant (F := Ideal) S20000x1 .f32 0x00000000#32) (ix2 p q)
      = ∑ k : Fin 10, X (ix2 p k) * w (ix2 k q) :=
  matmul_zero_apply dot_S20000x10_S10x1_S20000x1_1_0_0_1_n_n.wf none X w p q

/-- A hidden layer on the tile, at (p, j): the row network's layer on the previous layer's row p. -/
theorem dense_apply (X : FVec Ideal S20000x10 .f32) (w : FVec Ideal S10x10 .f32) (b : FVec Ideal S1x10 .f32)
    (h4 : S1x10.ShapeCasts S1x10) (h5 : S1x10.Broadcasts S20000x10) (p : Fin 20000) (j : Fin 10) :
    maximumf (addf (matmul (F := Ideal) dot_S20000x10_S10x10_S20000x10_1_0_0_1_n_n none X w
          (constant (F := Ideal) S20000x10 .f32 0x00000000#32))
        (broadcastTo S20000x10 (shapeCast S1x10 b h4) h5))
      (broadcast S20000x10 (Scalar.ofBits (F := Ideal) .f32 0x00000000#32)) (ix2 p j)
      = dense (fun k => X (ix2 p k)) w b j := by
  rw [shapeCast_self]
  show max (matmul (F := Ideal) dot_S20000x10_S10x10_S20000x10_1_0_0_1_n_n none X w
          (constant (F := Ideal) S20000x10 .f32 0x00000000#32) (ix2 p j) + broadcastTo S20000x10 b h5 (ix2 p j))
      (Ideal.ofBits .f32 0x00000000#32) = _
  rw [mm10_apply, broadcastTo_1b_ab_apply, Ideal.ofBits_zero_f32]
  rfl

/-- The tile's payload at row p: the row network on the tile's row p and its scale. -/
theorem pay4_apply (a : FVec Ideal S20000x10 .f32) (n : FVec Ideal S20000x1 .f32) (b2 : FVec Ideal S1x10 .f32)
    (wo1 : FVec Ideal S10x10 .f32) (bo1 : FVec Ideal S1x10 .f32) (wo2 : FVec Ideal S10x10 .f32)
    (bo2 : FVec Ideal S1x10 .f32) (wo3 : FVec Ideal S10x1 .f32) (p : Fin 20000) :
    Gen.k2_pay4 (F := Ideal) a n b2 wo1 bo1 wo2 bo2 wo3 (ix2 p (0 : Fin 1))
      = mlpRow (fun k => a (ix2 p k)) (n (ix2 p (0 : Fin 1))) b2 wo1 bo1 wo2 bo2 wo3 := by
  unfold Gen.k2_pay4
  refine (mm1_apply _ wo3 p 0).trans ?_
  unfold mlpRow
  refine Finset.sum_congr rfl fun i _ => congrArg (· * wo3 (ix2 i (0 : Fin 1))) ?_
  refine (dense_apply _ wo2 bo2 _ _ p i).trans ?_
  refine congrArg (fun h => dense h wo2 bo2 i) (funext fun j => ?_)
  refine (dense_apply _ wo1 bo1 _ _ p j).trans ?_
  refine congrArg (fun h => dense h wo1 bo1 j) (funext fun k => ?_)
  exact layer0_apply a n b2 _ _ _ _ _ p k

end Cert.KernelIdeal.ValL2

end
-- ==== Proof.Val.Launch2Acc.lean ====
/-
  The running total kept in the one-cell scratch, as values.

  At a grid point the kernel adds the output bias to each of the tile's 20 000 logits, sums the column, and adds the
  sum onto the scratch cell; the cell starts at zero at the first point; at the last point the cell divided by the
  literal 1e6 is stored as the result.  Read at the cell's one index these are a finite sum over the tile's rows, the
  number zero, and one division.
-/
import proofs.«116843_j64098091925532_2_alg».proof.Proof.Val.Launch2Defs
import Idealize.ShloMosaic.PureOps.Ideal.Laws
import Idealize.ShloMosaic.Lib.ValueLayout
import Idealize.ShloMosaic.Lib.Pipeline.Value

noncomputable section

open scoped BigOperators

namespace Cert.KernelIdeal.ValL2

open Idealize.ShloMosaic Idealize.ShloMosaic.ValueIdx

/-- A one-cell table has one index. -/
theorem idx11 (j : S1x1.Idx) : j = ix2 (0 : Fin 1) (0 : Fin 1) := by
  funext ax
  apply Fin.ext
  match ax with
  | ⟨0, _⟩ => have h : (j 0).val < 1 := (j 0).isLt; show (j 0).val = 0; omega
  | ⟨1, _⟩ => have h : (j 1).val < 1 := (j 1).isLt; show (j 1).val = 0; omega

/-- Summing a [20000, 1] column over its rows: the source index over the result's cell q at row k is (k, q). -/
theorem lift_col (h : S20000x1.Reduces [0] S1) (q : Fin 1) (k : Fin 20000) : h.lift (ix1 q) k = ix2 k q := by
  funext ax
  apply Fin.ext
  match ax with
  | ⟨0, _⟩ => rfl
  | ⟨1, _⟩ => rfl

/-- One accumulation step over variables: the cell plus the sum over the tile's rows of logit plus bias. -/
theorem acc_step_apply (L : FVec Ideal S20000x1 .f32) (bo3 acc : FVec Ideal S1x1 .f32)
    (h1 : S1x1.ShapeCasts S1x1) (h2 : S1x1.Broadcasts S20000x1) (h3 : S20000x1.Reduces [0] S1)
    (hφ : FKind.Formats .f32) (hacc : (0x00000000#32 : BitVec 32) = FKind.add.neutral .f32 hφ)
    (h4 : S1.ShapeCasts S1x1) (u v : Fin 1) :
    shapeCast S1x1 (addf acc (shapeCast S1x1
        (multiReduction (F := Ideal) .add [0] S1 (addf L (broadcastTo S20000x1 (shapeCast S1x1 bo3 h1) h2))
          0x00000000#32 h3 hφ hacc) h4)) h1 (ix2 u v)
      = acc (ix2 u v) + ∑ r : Fin 20000, (L (ix2 r v) + bo3 (ix2 (0 : Fin 1) v)) := by
  rw [shapeCast_self, shapeCast_self]
  show acc (ix2 u v) + shapeCast S1x1
      (multiReduction (F := Ideal) .add [0] S1 (addf L (broadcastTo S20000x1 bo3 h2)) 0x00000000#32 h3 hφ hacc) h4 (ix2 u v) = _
  rw [shapeCast_a_1a_apply]
  refine congrArg (acc (ix2 u v) + ·) ?_
  refine (Ideal.multiReduction_add_single _ _ h3 hφ hacc (ix1 v)).trans ?_
  refine Finset.sum_congr rfl fun (r : Fin 20000) _ => ?_
  refine (congrArg (addf L (broadcastTo S20000x1 bo3 h2)) (lift_col h3 v r)).trans ?_
  show L (ix2 r v) + broadcastTo S20000x1 bo3 h2 (ix2 r v) = _
  rw [broadcastTo_1b_ab_apply]

/-- The accumulation payload at the cell: what the scratch held plus the sum over the tile's rows of logit plus bias. -/
theorem pay1_apply (L : FVec Ideal S20000x1 .f32) (bo3 acc : FVec Ideal S1x1 .f32) :
    Gen.k2_pay1 (F := Ideal) L bo3 acc (ix2 (0 : Fin 1) (0 : Fin 1))
      = acc (ix2 (0 : Fin 1) (0 : Fin 1))
        + ∑ r : Fin 20000, (L (ix2 r (0 : Fin 1)) + bo3 (ix2 (0 : Fin 1) (0 : Fin 1))) := by
  unfold Gen.k2_pay1
  exact acc_step_apply L bo3 acc _ _ _ _ _ _ 0 0

/-- The scratch's first contents: zero. -/
theorem pay3_apply (j : S1x1.Idx) : Gen.k2_pay3 (F := Ideal) j = 0 := by
  unfold Gen.k2_pay3
  show shapeCast S1x1 (broadcast S1x1 (Ideal.ofBits .f32 0x00000000#32)) _ j = 0
  rw [shapeCast_self]
  exact Ideal.ofBits_zero_f32

/-- The stored result: the cell divided by the literal 1e6. -/
theorem pay2_apply (acc : FVec Ideal S1x1 .f32) (j : S1x1.Idx) :
    Gen.k2_pay2 (F := Ideal) acc j = Ideal.div (acc j) (Ideal.ofBits .f32 0x49742400#32) := rfl

end Cert.KernelIdeal.ValL2

end
-- ==== Proof.LibBlockSum.lean ====
/-
  Sums over rows cut into equal blocks.

  A table of B·R rows is processed block by block, R rows at a time, and a running total is kept: it starts from
  zero, takes the first block's sum, and then one more block's sum per step.  The two lemmas say that the sum over all
  rows is the sum over the blocks of the sums inside each block, and that the running total after step n is the sum of
  the blocks 0, …, n.  Both hold in any commutative additive monoid, so at infinite values too.
-/
import Idealize.ShloMosaic.PureOps.Ideal

open scoped BigOperators

namespace Cert.LibBlockSum

/-- Row r of block t, in a table of B blocks of R rows, is a row of the table: t·R + r < B·R. -/
theorem block_lt {B R : ℕ} (t : Fin B) (r : Fin R) : t.val * R + r.val < B * R :=
  calc t.val * R + r.val < t.val * R + R := Nat.add_lt_add_left r.isLt _
    _ = (t.val + 1) * R := (Nat.succ_mul _ _).symm
    _ ≤ B * R := Nat.mul_le_mul_right _ t.isLt

/-- A sum over B·R rows is the sum over the B blocks of the sums over the R rows inside each block, row r of block t
    being row t·R + r. -/
theorem sum_blocks {M : Type*} [AddCommMonoid M] (B R : ℕ) (f : Fin (B * R) → M) :
    ∑ i : Fin (B * R), f i = ∑ t : Fin B, ∑ r : Fin R, f ⟨t.val * R + r.val, block_lt t r⟩ := by
  rw [← Equiv.sum_comp finProdFinEquiv f, Fintype.sum_prod_type]
  refine Finset.sum_congr rfl fun t _ => Finset.sum_congr rfl fun r _ => congrArg f (Fin.ext ?_)
  show r.val + R * t.val = t.val * R + r.val
  rw [Nat.mul_comm, Nat.add_comm]

/-- The same for a function of the row's number. -/
theorem sum_blocks_nat {M : Type*} [AddCommMonoid M] (B R : ℕ) (f : ℕ → M) :
    ∑ i : Fin (B * R), f i.val = ∑ t : Fin B, ∑ r : Fin R, f (t.val * R + r.val) :=
  sum_blocks B R fun i => f i.val

/-- A running total that starts from zero plus block 0's sum and adds block k+1's sum at step k+1 holds, after step n,
    the sum of the blocks 0, …, n. -/
theorem acc_blocks {M : Type*} [AddCommMonoid M] (g : ℕ → M) :
    ∀ n, (Nat.rec (0 + g 0) (fun k acc => acc + g (k + 1)) n : M) = ∑ t ∈ Finset.range (n + 1), g t := by
  intro n
  induction n with
  | zero =>
    rw [Finset.sum_range_one]
    exact zero_add (g 0)
  | succ n ih =>
    show (Nat.rec (0 + g 0) (fun k acc => acc + g (k + 1)) n : M) + g (n + 1) = _
    rw [ih, Finset.sum_range_succ _ (n + 1)]

/-- A sum over the first B naturals is the sum over the B-element index type. -/
theorem sum_range_eq_fin {M : Type*} [AddCommMonoid M] (g : ℕ → M) (B : ℕ) :
    ∑ t ∈ Finset.range B, g t = ∑ t : Fin B, g t.val :=
  (Fin.sum_univ_eq_sum_range g B).symm

/-- So for a table of B + 1 blocks of R rows, with the blocks' sums g t = ∑ r, f (t·R + r), the running total after
    the last step, step B, is the sum over all (B + 1)·R rows. -/
theorem acc_all_rows {M : Type*} [AddCommMonoid M] (B R : ℕ) (f : ℕ → M) :
    (Nat.rec (0 + ∑ r : Fin R, f (0 * R + r.val)) (fun k acc => acc + ∑ r : Fin R, f ((k + 1) * R + r.val)) B : M)
      = ∑ i : Fin ((B + 1) * R), f i.val := by
  rw [acc_blocks (fun t => ∑ r : Fin R, f (t * R + r.val)) B, sum_range_eq_fin, sum_blocks_nat]

end Cert.LibBlockSum
-- ==== Proof.Val.Launch2Sum.lean ====
/-
  Fifty tiles make the table.

  The scratch cell starts at zero and at each of the fifty grid points takes the sum, over the tile's 20 000 rows, of
  logit plus output bias.  Row p of tile t is row t · 20 000 + p of the table, and the weights are the same at every
  point, so after the last point the cell holds the sum over all 1 000 000 rows, in any commutative additive monoid and
  so at the extended reals.
-/
import proofs.«116843_j64098091925532_2_alg».proof.Proof.Val.Launch2Row
import proofs.«116843_j64098091925532_2_alg».proof.Proof.Val.Launch2Acc
import proofs.«116843_j64098091925532_2_alg».proof.Proof.LibBlockSum

noncomputable section

open scoped BigOperators

namespace Cert.KernelIdeal.ValL2

open Idealize.ShloMosaic Idealize.ShloMosaic.ValueIdx

/-- A running total that starts from zero plus tile 0's sum and adds tile m + 1's sum at step m + 1 holds, after step
    49, the sum over all fifty tiles' rows. -/
theorem steps_total (f : ℕ → EReal) (x : ℕ → EReal)
    (h0 : x 0 = 0 + ∑ r : Fin 20000, f (0 * 20000 + r.val))
    (hstep : ∀ m, m + 1 < 50 → x (m + 1) = x m + ∑ r : Fin 20000, f ((m + 1) * 20000 + r.val)) :
    x 49 = ∑ i : Fin 1000000, f i.val := by
  have key : ∀ m, m < 50 → x m = (Nat.rec (0 + ∑ r : Fin 20000, f (0 * 20000 + r.val))
      (fun k acc => acc + ∑ r : Fin 20000, f ((k + 1) * 20000 + r.val)) m : EReal) := by
    intro m
    induction m with
    | zero => intro _; exact h0
    | succ m ih => intro hm; rw [hstep m hm, ih (by omega)]
  rw [key 49 (by omega)]
  exact Cert.LibBlockSum.acc_all_rows 49 20000 f

/-- Row p of tile t, for t below fifty, is a row of the table. -/
theorem tile_row_lt {t : ℕ} (ht : t < 50) (p : Fin 20000) : t * 20000 + p.val < 1000000 := by
  have := p.isLt; omega

/-- Logit plus output bias as a function of the row's number (zero past the table's end, which no tile reaches). -/
def rowTerm (agg : Vec Ideal S1000000x10 .f32) (nrm : Vec Ideal S1000000x1 .f32) (b2 : Vec Ideal S1x10 .f32)
    (wo1 : Vec Ideal S10x10 .f32) (bo1 : Vec Ideal S1x10 .f32) (wo2 : Vec Ideal S10x10 .f32)
    (bo2 : Vec Ideal S1x10 .f32) (wo3 : Vec Ideal S10x1 .f32) (bo3 : Vec Ideal S1x1 .f32) (i : ℕ) : EReal :=
  if h : i < 1000000 then rowLogit agg nrm b2 wo1 bo1 wo2 bo2 wo3 ⟨i, h⟩ + bo3 (ix2 (0 : Fin 1) (0 : Fin 1)) else 0

/-- ONE GRID POINT over variables: when the loaded tile's rows are rows t · 20 000 + p of the table and the loaded
    weights are the table's weights, the accumulation payload at the cell is what the cell held plus the sum of the
    tile's rows' terms. -/
theorem tile_step (agg : Vec Ideal S1000000x10 .f32) (nrm : Vec Ideal S1000000x1 .f32) (b2 : Vec Ideal S1x10 .f32)
    (wo1 : Vec Ideal S10x10 .f32) (bo1 : Vec Ideal S1x10 .f32) (wo2 : Vec Ideal S10x10 .f32)
    (bo2 : Vec Ideal S1x10 .f32) (wo3 : Vec Ideal S10x1 .f32) (bo3 : Vec Ideal S1x1 .f32)
    (t : ℕ) (ht : t < 50)
    (a : FVec Ideal S20000x10 .f32) (n : FVec Ideal S20000x1 .f32) (B2 : FVec Ideal S1x10 .f32)
    (W1 : FVec Ideal S10x10 .f32) (B1 : FVec Ideal S1x10 .f32) (W2 : FVec Ideal S10x10 .f32)
    (B2' : FVec Ideal S1x10 .f32) (W3 : FVec Ideal S10x1 .f32) (B3 : FVec Ideal S1x1 .f32)
    (ha : ∀ (p : Fin 20000) (k : Fin 10), a (ix2 p k) = agg (ix2 (⟨t * 20000 + p.val, tile_row_lt ht p⟩ : Fin 1000000) k))
    (hn : ∀ p : Fin 20000, n (ix2 p (0 : Fin 1)) = nrm (ix2 (⟨t * 20000 + p.val, tile_row_lt ht p⟩ : Fin 1000000) (0 : Fin 1)))
    (hB2 : B2 = b2) (hW1 : W1 = wo1) (hB1 : B1 = bo1) (hW2 : W2 = wo2) (hB2' : B2' = bo2) (hW3 : W3 = wo3)
    (hB3 : B3 = bo3) (acc : FVec Ideal S1x1 .f32) :
    Gen.k2_pay1 (F := Ideal) (Gen.k2_pay4 (F := Ideal) a n B2 W1 B1 W2 B2' W3) B3 acc (ix2 (0 : Fin 1) (0 : Fin 1))
      = acc (ix2 (0 : Fin 1) (0 : Fin 1))
        + ∑ r : Fin 20000, rowTerm agg nrm b2 wo1 bo1 wo2 bo2 wo3 bo3 (t * 20000 + r.val) := by
  subst hB2 hW1 hB1 hW2 hB2' hW3 hB3
  refine (pay1_apply _ B3 acc).trans (congrArg (acc (ix2 (0 : Fin 1) (0 : Fin 1)) + ·) ?_)
  refine Finset.sum_congr rfl fun r _ => ?_
  unfold rowTerm
  rw [dif_pos (tile_row_lt ht r), pay4_apply]
  unfold rowLogit
  refine congrArg (· + B3 (ix2 (0 : Fin 1) (0 : Fin 1))) ?_
  rw [hn r]
  exact congrArg (fun x => mlpRow x _ B2 W1 B1 W2 B2' W3) (funext fun k => ha r k)

/-- THE FIFTY STEPS over variables: a sequence of cell contents that starts from the accumulation payload over the
    zeroed scratch and then applies it to its own previous term, each point's tile and weights being the table's, ends
    holding the sum over all rows. -/
theorem cell_total (agg : Vec Ideal S1000000x10 .f32) (nrm : Vec Ideal S1000000x1 .f32) (b2 : Vec Ideal S1x10 .f32)
    (wo1 : Vec Ideal S10x10 .f32) (bo1 : Vec Ideal S1x10 .f32) (wo2 : Vec Ideal S10x10 .f32)
    (bo2 : Vec Ideal S1x10 .f32) (wo3 : Vec Ideal S10x1 .f32) (bo3 : Vec Ideal S1x1 .f32)
    (x : ℕ → EReal)
    (h0 : x 0 = 0 + ∑ r : Fin 20000, rowTerm agg nrm b2 wo1 bo1 wo2 bo2 wo3 bo3 (0 * 20000 + r.val))
    (hstep : ∀ m, m + 1 < 50 → x (m + 1)
        = x m + ∑ r : Fin 20000, rowTerm agg nrm b2 wo1 bo1 wo2 bo2 wo3 bo3 ((m + 1) * 20000 + r.val)) :
    x 49 = ∑ r : Fin 1000000, (rowLogit agg nrm b2 wo1 bo1 wo2 bo2 wo3 r + bo3 (ix2 (0 : Fin 1) (0 : Fin 1))) := by
  rw [steps_total _ x h0 hstep]
  refine Finset.sum_congr rfl fun r _ => ?_
  unfold rowTerm
  rw [dif_pos r.isLt]

end Cert.KernelIdeal.ValL2

end
-- ==== Proof.Val.Launch2Blocks.lean ====
/-
  The third launch's blocks as rows of its arrays.

  At grid point t the aggregated table's block and the scale column's block are rows t · 20 000 … t · 20 000 + 19 999
  of their arrays: a block's coordinate in the array is the block index times the block size plus the coordinate inside
  the block, and the printed index maps send point t to block (t, 0).  The weight and bias windows have one block, the
  whole array, at every point.
-/
import proofs.«116843_j64098091925532_2_alg».proof.Proof.Val.Launch2Defs
import proofs.«116843_j64098091925532_2_alg».proof.Proof.Gen.KernelIdeal.Launch
import proofs.«116843_j64098091925532_2_alg».proof.Proof.Gen.KernelIdeal.Points
import Idealize.ShloMosaic.Lib.Pipeline.Value

noncomputable section

open scoped BigOperators

namespace Cert.KernelIdeal.ValL2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- Window w's block at point t, read off its array as the launch finds it. -/
abbrev blk2 (c : Dev nD) (w : Fin cfg2.W) (t : Fin cfg2.N) :
    ((cfg2.win w).xblock (cfg2.grid.coords t)).Idx → Elt Ideal (cfg2.win w).elt :=
  ((cfg2.win w).blk t).view.read (Elt Ideal) (V c (Pipeline.arrRef spec2 w))

/-! ## The printed index maps, decided over the grid -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)

theorem lt50 (t : Fin cfg2.N) : t.val < 50 := by
  have h : cfg2.N = 50 := N_2
  have := t.isLt
  omega

/-! ## The blocks as rows of the arrays -/

/-- The aggregated table's block at point t, at (p, k): row t · 20 000 + p of the table. -/
theorem blk0_apply (c : Dev nD) (t : Fin cfg2.N) (p : Fin 20000) (k : Fin 10) (i : Fin 1000000)
    (hi : i.val = t.val * 20000 + p.val) :
    (blk2 V c 0 t : FVec Ideal S20000x10 .f32) (ix2 p k)
      = (V c main_v52 : S1000000x10.Idx → Elt Ideal .f32) (ix2 i k) := by
  obtain ⟨e0, e1⟩ := idx2_0 t
  show V c main_v52 (((cfg2.win 0).blk t).view.emb (ix2 p k)) = V c main_v52 (ix2 i k)
  refine congrArg (V c main_v52) (funext fun a => Fin.ext ?_)
  match a with
  | ⟨0, _⟩ => show win2_0.index t (0 : Fin 2) * 20000 + 1 * p.val = i.val; rw [e0, hi]; omega
  | ⟨1, _⟩ => show win2_0.index t (1 : Fin 2) * 10 + 1 * k.val = k.val; rw [e1]; omega

/-- The scale column's block at point t, at (p, q): row t · 20 000 + p of the column. -/
theorem blk1_apply (c : Dev nD) (t : Fin cfg2.N) (p : Fin 20000) (q : Fin 1) (i : Fin 1000000)
    (hi : i.val = t.val * 20000 + p.val) :
    (blk2 V c 1 t : FVec Ideal S20000x1 .f32) (ix2 p q)
      = (V c main_v11 : S1000000x1.Idx → Elt Ideal .f32) (ix2 i q) := by
  obtain ⟨e0, e1⟩ := idx2_1 t
  show V c main_v11 (((cfg2.win 1).blk t).view.emb (ix2 p q)) = V c main_v11 (ix2 i q)
  refine congrArg (V c main_v11) (funext fun a => Fin.ext ?_)
  match a with
  | ⟨0, _⟩ => show win2_1.index t (0 : Fin 2) * 20000 + 1 * p.val = i.val; rw [e0, hi]; omega
  | ⟨1, _⟩ => show win2_1.index t (1 : Fin 2) * 1 + 1 * q.val = q.val; rw [e1]; omega

/-- A weight or bias window's one block, at any point, is its whole array. -/
theorem blk2_eq (c : Dev nD) (t : Fin cfg2.N) :
    (blk2 V c 2 t : FVec Ideal S1x10 .f32) = (V c main_v19 : S1x10.Idx → Elt Ideal .f32) := by
  obtain ⟨e0, e1⟩ := idx2_2 t
  funext y
  show V c main_v19 (((cfg2.win 2).blk t).view.emb y) = V c main_v19 y
  refine congrArg (V c main_v19) (funext fun a => Fin.ext ?_)
  match a with
  | ⟨0, _⟩ => show win2_2.index t (0 : Fin 2) * 1 + 1 * (y 0).val = (y 0).val; rw [e0]; omega
  | ⟨1, _⟩ => show win2_2.index t (1 : Fin 2) * 10 + 1 * (y 1).val = (y 1).val; rw [e1]; omega

theorem blk3_eq (c : Dev nD) (t : Fin cfg2.N) :
    (blk2 V c 3 t : FVec Ideal S10x10 .f32) = (V c main_arg14 : S10x10.Idx → Elt Ideal .f32) := by
  obtain ⟨e0, e1⟩ := idx2_3 t
  funext y
  show V c main_arg14 (((cfg2.win 3).blk t).view.emb y) = V c main_arg14 y
  refine congrArg (V c main_arg14) (funext fun a => Fin.ext ?_)
  match a with
  | ⟨0, _⟩ => show win2_3.index t (0 : Fin 2) * 10 + 1 * (y 0).val = (y 0).val; rw [e0]; omega
  | ⟨1, _⟩ => show win2_3.index t (1 : Fin 2) * 10 + 1 * (y 1).val = (y 1).val; rw [e1]; omega

theorem blk4_eq (c : Dev nD) (t : Fin cfg2.N) :
    (blk2 V c 4 t : FVec Ideal S1x10 .f32) = (V c main_v20 : S1x10.Idx → Elt Ideal .f32) := by
  obtain ⟨e0, e1⟩ := idx2_4 t
  funext y
  show V c main_v20 (((cfg2.win 4).blk t).view.emb y) = V c main_v20 y
  refine congrArg (V c main_v20) (funext fun a => Fin.ext ?_)
  match a with
  | ⟨0, _⟩ => show win2_4.index t (0 : Fin 2) * 1 + 1 * (y 0).val = (y 0).val; rw [e0]; omega
  | ⟨1, _⟩ => show win2_4.index t (1 : Fin 2) * 10 + 1 * (y 1).val = (y 1).val; rw [e1]; omega

theorem blk5_eq (c : Dev nD) (t : Fin cfg2.N) :
    (blk2 V c 5 t : FVec Ideal S10x10 .f32) = (V c main_arg16 : S10x10.Idx → Elt Ideal .f32) := by
  obtain ⟨e0, e1⟩ := idx2_5 t
  funext y
  show V c main_arg16 (((cfg2.win 5).blk t).view.emb y) = V c main_arg16 y
  refine congrArg (V c main_arg16) (funext fun a => Fin.ext ?_)
  match a with
  | ⟨0, _⟩ => show win2_5.index t (0 : Fin 2) * 10 + 1 * (y 0).val = (y 0).val; rw [e0]; omega
  | ⟨1, _⟩ => show win2_5.index t (1 : Fin 2) * 10 + 1 * (y 1).val = (y 1).val; rw [e1]; omega

theorem blk6_eq (c : Dev nD) (t : Fin cfg2.N) :
    (blk2 V c 6 t : FVec Ideal S1x10 .f32) = (V c main_v21 : S1x10.Idx → Elt Ideal .f32) := by
  obtain ⟨e0, e1⟩ := idx2_6 t
  funext y
  show V c main_v21 (((cfg2.win 6).blk t).view.emb y) = V c main_v21 y
  refine congrArg (V c main_v21) (funext fun a => Fin.ext ?_)
  match a with
  | ⟨0, _⟩ => show win2_6.index t (0 : Fin 2) * 1 + 1 * (y 0).val = (y 0).val; rw [e0]; omega
  | ⟨1, _⟩ => show win2_6.index t (1 : Fin 2) * 10 + 1 * (y 1).val = (y 1).val; rw [e1]; omega

theorem blk7_eq (c : Dev nD) (t : Fin cfg2.N) :
    (blk2 V c 7 t : FVec Ideal S10x1 .f32) = (V c main_arg18 : S10x1.Idx → Elt Ideal .f32) := by
  obtain ⟨e0, e1⟩ := idx2_7 t
  funext y
  show V c main_arg18 (((cfg2.win 7).blk t).view.emb y) = V c main_arg18 y
  refine congrArg (V c main_arg18) (funext fun a => Fin.ext ?_)
  match a with
  | ⟨0, _⟩ => show win2_7.index t (0 : Fin 2) * 10 + 1 * (y 0).val = (y 0).val; rw [e0]; omega
  | ⟨1, _⟩ => show win2_7.index t (1 : Fin 2) * 1 + 1 * (y 1).val = (y 1).val; rw [e1]; omega

theorem blk8_eq (c : Dev nD) (t : Fin cfg2.N) :
    (blk2 V c 8 t : FVec Ideal S1x1 .f32) = (V c main_v22 : S1x1.Idx → Elt Ideal .f32) := by
  obtain ⟨e0, e1⟩ := idx2_8 t
  funext y
  show V c main_v22 (((cfg2.win 8).blk t).view.emb y) = V c main_v22 y
  refine congrArg (V c main_v22) (funext fun a => Fin.ext ?_)
  match a with
  | ⟨0, _⟩ => show win2_8.index t (0 : Fin 2) * 1 + 1 * (y 0).val = (y 0).val; rw [e0]; omega
  | ⟨1, _⟩ => show win2_8.index t (1 : Fin 2) * 1 + 1 * (y 1).val = (y 1).val; rw [e1]; omega

end Cert.KernelIdeal.ValL2

end
-- ==== Proof.Val.Launch2Glue.lean ====
/-
  From the fifty grid points to the result array.

  The launch's output window has one block, the whole one-cell result array, and writes it back only after the last
  grid point; so the array ends holding what the last point stored: the scratch cell divided by the literal 1e6.  The
  scratch cell after each point is the accumulation payload of that point's blocks and of the cell before; the tile
  blocks at point t are rows t · 20 000 … t · 20 000 + 19 999 of the aggregated table and of the scale column, and the
  weight and bias blocks are the whole weight and bias arrays at every point.  With the fifty-step sum this gives the
  mean over all rows.

  Stated over any proof data for the launch and an abstract sequence of (output buffer, scratch cell) pairs with the
  accumulation equations as hypotheses.
-/
import proofs.«116843_j64098091925532_2_alg».proof.Proof.Val.Launch2Sum
import proofs.«116843_j64098091925532_2_alg».proof.Proof.Val.Launch2Blocks

noncomputable section

open scoped BigOperators

namespace Cert.KernelIdeal.ValL2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## One grid point, and the fifty -/

/-- The accumulation payload of point t's blocks over a cell acc, at the cell: acc plus the sum of the terms of rows
    t · 20 000 … t · 20 000 + 19 999 of the table. -/
theorem step_at (c : Dev nD) (t : Fin cfg2.N) (acc : FVec Ideal S1x1 .f32) :
    Gen.k2_pay1 (F := Ideal)
        (Gen.k2_pay4 (F := Ideal) (blk2 V c 0 t) (blk2 V c 1 t) (blk2 V c 2 t) (blk2 V c 3 t) (blk2 V c 4 t)
          (blk2 V c 5 t) (blk2 V c 6 t) (blk2 V c 7 t))
        (blk2 V c 8 t) acc (ix2 (0 : Fin 1) (0 : Fin 1))
      = acc (ix2 (0 : Fin 1) (0 : Fin 1))
        + ∑ r : Fin 20000, rowTerm (V c main_v52) (V c main_v11) (V c main_v19) (V c main_arg14) (V c main_v20)
            (V c main_arg16) (V c main_v21) (V c main_arg18) (V c main_v22) (t.val * 20000 + r.val) :=
  tile_step (V c main_v52) (V c main_v11) (V c main_v19) (V c main_arg14) (V c main_v20)
    (V c main_arg16) (V c main_v21) (V c main_arg18) (V c main_v22) t.val (lt50 t)
    (blk2 V c 0 t) (blk2 V c 1 t) (blk2 V c 2 t) (blk2 V c 3 t) (blk2 V c 4 t)
    (blk2 V c 5 t) (blk2 V c 6 t) (blk2 V c 7 t) (blk2 V c 8 t)
    (fun p k => blk0_apply V c t p k ⟨t.val * 20000 + p.val, tile_row_lt (lt50 t) p⟩ rfl)
    (fun p => blk1_apply V c t p 0 ⟨t.val * 20000 + p.val, tile_row_lt (lt50 t) p⟩ rfl)
    (blk2_eq V c t) (blk3_eq V c t) (blk4_eq V c t) (blk5_eq V c t) (blk6_eq V c t) (blk7_eq V c t)
    (blk8_eq V c t) acc

/-- The scratch cell's value after point m of an abstract sequence of (output buffer, scratch cell) pairs. -/
def cellAt (o : (n : ℕ) → n < cfg2.N → Vec Ideal S1x1 .f32 × Vec Ideal S1x1 .f32) (m : ℕ) : EReal :=
  if h : m < cfg2.N then (o m h).2 (ix2 (0 : Fin 1) (0 : Fin 1)) else 0

theorem cellAt_of_lt (o : (n : ℕ) → n < cfg2.N → Vec Ideal S1x1 .f32 × Vec Ideal S1x1 .f32) (m : ℕ) (h : m < cfg2.N) :
    cellAt o m = (o m h).2 (ix2 (0 : Fin 1) (0 : Fin 1)) := dif_pos h

/-- THE SCRATCH AFTER THE LAST POINT: the sum over all rows of logit plus output bias. -/
theorem cell_last (c : Dev nD) (o : (n : ℕ) → n < cfg2.N → Vec Ideal S1x1 .f32 × Vec Ideal S1x1 .f32)
    (h0 : ∀ h : 0 < cfg2.N, (o 0 h).2 = Gen.k2_pay1 (F := Ideal)
        (Gen.k2_pay4 (F := Ideal) (blk2 V c 0 ⟨0, h⟩) (blk2 V c 1 ⟨0, h⟩) (blk2 V c 2 ⟨0, h⟩) (blk2 V c 3 ⟨0, h⟩)
          (blk2 V c 4 ⟨0, h⟩) (blk2 V c 5 ⟨0, h⟩) (blk2 V c 6 ⟨0, h⟩) (blk2 V c 7 ⟨0, h⟩))
        (blk2 V c 8 ⟨0, h⟩) (Gen.k2_pay3 (F := Ideal)))
    (hstep : ∀ (n : ℕ) (h : n + 1 < cfg2.N), (o (n + 1) h).2 = Gen.k2_pay1 (F := Ideal)
        (Gen.k2_pay4 (F := Ideal) (blk2 V c 0 ⟨n + 1, h⟩) (blk2 V c 1 ⟨n + 1, h⟩) (blk2 V c 2 ⟨n + 1, h⟩) (blk2 V c 3 ⟨n + 1, h⟩)
          (blk2 V c 4 ⟨n + 1, h⟩) (blk2 V c 5 ⟨n + 1, h⟩) (blk2 V c 6 ⟨n + 1, h⟩) (blk2 V c 7 ⟨n + 1, h⟩))
        (blk2 V c 8 ⟨n + 1, h⟩) (o n (Nat.lt_of_succ_lt h)).2)
    (h49 : 49 < cfg2.N) :
    (o 49 h49).2 (ix2 (0 : Fin 1) (0 : Fin 1))
      = ∑ r : Fin 1000000, (rowLogit (V c main_v52) (V c main_v11) (V c main_v19) (V c main_arg14) (V c main_v20)
          (V c main_arg16) (V c main_v21) (V c main_arg18) r + V c main_v22 (ix2 (0 : Fin 1) (0 : Fin 1))) := by
  have hN : cfg2.N = 50 := N_2
  have hx0 : cellAt o 0 = 0 + ∑ r : Fin 20000, rowTerm (V c main_v52) (V c main_v11) (V c main_v19) (V c main_arg14) (V c main_v20) (V c main_arg16) (V c main_v21) (V c main_arg18) (V c main_v22) (0 * 20000 + r.val) := by
    have h : 0 < cfg2.N := by omega
    rw [cellAt_of_lt o 0 h, h0 h]
    refine (step_at V c ⟨0, h⟩ _).trans ?_
    rw [pay3_apply]
  have hxs : ∀ m, m + 1 < 50 → cellAt o (m + 1)
      = cellAt o m + ∑ r : Fin 20000, rowTerm (V c main_v52) (V c main_v11) (V c main_v19) (V c main_arg14) (V c main_v20) (V c main_arg16) (V c main_v21) (V c main_arg18) (V c main_v22) ((m + 1) * 20000 + r.val) := by
    intro m hm
    have h : m + 1 < cfg2.N := by omega
    rw [cellAt_of_lt o (m + 1) h, cellAt_of_lt o m (Nat.lt_of_succ_lt h), hstep m h]
    exact step_at V c ⟨m + 1, h⟩ _
  rw [← cellAt_of_lt o 49 h49]
  exact cell_total (V c main_v52) (V c main_v11) (V c main_v19) (V c main_arg14) (V c main_v20) (V c main_arg16) (V c main_v21) (V c main_arg18) (V c main_v22) (cellAt o) hx0 hxs

/-! ## The result array -/

/-- The output window's one block is the whole one-cell array, at every point. -/
theorem box2_9 : ∀ t : Fin cfg2.N, win2_9.index t (0 : Fin 2) * win2_9.size (0 : Fin 2) = 0
    ∧ win2_9.xsize (grid2.coords t) (0 : Fin 2) = 1
    ∧ win2_9.index t (1 : Fin 2) * win2_9.size (1 : Fin 2) = 0
    ∧ win2_9.xsize (grid2.coords t) (1 : Fin 2) = 1 :=
  (by decide +kernel : ∀ t : Fin grid2.N, _)

/-- THE ARRAY after the launch: the mean over all rows of logit plus output bias, for any proof data whose output
    buffer after the last point is the stored quotient of a scratch cell that follows the accumulation equations. -/
theorem final2 (c : Dev nD) (dat : Dat τ (Elt Ideal) Unit ℕ (Pipeline.UD sig nD τ) ℕ cfg2 c)
    (o : (n : ℕ) → n < cfg2.N → Vec Ideal S1x1 .f32 × Vec Ideal S1x1 .f32)
    (h0 : ∀ h : 0 < cfg2.N, (o 0 h).2 = Gen.k2_pay1 (F := Ideal)
        (Gen.k2_pay4 (F := Ideal) (blk2 V c 0 ⟨0, h⟩) (blk2 V c 1 ⟨0, h⟩) (blk2 V c 2 ⟨0, h⟩) (blk2 V c 3 ⟨0, h⟩)
          (blk2 V c 4 ⟨0, h⟩) (blk2 V c 5 ⟨0, h⟩) (blk2 V c 6 ⟨0, h⟩) (blk2 V c 7 ⟨0, h⟩))
        (blk2 V c 8 ⟨0, h⟩) (Gen.k2_pay3 (F := Ideal)))
    (hstep : ∀ (n : ℕ) (h : n + 1 < cfg2.N), (o (n + 1) h).2 = Gen.k2_pay1 (F := Ideal)
        (Gen.k2_pay4 (F := Ideal) (blk2 V c 0 ⟨n + 1, h⟩) (blk2 V c 1 ⟨n + 1, h⟩) (blk2 V c 2 ⟨n + 1, h⟩) (blk2 V c 3 ⟨n + 1, h⟩)
          (blk2 V c 4 ⟨n + 1, h⟩) (blk2 V c 5 ⟨n + 1, h⟩) (blk2 V c 6 ⟨n + 1, h⟩) (blk2 V c 7 ⟨n + 1, h⟩))
        (blk2 V c 8 ⟨n + 1, h⟩) (o n (Nat.lt_of_succ_lt h)).2)
    (hlast : ∀ h : 49 < cfg2.N, (o 49 h).1 = Gen.k2_pay2 (F := Ideal) (o 49 h).2)
    (hafter : ∀ t : Fin cfg2.N, dat.after 9 t = (o t.val t.isLt).1) :
    dat.arrAt 9 cfg2.N = E2 (V c main_v52) (V c main_v11) (V c main_v19) (V c main_arg14) (V c main_v20) (V c main_arg16) (V c main_v21) (V c main_arg18) (V c main_v22) := by
  have hN : cfg2.N = 50 := N_2
  have h49 : 49 < cfg2.N := by omega
  have hcell := cell_last V c o h0 hstep h49
  refine dat.arrAt_eq_of_cover 9 (E2 (V c main_v52) (V c main_v11) (V c main_v19) (V c main_arg14) (V c main_v20) (V c main_arg16) (V c main_v21) (V c main_arg18) (V c main_v22)) (fun t hf => ?_) (fun i => ?_)
  · have ht : t.val = 49 := by have := (flush2_9 t).mp hf; have := t.isLt; omega
    obtain rfl : t = ⟨49, h49⟩ := Fin.ext ht
    show (cfg2.win 9).cut (grid2.coords ⟨49, h49⟩) (dat.after 9 ⟨49, h49⟩) = _
    rw [show dat.after 9 ⟨49, h49⟩ = Gen.k2_pay2 (F := Ideal) (o 49 h49).2 from (hafter ⟨49, h49⟩).trans (hlast h49)]
    funext j
    refine (pay2_apply (o 49 h49).2 j).trans ?_
    rw [idx11 j, hcell]
    rfl
  · refine ⟨⟨49, h49⟩, (flush2_9 _).mpr rfl, ?_⟩
    show i ∈ ((View.whole main_v53).slice (win2_9.rect ⟨49, h49⟩)).set
    rw [View.set_slice_whole, Rect.mem_set_unit]
    intro a
    have hi0 : (i 0 : Nat) < 1 := (i 0).isLt
    have hi1 : (i 1 : Nat) < 1 := (i 1).isLt
    obtain ⟨b0, b1, b2, b3⟩ := box2_9 ⟨49, h49⟩
    match a with
    | ⟨0, _⟩ =>
      show win2_9.index ⟨49, h49⟩ 0 * win2_9.size 0 ≤ (i 0 : Nat)
        ∧ (i 0 : Nat) < win2_9.index ⟨49, h49⟩ 0 * win2_9.size 0 + win2_9.xsize (grid2.coords ⟨49, h49⟩) 0
      rw [b0, b1]; omega
    | ⟨1, _⟩ =>
      show win2_9.index ⟨49, h49⟩ 1 * win2_9.size 1 ≤ (i 1 : Nat)
        ∧ (i 1 : Nat) < win2_9.index ⟨49, h49⟩ 1 * win2_9.size 1 + win2_9.xsize (grid2.coords ⟨49, h49⟩) 1
      rw [b2, b3]; omega

end Cert.KernelIdeal.ValL2

end
-- ==== Proof.Val.Ref0.lean ====
/-
  The reference computes the first table — the two feature columns set side by side, the first linear map, bias,
  rectifier and degree scaling, then the shared linear map — by whole-array host operations; read at an index, that
  stage is the explicit row formula the first launch's output array satisfies, when the launch's packed feature array
  carries the reference's two feature vectors and its degree scale as columns 0, 1 and 2.
-/
import proofs.«116843_j64098091925532_2_alg».proof.Proof.Val.Pay0
import proofs.«116843_j64098091925532_2_alg».proof.Proof.Gen.ReferenceIdeal.Read

noncomputable section

namespace Cert.KernelIdeal.RefH

open Idealize.ShloMosaic Idealize.ShloMosaic.ValueIdx
open Cert.ReferenceIdeal Cert.ReferenceIdeal.Gen Cert.ReferenceIdeal.Read
open scoped BigOperators

/-- Two one-column tables of `n` rows set side by side read, in column 0, the first and, in column 1, the second. -/
theorem side_by_side_apply {α : Type} {n : ℕ} (c0 c1 : (⟨2, ![n, 1]⟩ : Shape).Idx → α)
    (h : Shape.Concatenates [(⟨2, ![n, 1]⟩ : Shape), (⟨2, ![n, 1]⟩ : Shape)] (⟨2, ![n, 2]⟩ : Shape) 1) (p : Fin n) :
    concatenate (⟨2, ![n, 2]⟩ : Shape) 1 [⟨(⟨2, ![n, 1]⟩ : Shape), c0⟩, ⟨(⟨2, ![n, 1]⟩ : Shape), c1⟩] h (ix2 p (0 : Fin 2))
        = c0 (ix2 p (0 : Fin 1))
    ∧ concatenate (⟨2, ![n, 2]⟩ : Shape) 1 [⟨(⟨2, ![n, 1]⟩ : Shape), c0⟩, ⟨(⟨2, ![n, 1]⟩ : Shape), c1⟩] h (ix2 p (1 : Fin 2))
        = c1 (ix2 p (0 : Fin 1)) := by
  constructor
  · refine concatenate_pair_apply_left (1 : Fin 2) c0 c1 h (ix2 p (0 : Fin 2)) rfl (ix2 p (0 : Fin 1)) fun b => ?_
    match b with
    | ⟨0, _⟩ => rfl
    | ⟨1, _⟩ => rfl
  · refine concatenate_pair_apply_right (1 : Fin 2) c0 c1 h (ix2 p (1 : Fin 2)) rfl rfl (ix2 p (0 : Fin 1)) (fun b hb => ?_) rfl
    match b with
    | ⟨0, _⟩ => rfl
    | ⟨1, _⟩ => exact absurd rfl hb

/-- The reference's first table is the row formula of its arguments and its degree scale `val_main_v11`: the packed
    feature array holds the feature vectors `x0`, `x1` and that scale as its three columns, the bias row holds `x7`. -/
theorem table0_eq (x0 x1 : (⟨S1000000, .f32⟩ : BufTy).Contents (Elt Ideal)) (x4 : (⟨S16000000, .i32⟩ : BufTy).Contents (Elt Ideal)) (x6 : (⟨S2x10, .f32⟩ : BufTy).Contents (Elt Ideal)) (x7 : (⟨S10, .f32⟩ : BufTy).Contents (Elt Ideal)) (x12 : (⟨S10x10, .f32⟩ : BufTy).Contents (Elt Ideal))
    (feat : Vec Ideal Cert.KernelIdeal.S1000000x3 .f32) (bv : Vec Ideal Cert.KernelIdeal.S1x10 .f32)
    (h0 : ∀ p : Fin 1000000, feat (ix2 p (0 : Fin 3)) = x0 (ix1 p))
    (h1 : ∀ p : Fin 1000000, feat (ix2 p (1 : Fin 3)) = x1 (ix1 p))
    (h2 : ∀ p : Fin 1000000, feat (ix2 p (2 : Fin 3)) = val_main_v11 (F := Ideal) x4 (ix2 p (0 : Fin 1)))
    (hbv : ∀ k : Fin 10, bv (ix2 (0 : Fin 1) k) = x7 (ix1 k)) :
    (Cert.KernelIdeal.ValH.E0 feat x6 bv x12 : S1000000x10.Idx → EReal) = val_main_v31 (F := Ideal) x0 x1 x4 x6 x7 x12 := by
  funext i
  obtain ⟨r, q, rfl⟩ : ∃ (r : Fin 1000000) (q : Fin 10), i = ix2 r q := ⟨i 0, i 1, eq_ix2 i⟩
  rw [Cert.KernelIdeal.ValH.E0_apply, val_main_v31_apply]
  refine Finset.sum_congr rfl fun k _ => ?_
  have el : lidx_main_v31 (ix2 r q) k = ix2 r k := funext fun a => Fin.ext (by match a with | ⟨0, _⟩ => rfl | ⟨1, _⟩ => rfl)
  have er : ridx_main_v31 (ix2 r q) k = ix2 k q := funext fun a => Fin.ext (by match a with | ⟨0, _⟩ => rfl | ⟨1, _⟩ => rfl)
  have e29 : idx_main_v29 (ix2 r k) = ix2 r (0 : Fin 1) := funext fun a => Fin.ext (by match a with | ⟨0, _⟩ => rfl | ⟨1, _⟩ => rfl)
  have e20 : idx_main_v19 (idx_main_v20 (ix2 r k)) = ix1 k := funext fun a => Fin.ext (by match a with | ⟨0, _⟩ => rfl)
  -- the first linear map's two-term sum, column by column
  obtain ⟨l0, l1⟩ := side_by_side_apply (val_main_v15 (F := Ideal) x0) (val_main_v16 (F := Ideal) x1)
    concatenates_S1000000x1_S1000000x1_S1000000x2_d1 r
  have hs : ∑ j : Fin 2, feat (ix2 r (Fin.castSucc j)) * x6 (ix2 j k) = val_main_v18 (F := Ideal) x0 x1 x6 (ix2 r k) := by
    rw [val_main_v18_apply]
    refine Finset.sum_congr rfl fun j _ => ?_
    have erj : ridx_main_v18 (ix2 r k) j = ix2 j k := funext fun a => Fin.ext (by match a with | ⟨0, _⟩ => rfl | ⟨1, _⟩ => rfl)
    rw [erj]
    refine congrArg (· * x6 (ix2 j k)) ?_
    unfold val_main_v17
    match j with
    | ⟨0, _⟩ =>
      have elj : lidx_main_v18 (ix2 r k) (⟨0, by decide⟩ : Fin 2) = ix2 r (0 : Fin 2) := funext fun a => Fin.ext (by match a with | ⟨0, _⟩ => rfl | ⟨1, _⟩ => rfl)
      have e15 : idx_main_v15 (ix2 r (0 : Fin 1)) = ix1 r := funext fun a => Fin.ext (by match a with | ⟨0, _⟩ => rfl)
      rw [elj]
      exact (h0 r).trans ((l0.trans ((val_main_v15_apply x0 _).trans (congrArg x0 e15))).symm)
    | ⟨1, _⟩ =>
      have elj : lidx_main_v18 (ix2 r k) (⟨1, by decide⟩ : Fin 2) = ix2 r (1 : Fin 2) := funext fun a => Fin.ext (by match a with | ⟨0, _⟩ => rfl | ⟨1, _⟩ => rfl)
      have e16 : idx_main_v16 (ix2 r (0 : Fin 1)) = ix1 r := funext fun a => Fin.ext (by match a with | ⟨0, _⟩ => rfl)
      rw [elj]
      exact (h1 r).trans ((l1.trans ((val_main_v16_apply x1 _).trans (congrArg x1 e16))).symm)
  rw [el, er, val_main_v30_apply, val_main_v22_apply, val_main_v21_apply, val_main_v29_apply, val_main_v20_apply,
    val_main_v19_apply, val_main_call2_v0_apply, val_main_call2_cst_apply, e29, e20, hs, h2 r, hbv k]
  rfl

end Cert.KernelIdeal.RefH

end
-- ==== Proof.Val.Ref1.lean ====
/-
  The reference computes the second table — bias, rectifier and degree scaling of the aggregated rows, then the shared
  linear map — by whole-array host operations; read at an index, that stage is the explicit row formula the second
  launch's output array satisfies, when the launch's operands are the reference's stages.
-/
import proofs.«116843_j64098091925532_2_alg».proof.Proof.Val.Pay1
import proofs.«116843_j64098091925532_2_alg».proof.Proof.Gen.ReferenceIdeal.Read

noncomputable section

namespace Cert.KernelIdeal.RefH

open Idealize.ShloMosaic Idealize.ShloMosaic.ValueIdx
open Cert.ReferenceIdeal Cert.ReferenceIdeal.Read
open scoped BigOperators

/-- The reference's second table is the row formula of its own earlier stages: the aggregated rows `val_main_v44`, the
    constraint nodes' degree scale `val_main_v14`, the bias `x13` and the weight `x12`. -/
theorem table1_eq (x0 x1 : (⟨S1000000, .f32⟩ : BufTy).Contents (Elt Ideal)) (x3 : (⟨S16000000, .f32⟩ : BufTy).Contents (Elt Ideal)) (x4 x5 : (⟨S16000000, .i32⟩ : BufTy).Contents (Elt Ideal)) (x6 : (⟨S2x10, .f32⟩ : BufTy).Contents (Elt Ideal)) (x7 : (⟨S10, .f32⟩ : BufTy).Contents (Elt Ideal)) (x12 : (⟨S10x10, .f32⟩ : BufTy).Contents (Elt Ideal)) (x13 : (⟨S10, .f32⟩ : BufTy).Contents (Elt Ideal))
    (agg : Vec Ideal Cert.KernelIdeal.S500000x10 .f32) (nrm : Vec Ideal Cert.KernelIdeal.S500000x1 .f32) (b2 : Vec Ideal Cert.KernelIdeal.S1x10 .f32)
    (hagg : (agg : S500000x10.Idx → EReal) = val_main_v44 (F := Ideal) x0 x1 x3 x4 x5 x6 x7 x12)
    (hnrm : (nrm : S500000x1.Idx → EReal) = val_main_v14 (F := Ideal) x5)
    (hb2 : ∀ k : Fin 10, b2 (ix2 (0 : Fin 1) k) = x13 (ix1 k)) :
    (Cert.KernelIdeal.ValH.E1 agg nrm b2 x12 : S500000x10.Idx → EReal) = val_main_v53 (F := Ideal) x0 x1 x3 x4 x5 x6 x7 x12 x13 := by
  funext i
  obtain ⟨r, q, rfl⟩ : ∃ (r : Fin 500000) (q : Fin 10), i = ix2 r q := ⟨i 0, i 1, eq_ix2 i⟩
  rw [Cert.KernelIdeal.ValH.E1_apply, val_main_v53_apply]
  refine Finset.sum_congr rfl fun k _ => ?_
  have el : lidx_main_v53 (ix2 r q) k = ix2 r k := funext fun a => Fin.ext (by match a with | ⟨0, _⟩ => rfl | ⟨1, _⟩ => rfl)
  have er : ridx_main_v53 (ix2 r q) k = ix2 k q := funext fun a => Fin.ext (by match a with | ⟨0, _⟩ => rfl | ⟨1, _⟩ => rfl)
  have e45 : idx_main_v45 (ix2 r k) = ix2 r (0 : Fin 1) := funext fun a => Fin.ext (by match a with | ⟨0, _⟩ => rfl | ⟨1, _⟩ => rfl)
  have e51 : idx_main_v51 (ix2 r k) = ix2 r (0 : Fin 1) := funext fun a => Fin.ext (by match a with | ⟨0, _⟩ => rfl | ⟨1, _⟩ => rfl)
  have e48 : idx_main_v47 (idx_main_v48 (ix2 r k)) = ix1 k := funext fun a => Fin.ext (by match a with | ⟨0, _⟩ => rfl)
  rw [el, er, val_main_v52_apply, val_main_v50_apply, val_main_v49_apply, val_main_v46_apply, val_main_v45_apply,
    val_main_v48_apply, val_main_v47_apply, val_main_v51_apply, val_main_call4_v0_apply, val_main_call4_cst_apply,
    e45, e51, e48, hagg, hnrm, hb2]
  rfl

end Cert.KernelIdeal.RefH

end
-- ==== Proof.Val.Ref2.lean ====
/-
  The reference's last stages — bias, rectifier and degree scaling of the second aggregation, the three-layer network,
  the sum over all rows and the division by the number of rows — read at the one index of the result, are the mean the
  third launch's output array holds, when the launch's operands are the reference's stages. One lemma per layer.
-/
import proofs.«116843_j64098091925532_2_alg».proof.Proof.Val.Launch2Defs
import proofs.«116843_j64098091925532_2_alg».proof.Proof.Gen.ReferenceIdeal.Read

noncomputable section

namespace Cert.KernelIdeal.RefH

open Idealize.ShloMosaic Idealize.ShloMosaic.ValueIdx
open Cert.ReferenceIdeal Cert.ReferenceIdeal.Read
open scoped BigOperators

section Layers

variable (x0 x1 : (⟨S1000000, .f32⟩ : BufTy).Contents (Elt Ideal)) (x3 : (⟨S16000000, .f32⟩ : BufTy).Contents (Elt Ideal)) (x4 x5 : (⟨S16000000, .i32⟩ : BufTy).Contents (Elt Ideal)) (x6 : (⟨S2x10, .f32⟩ : BufTy).Contents (Elt Ideal)) (x7 : (⟨S10, .f32⟩ : BufTy).Contents (Elt Ideal)) (x12 : (⟨S10x10, .f32⟩ : BufTy).Contents (Elt Ideal)) (x13 : (⟨S10, .f32⟩ : BufTy).Contents (Elt Ideal)) (x14 : (⟨S10x10, .f32⟩ : BufTy).Contents (Elt Ideal)) (x15 : (⟨S10, .f32⟩ : BufTy).Contents (Elt Ideal)) (x16 : (⟨S10x10, .f32⟩ : BufTy).Contents (Elt Ideal)) (x17 : (⟨S10, .f32⟩ : BufTy).Contents (Elt Ideal)) (x18 : (⟨S10x1, .f32⟩ : BufTy).Contents (Elt Ideal)) (x19 : (⟨S1, .f32⟩ : BufTy).Contents (Elt Ideal))

/-- The input layer: entry `(r, k)` of the rectified, scaled and shifted second aggregation. -/
theorem layer0_eq (r : Fin 1000000) (k : Fin 10) :
    val_main_v72 (F := Ideal) x0 x1 x3 x4 x5 x6 x7 x12 x13 (ix2 r k)
      = max (val_main_v66 (F := Ideal) x0 x1 x3 x4 x5 x6 x7 x12 x13 (ix2 r k) * val_main_v11 (F := Ideal) x4 (ix2 r (0 : Fin 1)) + x13 (ix1 k)) 0 := by
  have N67 : idx_main_v67 (ix2 r k) = ix2 r (0 : Fin 1) := funext fun a => Fin.ext (by match a with | ⟨0, _⟩ => rfl | ⟨1, _⟩ => rfl)
  have B70 : idx_main_v69 (idx_main_v70 (ix2 r k)) = ix1 k := funext fun a => Fin.ext (by match a with | ⟨0, _⟩ => rfl)
  rw [val_main_v72_apply, val_main_v71_apply, val_main_v68_apply, val_main_v67_apply, val_main_v70_apply, val_main_v69_apply,
    val_main_call5_v0_apply, val_main_call5_cst_apply, N67, B70,
    Ideal.maximumf_def, Ideal.addf_def, Ideal.mulf_def, Ideal.ofBits_def, Ideal.ofBits_zero_f32]

/-- The first hidden layer at `(r, j)`. -/
theorem layer1_eq (r : Fin 1000000) (j : Fin 10) :
    val_main_v77 (F := Ideal) x0 x1 x3 x4 x5 x6 x7 x12 x13 x14 x15 (ix2 r j)
      = max ((∑ k : Fin 10, val_main_v72 (F := Ideal) x0 x1 x3 x4 x5 x6 x7 x12 x13 (ix2 r k) * x14 (ix2 k j)) + x15 (ix1 j)) 0 := by
  have B75 : idx_main_v74 (idx_main_v75 (ix2 r j)) = ix1 j := funext fun a => Fin.ext (by match a with | ⟨0, _⟩ => rfl)
  have hs : (∑ k : Fin 10, val_main_v72 (F := Ideal) x0 x1 x3 x4 x5 x6 x7 x12 x13 (lidx_main_v73 (ix2 r j) k) * x14 (ridx_main_v73 (ix2 r j) k))
      = ∑ k : Fin 10, val_main_v72 (F := Ideal) x0 x1 x3 x4 x5 x6 x7 x12 x13 (ix2 r k) * x14 (ix2 k j) :=
    Finset.sum_congr rfl fun k _ => by
      have el : lidx_main_v73 (ix2 r j) k = ix2 r k := funext fun a => Fin.ext (by match a with | ⟨0, _⟩ => rfl | ⟨1, _⟩ => rfl)
      have er : ridx_main_v73 (ix2 r j) k = ix2 k j := funext fun a => Fin.ext (by match a with | ⟨0, _⟩ => rfl | ⟨1, _⟩ => rfl)
      rw [el, er]
  rw [val_main_v77_apply, val_main_v76_apply, val_main_v73_apply, val_main_v75_apply, val_main_v74_apply,
    val_main_call6_v0_apply, val_main_call6_cst_apply, B75, hs,
    Ideal.maximumf_def, Ideal.addf_def, Ideal.ofBits_def, Ideal.ofBits_zero_f32]

/-- The second hidden layer at `(r, i)`. -/
theorem layer2_eq (r : Fin 1000000) (i : Fin 10) :
    val_main_v82 (F := Ideal) x0 x1 x3 x4 x5 x6 x7 x12 x13 x14 x15 x16 x17 (ix2 r i)
      = max ((∑ j : Fin 10, val_main_v77 (F := Ideal) x0 x1 x3 x4 x5 x6 x7 x12 x13 x14 x15 (ix2 r j) * x16 (ix2 j i)) + x17 (ix1 i)) 0 := by
  have B80 : idx_main_v79 (idx_main_v80 (ix2 r i)) = ix1 i := funext fun a => Fin.ext (by match a with | ⟨0, _⟩ => rfl)
  have hs : (∑ j : Fin 10, val_main_v77 (F := Ideal) x0 x1 x3 x4 x5 x6 x7 x12 x13 x14 x15 (lidx_main_v78 (ix2 r i) j) * x16 (ridx_main_v78 (ix2 r i) j))
      = ∑ j : Fin 10, val_main_v77 (F := Ideal) x0 x1 x3 x4 x5 x6 x7 x12 x13 x14 x15 (ix2 r j) * x16 (ix2 j i) :=
    Finset.sum_congr rfl fun j _ => by
      have el : lidx_main_v78 (ix2 r i) j = ix2 r j := funext fun a => Fin.ext (by match a with | ⟨0, _⟩ => rfl | ⟨1, _⟩ => rfl)
      have er : ridx_main_v78 (ix2 r i) j = ix2 j i := funext fun a => Fin.ext (by match a with | ⟨0, _⟩ => rfl | ⟨1, _⟩ => rfl)
      rw [el, er]
  rw [val_main_v82_apply, val_main_v81_apply, val_main_v78_apply, val_main_v80_apply, val_main_v79_apply,
    val_main_call7_v0_apply, val_main_call7_cst_apply, B80, hs,
    Ideal.maximumf_def, Ideal.addf_def, Ideal.ofBits_def, Ideal.ofBits_zero_f32]

/-- The logit of row `r` plus the output bias. -/
theorem layer3_eq (r : Fin 1000000) :
    val_main_v86 (F := Ideal) x0 x1 x3 x4 x5 x6 x7 x12 x13 x14 x15 x16 x17 x18 x19 (ix2 r (0 : Fin 1))
      = (∑ i : Fin 10, val_main_v82 (F := Ideal) x0 x1 x3 x4 x5 x6 x7 x12 x13 x14 x15 x16 x17 (ix2 r i) * x18 (ix2 i (0 : Fin 1))) + x19 (ix1 (0 : Fin 1)) := by
  have B85 : idx_main_v84 (idx_main_v85 (ix2 r (0 : Fin 1))) = ix1 (0 : Fin 1) := funext fun a => Fin.ext (by match a with | ⟨0, _⟩ => rfl)
  have hs : (∑ i : Fin 10, val_main_v82 (F := Ideal) x0 x1 x3 x4 x5 x6 x7 x12 x13 x14 x15 x16 x17 (lidx_main_v83 (ix2 r (0 : Fin 1)) i) * x18 (ridx_main_v83 (ix2 r (0 : Fin 1)) i))
      = ∑ i : Fin 10, val_main_v82 (F := Ideal) x0 x1 x3 x4 x5 x6 x7 x12 x13 x14 x15 x16 x17 (ix2 r i) * x18 (ix2 i (0 : Fin 1)) :=
    Finset.sum_congr rfl fun i _ => by
      have el : lidx_main_v83 (ix2 r (0 : Fin 1)) i = ix2 r i := funext fun a => Fin.ext (by match a with | ⟨0, _⟩ => rfl | ⟨1, _⟩ => rfl)
      have er : ridx_main_v83 (ix2 r (0 : Fin 1)) i = ix2 i (0 : Fin 1) := funext fun a => Fin.ext (by match a with | ⟨0, _⟩ => rfl | ⟨1, _⟩ => rfl)
      rw [el, er]
  rw [val_main_v86_apply, val_main_v83_apply, val_main_v85_apply, val_main_v84_apply, B85, hs, Ideal.addf_def]

end Layers

/-- One row of the reference's logits, plus the output bias, is the network's row formula on the reference's own
    second aggregation and variable-node degree scale. -/
theorem row2_eq (x0 x1 : (⟨S1000000, .f32⟩ : BufTy).Contents (Elt Ideal)) (x3 : (⟨S16000000, .f32⟩ : BufTy).Contents (Elt Ideal)) (x4 x5 : (⟨S16000000, .i32⟩ : BufTy).Contents (Elt Ideal)) (x6 : (⟨S2x10, .f32⟩ : BufTy).Contents (Elt Ideal)) (x7 : (⟨S10, .f32⟩ : BufTy).Contents (Elt Ideal)) (x12 : (⟨S10x10, .f32⟩ : BufTy).Contents (Elt Ideal)) (x13 : (⟨S10, .f32⟩ : BufTy).Contents (Elt Ideal)) (x14 : (⟨S10x10, .f32⟩ : BufTy).Contents (Elt Ideal)) (x15 : (⟨S10, .f32⟩ : BufTy).Contents (Elt Ideal)) (x16 : (⟨S10x10, .f32⟩ : BufTy).Contents (Elt Ideal)) (x17 : (⟨S10, .f32⟩ : BufTy).Contents (Elt Ideal)) (x18 : (⟨S10x1, .f32⟩ : BufTy).Contents (Elt Ideal)) (x19 : (⟨S1, .f32⟩ : BufTy).Contents (Elt Ideal))
    (agg : Vec Ideal Cert.KernelIdeal.S1000000x10 .f32) (nrm : Vec Ideal Cert.KernelIdeal.S1000000x1 .f32)
    (b2 bo1 bo2 : Vec Ideal Cert.KernelIdeal.S1x10 .f32) (bo3 : Vec Ideal Cert.KernelIdeal.S1x1 .f32)
    (hagg : (agg : S1000000x10.Idx → EReal) = val_main_v66 (F := Ideal) x0 x1 x3 x4 x5 x6 x7 x12 x13)
    (hnrm : (nrm : S1000000x1.Idx → EReal) = val_main_v11 (F := Ideal) x4)
    (hb2 : ∀ k : Fin 10, b2 (ix2 (0 : Fin 1) k) = x13 (ix1 k))
    (hbo1 : ∀ k : Fin 10, bo1 (ix2 (0 : Fin 1) k) = x15 (ix1 k))
    (hbo2 : ∀ k : Fin 10, bo2 (ix2 (0 : Fin 1) k) = x17 (ix1 k))
    (hbo3 : bo3 (ix2 (0 : Fin 1) (0 : Fin 1)) = x19 (ix1 (0 : Fin 1))) (r : Fin 1000000) :
    Cert.KernelIdeal.ValL2.rowLogit agg nrm b2 x14 bo1 x16 bo2 x18 r + bo3 (ix2 (0 : Fin 1) (0 : Fin 1))
      = val_main_v86 (F := Ideal) x0 x1 x3 x4 x5 x6 x7 x12 x13 x14 x15 x16 x17 x18 x19 (ix2 r (0 : Fin 1)) := by
  have h0 : Cert.KernelIdeal.ValL2.hid0 (fun k => agg (ix2 r k)) (nrm (ix2 r (0 : Fin 1))) b2
      = fun k => val_main_v72 (F := Ideal) x0 x1 x3 x4 x5 x6 x7 x12 x13 (ix2 r k) := by
    funext k
    rw [layer0_eq]; unfold Cert.KernelIdeal.ValL2.hid0; rw [hb2, hagg, hnrm]
  have h1 : Cert.KernelIdeal.ValL2.dense (fun k => val_main_v72 (F := Ideal) x0 x1 x3 x4 x5 x6 x7 x12 x13 (ix2 r k)) x14 bo1
      = fun j => val_main_v77 (F := Ideal) x0 x1 x3 x4 x5 x6 x7 x12 x13 x14 x15 (ix2 r j) := by
    funext j
    rw [layer1_eq]; unfold Cert.KernelIdeal.ValL2.dense; rw [hbo1]
  have h2 : Cert.KernelIdeal.ValL2.dense (fun j => val_main_v77 (F := Ideal) x0 x1 x3 x4 x5 x6 x7 x12 x13 x14 x15 (ix2 r j)) x16 bo2
      = fun i => val_main_v82 (F := Ideal) x0 x1 x3 x4 x5 x6 x7 x12 x13 x14 x15 x16 x17 (ix2 r i) := by
    funext i
    rw [layer2_eq]; unfold Cert.KernelIdeal.ValL2.dense; rw [hbo2]
  rw [layer3_eq, hbo3]
  unfold Cert.KernelIdeal.ValL2.rowLogit Cert.KernelIdeal.ValL2.mlpRow
  rw [h0, h1, h2]

/-- The reference's result is the mean of the rows' logits plus bias. -/
theorem result2_eq (x0 x1 : (⟨S1000000, .f32⟩ : BufTy).Contents (Elt Ideal)) (x3 : (⟨S16000000, .f32⟩ : BufTy).Contents (Elt Ideal)) (x4 x5 : (⟨S16000000, .i32⟩ : BufTy).Contents (Elt Ideal)) (x6 : (⟨S2x10, .f32⟩ : BufTy).Contents (Elt Ideal)) (x7 : (⟨S10, .f32⟩ : BufTy).Contents (Elt Ideal)) (x12 : (⟨S10x10, .f32⟩ : BufTy).Contents (Elt Ideal)) (x13 : (⟨S10, .f32⟩ : BufTy).Contents (Elt Ideal)) (x14 : (⟨S10x10, .f32⟩ : BufTy).Contents (Elt Ideal)) (x15 : (⟨S10, .f32⟩ : BufTy).Contents (Elt Ideal)) (x16 : (⟨S10x10, .f32⟩ : BufTy).Contents (Elt Ideal)) (x17 : (⟨S10, .f32⟩ : BufTy).Contents (Elt Ideal)) (x18 : (⟨S10x1, .f32⟩ : BufTy).Contents (Elt Ideal)) (x19 : (⟨S1, .f32⟩ : BufTy).Contents (Elt Ideal))
    (agg : Vec Ideal Cert.KernelIdeal.S1000000x10 .f32) (nrm : Vec Ideal Cert.KernelIdeal.S1000000x1 .f32)
    (b2 bo1 bo2 : Vec Ideal Cert.KernelIdeal.S1x10 .f32) (bo3 : Vec Ideal Cert.KernelIdeal.S1x1 .f32)
    (hagg : (agg : S1000000x10.Idx → EReal) = val_main_v66 (F := Ideal) x0 x1 x3 x4 x5 x6 x7 x12 x13)
    (hnrm : (nrm : S1000000x1.Idx → EReal) = val_main_v11 (F := Ideal) x4)
    (hb2 : ∀ k : Fin 10, b2 (ix2 (0 : Fin 1) k) = x13 (ix1 k))
    (hbo1 : ∀ k : Fin 10, bo1 (ix2 (0 : Fin 1) k) = x15 (ix1 k))
    (hbo2 : ∀ k : Fin 10, bo2 (ix2 (0 : Fin 1) k) = x17 (ix1 k))
    (hbo3 : bo3 (ix2 (0 : Fin 1) (0 : Fin 1)) = x19 (ix1 (0 : Fin 1))) :
    (Cert.KernelIdeal.ValL2.E2 agg nrm b2 x14 bo1 x16 bo2 x18 bo3 : S1x1.Idx → EReal) = val_main_v90 (F := Ideal) x0 x1 x3 x4 x5 x6 x7 x12 x13 x14 x15 x16 x17 x18 x19 := by
  funext j
  have hsum : (∑ k : Fin 1000000, val_main_v86 (F := Ideal) x0 x1 x3 x4 x5 x6 x7 x12 x13 x14 x15 x16 x17 x18 x19 (idx_main_v87 (idx_main_v88 j) k))
      = ∑ r : Fin 1000000, (Cert.KernelIdeal.ValL2.rowLogit agg nrm b2 x14 bo1 x16 bo2 x18 r + bo3 (ix2 (0 : Fin 1) (0 : Fin 1))) :=
    Finset.sum_congr rfl fun r _ => by
      have e87 : idx_main_v87 (idx_main_v88 j) r = ix2 r (0 : Fin 1) := funext fun a => Fin.ext (by match a with | ⟨0, _⟩ => rfl | ⟨1, _⟩ => rfl)
      rw [e87]
      exact (row2_eq x0 x1 x3 x4 x5 x6 x7 x12 x13 x14 x15 x16 x17 x18 x19 agg nrm b2 bo1 bo2 bo3 hagg hnrm hb2 hbo1 hbo2 hbo3 r).symm
  rw [val_main_v90_apply, val_main_v88_apply, val_main_v87_apply, val_main_v89_apply, val_main_cst_12_apply, val_main_cst_11_apply,
    hsum, Ideal.hostDivf_def, Ideal.ofBits_def, Ideal.ofBits_def, Ideal.ofBits_zero_f32, zero_add]
  rfl

end Cert.KernelIdeal.RefH

end
-- ==== Proof.Val.HostMid.lean ====
/-
  The two stretches of host operations between the launches, at the extended reals.

  Each gathers rows of the table the launch before it wrote (at an index array, wrapped when negative), widens them,
  scales each by its edge weight and adds them into zeros at the rows a second index array names.  `MidA` and `MidB`
  are those computations as one term of the table and the three argument arrays; each stretch leaves its term in the
  aggregated array whatever the buffers hold when it starts, and the term is the reference program's stage of the
  same name as soon as the table agrees entry by entry with the reference's table (widening is the identity here, so
  the narrower element type of the kernel's table does not matter).
-/
import proofs.«116843_j64098091925532_2_alg».proof.Proof.Gen.KernelIdeal.Launch
import proofs.«116843_j64098091925532_2_alg».proof.Proof.Gen.ReferenceIdeal.Read
import Idealize.ShloMosaic.Lib.StableHlo.Run
import Idealize.ShloMosaic.PureOps.Ideal.Laws

noncomputable section

namespace Cert.KernelIdeal.HostH

open Idealize.ShloMosaic Idealize.ShloMosaic.TcCoe Idealize.SL.Sem
open Cert.KernelIdeal Cert.KernelIdeal.Gen

/-- What the stretch between the first and the second launch leaves in the aggregated array, as one term of the table
    the first launch wrote (`tab`), the edge weights `a`, and the two index arrays: the source index of every edge is
    wrapped when negative, the table's rows are gathered at it, widened, scaled by the edge's weight and added into
    zeros at the row the destination index names. -/
def MidA (tab : (⟨S1000000x10, .bf16⟩ : BufTy).Contents (Elt Ideal)) (a : (⟨S16000000, .f32⟩ : BufTy).Contents (Elt Ideal))
    (src dst : (⟨S16000000, .i32⟩ : BufTy).Contents (Elt Ideal)) : (⟨S500000x10, .f32⟩ : BufTy).Contents (Elt Ideal) :=
  Host.scatterAdd scatter_S500000x10_S16000000x1_S16000000x10_1_0_0_1
    (broadcastInDim S500000x10 ![] bcast_S_S500000x10 (constant (F := Ideal) S_ .f32 0x00000000#32))
    (broadcastInDim S16000000x1 ![0] bcast_S16000000_S16000000x1_0 dst)
    (mulf
      (extf .f32 (Host.gather gather_S1000000x10_S16000000x1_S16000000x10_1_0_n_n_0_1_110 tab
        (broadcastInDim S16000000x1 ![0] bcast_S16000000_S16000000x1_0
          (select (cmpi .slt src (broadcastInDim S16000000 ![] bcast_S_S16000000 (constantI S_ 32 0#32 : (⟨S_, .i32⟩ : BufTy).Contents (Elt Ideal))))
            (addi src (broadcastInDim S16000000 ![] bcast_S_S16000000 (constantI S_ 32 1000000#32 : (⟨S_, .i32⟩ : BufTy).Contents (Elt Ideal)))) src))) bitsLt_bf16_f32)
      (broadcastInDim S16000000x10 ![0, 1] bcast_S16000000x1_S16000000x10_0_1
        (broadcastInDim S16000000x1 ![0] bcast_S16000000_S16000000x1_0 a)))

set_option maxHeartbeats 1000000 in
/-- The stretch between the first and the second launch, read at the aggregated array. -/
theorem hostOps1_v37 (W : Valuation τ sig (Elt Ideal)) :
    StableHlo.after hostOps1 W (Proc.devRef .tc main_v37)
      = MidA (W (Proc.devRef .tc main_v23)) (W (Proc.devRef .tc main_arg3)) (W (Proc.devRef .tc main_arg4)) (W (Proc.devRef .tc main_arg5)) := by
  unfold MidA
  after_results

set_option maxHeartbeats 1000000 in
/-- When the table is, entry by entry, the reference's table of the same stage, the aggregated array is the
    reference's: the two programs run the same operations here, and widening the table's entries changes nothing at
    the extended reals. -/
theorem MidA_eq_ref (tab : (⟨S1000000x10, .bf16⟩ : BufTy).Contents (Elt Ideal)) (a : (⟨S16000000, .f32⟩ : BufTy).Contents (Elt Ideal))
    (src dst : (⟨S16000000, .i32⟩ : BufTy).Contents (Elt Ideal))
    (x0 x1 : (⟨S1000000, .f32⟩ : BufTy).Contents (Elt Ideal)) (x6 : (⟨S2x10, .f32⟩ : BufTy).Contents (Elt Ideal))
    (x7 : (⟨S10, .f32⟩ : BufTy).Contents (Elt Ideal)) (x12 : (⟨S10x10, .f32⟩ : BufTy).Contents (Elt Ideal))
    (hT : (tab : S1000000x10.Idx → EReal) = Cert.ReferenceIdeal.Read.val_main_v31 (F := Ideal) x0 x1 src x6 x7 x12) :
    (MidA tab a src dst : S500000x10.Idx → EReal) = Cert.ReferenceIdeal.Read.val_main_v44 (F := Ideal) x0 x1 a src dst x6 x7 x12 := by
  subst hT
  unfold MidA Cert.ReferenceIdeal.Read.val_main_v44 Cert.ReferenceIdeal.Read.val_main_v41 Cert.ReferenceIdeal.Read.val_main_v38
    Cert.ReferenceIdeal.Read.val_main_v40 Cert.ReferenceIdeal.Read.val_main_v39 Cert.ReferenceIdeal.Read.val_main_v37
    Cert.ReferenceIdeal.Read.val_main_v36 Cert.ReferenceIdeal.Read.val_main_v35 Cert.ReferenceIdeal.Read.val_main_v34
    Cert.ReferenceIdeal.Read.val_main_v33 Cert.ReferenceIdeal.Read.val_main_v32 Cert.ReferenceIdeal.Read.val_main_v42
    Cert.ReferenceIdeal.Read.val_main_v43 Cert.ReferenceIdeal.Read.val_main_c Cert.ReferenceIdeal.Read.val_main_c_6
    Cert.ReferenceIdeal.Read.val_main_cst_7
  rfl

/-- What the stretch between the second and the third launch leaves in the aggregated array, as one term of the table
    the second launch wrote (`tab`), the edge weights `a`, and the two index arrays, their roles exchanged: the
    rows are gathered at `src` (wrapped when negative) and added into zeros at the row `dst` names. -/
def MidB (tab : (⟨S500000x10, .bf16⟩ : BufTy).Contents (Elt Ideal)) (a : (⟨S16000000, .f32⟩ : BufTy).Contents (Elt Ideal))
    (src dst : (⟨S16000000, .i32⟩ : BufTy).Contents (Elt Ideal)) : (⟨S1000000x10, .f32⟩ : BufTy).Contents (Elt Ideal) :=
  Host.scatterAdd scatter_S1000000x10_S16000000x1_S16000000x10_1_0_0_1
    (broadcastInDim S1000000x10 ![] bcast_S_S1000000x10 (constant (F := Ideal) S_ .f32 0x00000000#32))
    (broadcastInDim S16000000x1 ![0] bcast_S16000000_S16000000x1_0 dst)
    (mulf
      (extf .f32 (Host.gather gather_S500000x10_S16000000x1_S16000000x10_1_0_n_n_0_1_110 tab
        (broadcastInDim S16000000x1 ![0] bcast_S16000000_S16000000x1_0
          (select (cmpi .slt src (broadcastInDim S16000000 ![] bcast_S_S16000000 (constantI S_ 32 0#32 : (⟨S_, .i32⟩ : BufTy).Contents (Elt Ideal))))
            (addi src (broadcastInDim S16000000 ![] bcast_S_S16000000 (constantI S_ 32 500000#32 : (⟨S_, .i32⟩ : BufTy).Contents (Elt Ideal)))) src))) bitsLt_bf16_f32)
      (broadcastInDim S16000000x10 ![0, 1] bcast_S16000000x1_S16000000x10_0_1
        (broadcastInDim S16000000x1 ![0] bcast_S16000000_S16000000x1_0 a)))

set_option maxHeartbeats 1000000 in
/-- The stretch between the second and the third launch, read at the aggregated array. -/
theorem hostOps2_v52 (W : Valuation τ sig (Elt Ideal)) :
    StableHlo.after hostOps2 W (Proc.devRef .tc main_v52)
      = MidB (W (Proc.devRef .tc main_v38)) (W (Proc.devRef .tc main_arg3)) (W (Proc.devRef .tc main_arg5)) (W (Proc.devRef .tc main_arg4)) := by
  unfold MidB
  after_results

set_option maxHeartbeats 1000000 in
/-- When the table is, entry by entry, the reference's table of the same stage, the aggregated array is the
    reference's. -/
theorem MidB_eq_ref (tab : (⟨S500000x10, .bf16⟩ : BufTy).Contents (Elt Ideal)) (a : (⟨S16000000, .f32⟩ : BufTy).Contents (Elt Ideal))
    (src dst : (⟨S16000000, .i32⟩ : BufTy).Contents (Elt Ideal))
    (x0 x1 : (⟨S1000000, .f32⟩ : BufTy).Contents (Elt Ideal)) (x6 : (⟨S2x10, .f32⟩ : BufTy).Contents (Elt Ideal))
    (x7 : (⟨S10, .f32⟩ : BufTy).Contents (Elt Ideal)) (x12 : (⟨S10x10, .f32⟩ : BufTy).Contents (Elt Ideal)) (x13 : (⟨S10, .f32⟩ : BufTy).Contents (Elt Ideal))
    (hT : (tab : S500000x10.Idx → EReal) = Cert.ReferenceIdeal.Read.val_main_v53 (F := Ideal) x0 x1 a dst src x6 x7 x12 x13) :
    (MidB tab a src dst : S1000000x10.Idx → EReal) = Cert.ReferenceIdeal.Read.val_main_v66 (F := Ideal) x0 x1 a dst src x6 x7 x12 x13 := by
  subst hT
  unfold MidB Cert.ReferenceIdeal.Read.val_main_v66 Cert.ReferenceIdeal.Read.val_main_v63 Cert.ReferenceIdeal.Read.val_main_v60
    Cert.ReferenceIdeal.Read.val_main_v62 Cert.ReferenceIdeal.Read.val_main_v61 Cert.ReferenceIdeal.Read.val_main_v59
    Cert.ReferenceIdeal.Read.val_main_v58 Cert.ReferenceIdeal.Read.val_main_v57 Cert.ReferenceIdeal.Read.val_main_v56
    Cert.ReferenceIdeal.Read.val_main_v55 Cert.ReferenceIdeal.Read.val_main_v54 Cert.ReferenceIdeal.Read.val_main_v64
    Cert.ReferenceIdeal.Read.val_main_v65 Cert.ReferenceIdeal.Read.val_main_c_8 Cert.ReferenceIdeal.Read.val_main_c_9
    Cert.ReferenceIdeal.Read.val_main_cst_10
  rfl

end Cert.KernelIdeal.HostH

end
-- ==== Proof.Val.HostDeg.lean ====
/-
  The host operations before the first launch, at the extended reals: the two degree columns.

  The program counts, for every node of either kind, the edges that name it (ones added into zeros at the edge's
  index), clips the count below at one and raises it to the power -1/2.  `Vpre W` is what the buffers hold once all
  the operations before the first launch have run from contents `W`; the two degree columns it holds are the
  reference program's stages of the same name, as functions of the two index arrays `W` holds.
-/
import proofs.«116843_j64098091925532_2_alg».proof.Proof.Gen.KernelIdeal.Launch
import proofs.«116843_j64098091925532_2_alg».proof.Proof.Gen.KernelIdeal.Regions
import proofs.«116843_j64098091925532_2_alg».proof.Proof.Gen.ReferenceIdeal.Read
import Idealize.ShloMosaic.Lib.StableHlo.Run
import Idealize.ShloMosaic.PureOps.Ideal.Laws

noncomputable section

namespace Cert.KernelIdeal.HostH

open Idealize.ShloMosaic Idealize.ShloMosaic.TcCoe Idealize.SL.Sem
open Cert.KernelIdeal Cert.KernelIdeal.Gen

/-- The buffers' contents once every host operation before the first launch has run, from contents `W`. -/
abbrev Vpre (W : Valuation τ sig (Elt Ideal)) : Valuation τ sig (Elt Ideal) :=
  StableHlo.after hostOps0_4 (StableHlo.after hostOps0_3 (StableHlo.after hostOps0_2 (StableHlo.after hostOps0_1
    (StableHlo.after hostOps0 W))))

/-! ## Each stretch over any contents it starts from -/

section Steps
variable (X : Valuation τ sig (Elt Ideal))

/-- The first stretch leaves the edge count of the first kind of node, -/
theorem s0_v3 : StableHlo.after hostOps0 X (Proc.devRef .tc main_v3)
    = Host.scatterAdd scatter_S1000000_S16000000x1_S16000000_n_0_0_1
        (broadcastInDim S1000000 ![] bcast_S_S1000000 (constant (F := Ideal) S_ .f32 0x00000000#32))
        (broadcastInDim S16000000x1 ![0] bcast_S16000000_S16000000x1_0 (X (Proc.devRef .tc main_arg4)))
        (broadcastInDim S16000000 ![] bcast_S_S16000000 (constant (F := Ideal) S_ .f32 0x3F800000#32)) := by
  after_results
/-- the column of ones, -/
theorem s0_v0 : StableHlo.after hostOps0 X (Proc.devRef .tc main_v0)
    = broadcastInDim S16000000 ![] bcast_S_S16000000 (constant (F := Ideal) S_ .f32 0x3F800000#32) := by
  after_results
/-- the lower bound of the first clip, -/
theorem s0_cst1 : StableHlo.after hostOps0 X (Proc.devRef .tc main_cst_1) = constant (F := Ideal) S_ .f32 0x3F800000#32 := by
  after_results
/-- and the second index array as it was. -/
theorem s0_arg5 : StableHlo.after hostOps0 X (Proc.devRef .tc main_arg5) = X (Proc.devRef .tc main_arg5) :=
  StableHlo.after_of_writes_sub hostOps0 X hostOps0_writes (by decide)

/-- The first clip: the count, bounded below. -/
theorem s1_v4 : StableHlo.after hostOps0_1 X (Proc.devRef .tc main_v4)
    = maximumf (F := Ideal) (φ := .f32) (broadcastInDim S1000000 ![] bcast_S_S1000000 (id (X (Proc.devRef .tc main_cst_1)) : (⟨S_, .f32⟩ : BufTy).Contents (Elt Ideal)))
        (X (Proc.devRef .tc main_v3) : (⟨S1000000, .f32⟩ : BufTy).Contents (Elt Ideal)) := by
  after_results
  first | rfl | (simp only [StableHlo.TRef.toBuf, StableHlo.TRef.ofBuf, cast_eq, id]; first | rfl | fail "s1_v4 rfl after casts") | fail "s1_v4"
theorem s1_v0 : StableHlo.after hostOps0_1 X (Proc.devRef .tc main_v0) = X (Proc.devRef .tc main_v0) :=
  StableHlo.after_of_writes_sub hostOps0_1 X hostOps0_1_writes (by decide)
theorem s1_arg5 : StableHlo.after hostOps0_1 X (Proc.devRef .tc main_arg5) = X (Proc.devRef .tc main_arg5) :=
  StableHlo.after_of_writes_sub hostOps0_1 X hostOps0_1_writes (by decide)

/-- The third stretch leaves the edge count of the second kind of node, -/
theorem s2_v7 : StableHlo.after hostOps0_2 X (Proc.devRef .tc main_v7)
    = Host.scatterAdd scatter_S500000_S16000000x1_S16000000_n_0_0_1
        (broadcastInDim S500000 ![] bcast_S_S500000 (constant (F := Ideal) S_ .f32 0x00000000#32))
        (broadcastInDim S16000000x1 ![0] bcast_S16000000_S16000000x1_0 (X (Proc.devRef .tc main_arg5)))
        (X (Proc.devRef .tc main_v0)) := by
  after_results
/-- the lower bound of the second clip, -/
theorem s2_cst3 : StableHlo.after hostOps0_2 X (Proc.devRef .tc main_cst_3) = constant (F := Ideal) S_ .f32 0x3F800000#32 := by
  after_results
/-- and the first clipped count as it was. -/
theorem s2_v4 : StableHlo.after hostOps0_2 X (Proc.devRef .tc main_v4) = X (Proc.devRef .tc main_v4) :=
  StableHlo.after_of_writes_sub hostOps0_2 X hostOps0_2_writes (by decide)

/-- The second clip. -/
theorem s3_v8 : StableHlo.after hostOps0_3 X (Proc.devRef .tc main_v8)
    = maximumf (F := Ideal) (φ := .f32) (broadcastInDim S500000 ![] bcast_S_S500000 (id (X (Proc.devRef .tc main_cst_3)) : (⟨S_, .f32⟩ : BufTy).Contents (Elt Ideal)))
        (X (Proc.devRef .tc main_v7) : (⟨S500000, .f32⟩ : BufTy).Contents (Elt Ideal)) := by
  after_results
  first | rfl | (simp only [StableHlo.TRef.toBuf, StableHlo.TRef.ofBuf, cast_eq, id]; first | rfl | fail "s3_v8 rfl after casts") | fail "s3_v8"
theorem s3_v4 : StableHlo.after hostOps0_3 X (Proc.devRef .tc main_v4) = X (Proc.devRef .tc main_v4) :=
  StableHlo.after_of_writes_sub hostOps0_3 X hostOps0_3_writes (by decide)

/-- The last stretch raises each clipped count, as a column, to the power -1/2. -/
theorem s4_v11 : StableHlo.after hostOps0_4 X (Proc.devRef .tc main_v11)
    = Host.powf (broadcastInDim S1000000x1 ![0] bcast_S1000000_S1000000x1_0 (X (Proc.devRef .tc main_v4)))
        (broadcastInDim S1000000x1 ![] bcast_S_S1000000x1 (constant (F := Ideal) S_ .f32 0xBF000000#32)) := by
  after_results
theorem s4_v14 : StableHlo.after hostOps0_4 X (Proc.devRef .tc main_v14)
    = Host.powf (broadcastInDim S500000x1 ![0] bcast_S500000_S500000x1_0 (X (Proc.devRef .tc main_v8)))
        (broadcastInDim S500000x1 ![] bcast_S_S500000x1 (constant (F := Ideal) S_ .f32 0xBF000000#32)) := by
  after_results

end Steps

/-! ## The two degree columns -/

/-- The degree column of the first kind of node is the reference's stage: the same operations, in the same order, on
    the first index array. -/
theorem pre_v11 (W : Valuation τ sig (Elt Ideal)) :
    (Vpre W (Proc.devRef .tc main_v11) : S1000000x1.Idx → EReal)
      = Cert.ReferenceIdeal.Read.val_main_v11 (F := Ideal) (W (Proc.devRef .tc main_arg4)) := by
  dsimp only [Vpre]
  rw [s4_v11, s3_v4, s2_v4, s1_v4, s0_v3, s0_cst1]
  unfold Cert.ReferenceIdeal.Read.val_main_v11 Cert.ReferenceIdeal.Read.val_main_v10 Cert.ReferenceIdeal.Read.val_main_cst_4 Cert.ReferenceIdeal.Read.val_main_v9 Cert.ReferenceIdeal.Read.val_main_v4
    Cert.ReferenceIdeal.Read.val_main_call0_v1 Cert.ReferenceIdeal.Read.val_main_call0_v0 Cert.ReferenceIdeal.Read.val_main_cst_1 Cert.ReferenceIdeal.Read.val_main_v3 Cert.ReferenceIdeal.Read.val_main_v2
    Cert.ReferenceIdeal.Read.val_main_v1 Cert.ReferenceIdeal.Read.val_main_cst_0 Cert.ReferenceIdeal.Read.val_main_v0 Cert.ReferenceIdeal.Read.val_main_cst
  rfl

/-- The degree column of the second kind of node is the reference's stage, on the second index array. -/
theorem pre_v14 (W : Valuation τ sig (Elt Ideal)) :
    (Vpre W (Proc.devRef .tc main_v14) : S500000x1.Idx → EReal)
      = Cert.ReferenceIdeal.Read.val_main_v14 (F := Ideal) (W (Proc.devRef .tc main_arg5)) := by
  dsimp only [Vpre]
  rw [s4_v14, s3_v8, s2_v7, s2_cst3, s1_v0, s1_arg5, s0_v0, s0_arg5]
  unfold Cert.ReferenceIdeal.Read.val_main_v14 Cert.ReferenceIdeal.Read.val_main_v13 Cert.ReferenceIdeal.Read.val_main_cst_5 Cert.ReferenceIdeal.Read.val_main_v12 Cert.ReferenceIdeal.Read.val_main_v8
    Cert.ReferenceIdeal.Read.val_main_call1_v1 Cert.ReferenceIdeal.Read.val_main_call1_v0 Cert.ReferenceIdeal.Read.val_main_cst_3 Cert.ReferenceIdeal.Read.val_main_v7 Cert.ReferenceIdeal.Read.val_main_v6
    Cert.ReferenceIdeal.Read.val_main_v5 Cert.ReferenceIdeal.Read.val_main_cst_2 Cert.ReferenceIdeal.Read.val_main_v0 Cert.ReferenceIdeal.Read.val_main_cst
  rfl

end Cert.KernelIdeal.HostH

end
-- ==== Proof.LibRowBias.lean ====
/-
  A vector laid out as a one-row table.

  Reshaping a vector of length n to the table [1, n] moves no element: the table's one row is the vector.  So the
  table read at row 0, column k is the vector's entry k.  This is how a bias vector reaches a kernel that takes its
  bias as a [1, n] row.
-/
import Idealize.ShloMosaic.Lib.ValueIdx
import Idealize.ShloMosaic.Lib.ValueLayout

namespace Cert.LibRowBias

open Idealize.ShloMosaic Idealize.ShloMosaic.ValueIdx

/-- A length-n vector laid out as a one-row table reads, at the row's one coordinate u and column k, the vector's
    entry k. -/
theorem row_of_vec_apply_at {n : ℕ} {α : Type} (b : (⟨1, ![n]⟩ : Shape).Idx → α)
    (h : (⟨1, ![n]⟩ : Shape).ShapeCasts ⟨2, ![1, n]⟩) (u : Fin 1) (k : Fin n) :
    shapeCast (⟨2, ![1, n]⟩ : Shape) b h (ix2 u k) = b (ix1 k) :=
  shapeCast_a_1a_apply b h u k

/-- A length-n vector laid out as a one-row table reads, at row 0 and column k, the vector's entry k. -/
theorem row_of_vec_apply {n : ℕ} {α : Type} (b : (⟨1, ![n]⟩ : Shape).Idx → α)
    (h : (⟨1, ![n]⟩ : Shape).ShapeCasts ⟨2, ![1, n]⟩) (k : Fin n) :
    shapeCast (⟨2, ![1, n]⟩ : Shape) b h (ix2 (0 : Fin 1) k) = b (ix1 k) :=
  row_of_vec_apply_at b h 0 k

end Cert.LibRowBias
-- ==== Proof.Val.HostPre.lean ====
/-
  The host operations the kernel program runs before its first launch, read where the launches need them.

  The last of the five stretches packs the node features: two argument vectors and the inverse square root of the
  clipped degrees, each laid out as a one-column table, are joined side by side into a three-column table; and it
  lays each bias vector out as a one-row table. Joining one-column tables side by side puts table number k in
  column k, a vector laid out as one column keeps its entries in order, and so does a vector laid out as one row.
  None of the five stretches writes an argument array, so every argument is afterwards what it was.
-/
import proofs.«116843_j64098091925532_2_alg».proof.Proof.Gen.KernelIdeal.Launch
import proofs.«116843_j64098091925532_2_alg».proof.Proof.Gen.KernelIdeal.Regions
import proofs.«116843_j64098091925532_2_alg».proof.Proof.Val.HostDeg
import proofs.«116843_j64098091925532_2_alg».proof.Proof.LibRowBias
import Idealize.ShloMosaic.Lib.StableHlo.Run
import Idealize.ShloMosaic.Lib.ValueIdx
import Idealize.ShloMosaic.Lib.ValueLayout
import Idealize.ShloMosaic.Lib.Pipeline.Value
import Idealize.ShloMosaic.Lib.Pipeline.Frame

noncomputable section

namespace Cert.KernelIdeal.HostH

open Idealize.ShloMosaic Idealize.ShloMosaic.TcCoe Idealize.SL.Sem Idealize.ShloMosaic.ValueIdx
open Cert.KernelIdeal Cert.KernelIdeal.Gen

/-! ## Three layouts read at an index, over any arrays -/

/-- A vector laid out as a one-column table reads, at row `p`, the vector's entry `p`. -/
theorem col_of_vec_apply {n : ℕ} {α : Type} (x : (⟨1, ![n]⟩ : Shape).Idx → α)
    (h : (⟨1, ![n]⟩ : Shape).BroadcastsInDim ⟨2, ![n, 1]⟩ (![0] : Fin 1 → Fin 2)) (p : Fin n) :
    broadcastInDim (⟨2, ![n, 1]⟩ : Shape) ![0] h x (ix2 p (0 : Fin 1)) = x (ix1 p) := by
  refine broadcastInDim_apply _ h x _ (ix1 p) fun a => ?_
  match a with
  | ⟨0, _⟩ =>
    show p.val = if n = 1 then 0 else p.val
    split
    · have := p.isLt; omega
    · rfl

/-- Three one-column tables joined side by side: column 0 is table number 0. -/
theorem join3_col0_apply {n : ℕ} {α : Type} (u0 u1 u2 : (⟨2, ![n, 1]⟩ : Shape).Idx → α)
    (h : Shape.Concatenates [(⟨2, ![n, 1]⟩ : Shape), ⟨2, ![n, 1]⟩, ⟨2, ![n, 1]⟩] ⟨2, ![n, 3]⟩ (1 : Fin 2)) (p : Fin n) :
    concatenate (⟨2, ![n, 3]⟩ : Shape) (1 : Fin 2) [⟨⟨2, ![n, 1]⟩, u0⟩, ⟨⟨2, ![n, 1]⟩, u1⟩, ⟨⟨2, ![n, 1]⟩, u2⟩] h (ix2 p (0 : Fin 3))
      = u0 (ix2 p (0 : Fin 1)) :=
  concatenate_apply_piece (t := (⟨2, ![n, 3]⟩ : Shape)) (1 : Fin 2) [⟨⟨2, ![n, 1]⟩, u0⟩, ⟨⟨2, ![n, 1]⟩, u1⟩, ⟨⟨2, ![n, 1]⟩, u2⟩] h (ix2 p (0 : Fin 3)) 0 (by show 0 < 3; omega) ⟨2, ![n, 1]⟩ u0 rfl rfl 0 rfl (ix2 p (0 : Fin 1))
    (fun b => match b with
      | ⟨0, _⟩ => fun _ => rfl
      | ⟨1, _⟩ => fun hb => absurd rfl hb) rfl

/-- Three one-column tables joined side by side: column 1 is table number 1. -/
theorem join3_col1_apply {n : ℕ} {α : Type} (u0 u1 u2 : (⟨2, ![n, 1]⟩ : Shape).Idx → α)
    (h : Shape.Concatenates [(⟨2, ![n, 1]⟩ : Shape), ⟨2, ![n, 1]⟩, ⟨2, ![n, 1]⟩] ⟨2, ![n, 3]⟩ (1 : Fin 2)) (p : Fin n) :
    concatenate (⟨2, ![n, 3]⟩ : Shape) (1 : Fin 2) [⟨⟨2, ![n, 1]⟩, u0⟩, ⟨⟨2, ![n, 1]⟩, u1⟩, ⟨⟨2, ![n, 1]⟩, u2⟩] h (ix2 p (1 : Fin 3))
      = u1 (ix2 p (0 : Fin 1)) :=
  concatenate_apply_piece (t := (⟨2, ![n, 3]⟩ : Shape)) (1 : Fin 2) [⟨⟨2, ![n, 1]⟩, u0⟩, ⟨⟨2, ![n, 1]⟩, u1⟩, ⟨⟨2, ![n, 1]⟩, u2⟩] h (ix2 p (1 : Fin 3)) 1 (by show 1 < 3; omega) ⟨2, ![n, 1]⟩ u1 rfl rfl 1 rfl (ix2 p (0 : Fin 1))
    (fun b => match b with
      | ⟨0, _⟩ => fun _ => rfl
      | ⟨1, _⟩ => fun hb => absurd rfl hb) rfl

/-- Three one-column tables joined side by side: column 2 is table number 2. -/
theorem join3_col2_apply {n : ℕ} {α : Type} (u0 u1 u2 : (⟨2, ![n, 1]⟩ : Shape).Idx → α)
    (h : Shape.Concatenates [(⟨2, ![n, 1]⟩ : Shape), ⟨2, ![n, 1]⟩, ⟨2, ![n, 1]⟩] ⟨2, ![n, 3]⟩ (1 : Fin 2)) (p : Fin n) :
    concatenate (⟨2, ![n, 3]⟩ : Shape) (1 : Fin 2) [⟨⟨2, ![n, 1]⟩, u0⟩, ⟨⟨2, ![n, 1]⟩, u1⟩, ⟨⟨2, ![n, 1]⟩, u2⟩] h (ix2 p (2 : Fin 3))
      = u2 (ix2 p (0 : Fin 1)) :=
  concatenate_apply_piece (t := (⟨2, ![n, 3]⟩ : Shape)) (1 : Fin 2) [⟨⟨2, ![n, 1]⟩, u0⟩, ⟨⟨2, ![n, 1]⟩, u1⟩, ⟨⟨2, ![n, 1]⟩, u2⟩] h (ix2 p (2 : Fin 3)) 2 (by show 2 < 3; omega) ⟨2, ![n, 1]⟩ u2 rfl rfl 2 rfl (ix2 p (0 : Fin 1))
    (fun b => match b with
      | ⟨0, _⟩ => fun _ => rfl
      | ⟨1, _⟩ => fun hb => absurd rfl hb) rfl

/-! ## The last stretch, cut before the join -/

/-- Its first ten operations: the two degree vectors' inverse square roots and the two argument vectors as columns. -/
abbrev hostOps0_4a : List (HloOp τ sig (Elt Ideal)) :=
  [
    StableHlo.unary main_v4 main_v9 (broadcastInDim S1000000x1 ![0] bcast_S1000000_S1000000x1_0 : (⟨S1000000, .f32⟩ : BufTy).Contents (Elt Ideal) → (⟨S1000000x1, .f32⟩ : BufTy).Contents (Elt Ideal)),
    StableHlo.nullary main_cst_4 (constant (F := Ideal) S_ .f32 0xBF000000#32),
    StableHlo.unary main_cst_4 main_v10 (broadcastInDim S1000000x1 ![] bcast_S_S1000000x1 : (⟨S_, .f32⟩ : BufTy).Contents (Elt Ideal) → (⟨S1000000x1, .f32⟩ : BufTy).Contents (Elt Ideal)),
    StableHlo.binary main_v9 main_v10 main_v11 (Host.powf (F := Ideal) (φ := .f32) : (⟨S1000000x1, .f32⟩ : BufTy).Contents (Elt Ideal) → (⟨S1000000x1, .f32⟩ : BufTy).Contents (Elt Ideal) → (⟨S1000000x1, .f32⟩ : BufTy).Contents (Elt Ideal)),
    StableHlo.unary main_v8 main_v12 (broadcastInDim S500000x1 ![0] bcast_S500000_S500000x1_0 : (⟨S500000, .f32⟩ : BufTy).Contents (Elt Ideal) → (⟨S500000x1, .f32⟩ : BufTy).Contents (Elt Ideal)),
    StableHlo.nullary main_cst_5 (constant (F := Ideal) S_ .f32 0xBF000000#32),
    StableHlo.unary main_cst_5 main_v13 (broadcastInDim S500000x1 ![] bcast_S_S500000x1 : (⟨S_, .f32⟩ : BufTy).Contents (Elt Ideal) → (⟨S500000x1, .f32⟩ : BufTy).Contents (Elt Ideal)),
    StableHlo.binary main_v12 main_v13 main_v14 (Host.powf (F := Ideal) (φ := .f32) : (⟨S500000x1, .f32⟩ : BufTy).Contents (Elt Ideal) → (⟨S500000x1, .f32⟩ : BufTy).Contents (Elt Ideal) → (⟨S500000x1, .f32⟩ : BufTy).Contents (Elt Ideal)),
    StableHlo.unary main_arg0 main_v15 (broadcastInDim S1000000x1 ![0] bcast_S1000000_S1000000x1_0 : (⟨S1000000, .f32⟩ : BufTy).Contents (Elt Ideal) → (⟨S1000000x1, .f32⟩ : BufTy).Contents (Elt Ideal)),
    StableHlo.unary main_arg1 main_v16 (broadcastInDim S1000000x1 ![0] bcast_S1000000_S1000000x1_0 : (⟨S1000000, .f32⟩ : BufTy).Contents (Elt Ideal) → (⟨S1000000x1, .f32⟩ : BufTy).Contents (Elt Ideal)) ]

/-- Its last six: the join and the five bias rows. -/
abbrev hostOps0_4b : List (HloOp τ sig (Elt Ideal)) :=
  [
    StableHlo.nary ![main_v15, main_v16, main_v11] main_v17 (fun u => concatenate S1000000x3 1 [⟨S1000000x1, u 0⟩, ⟨S1000000x1, u 1⟩, ⟨S1000000x1, u 2⟩] concatenates_S1000000x1_S1000000x1_S1000000x1_S1000000x3_d1),
    StableHlo.reshape main_arg7 main_v18 rfl shapeCasts_S10_S1x10,
    StableHlo.reshape main_arg13 main_v19 rfl shapeCasts_S10_S1x10,
    StableHlo.reshape main_arg15 main_v20 rfl shapeCasts_S10_S1x10,
    StableHlo.reshape main_arg17 main_v21 rfl shapeCasts_S10_S1x10,
    StableHlo.reshape main_arg19 main_v22 rfl shapeCasts_S1_S1x1 ]

theorem hostOps0_4_cut : (hostOps0_4 : List (HloOp τ sig (Elt Ideal))) = hostOps0_4a ++ hostOps0_4b := rfl

set_option maxHeartbeats 1000000 in
theorem cut_v17 (WA : Valuation τ sig (Elt Ideal)) :
    StableHlo.after hostOps0_4b WA (Proc.devRef .tc main_v17)
      = concatenate S1000000x3 1 [⟨S1000000x1, WA (Proc.devRef .tc main_v15)⟩, ⟨S1000000x1, WA (Proc.devRef .tc main_v16)⟩, ⟨S1000000x1, WA (Proc.devRef .tc main_v11)⟩] concatenates_S1000000x1_S1000000x1_S1000000x1_S1000000x3_d1 := by
  after_results
  rfl

set_option maxHeartbeats 1000000 in
theorem cut_v11 (WA : Valuation τ sig (Elt Ideal)) :
    StableHlo.after hostOps0_4b WA (Proc.devRef .tc main_v11) = WA (Proc.devRef .tc main_v11) := by
  after_results

set_option maxHeartbeats 1000000 in
theorem cut_v15 (W4 : Valuation τ sig (Elt Ideal)) :
    StableHlo.after hostOps0_4a W4 (Proc.devRef .tc main_v15) = broadcastInDim S1000000x1 ![0] bcast_S1000000_S1000000x1_0 (W4 (Proc.devRef .tc main_arg0)) := by
  after_results

set_option maxHeartbeats 1000000 in
theorem cut_v16 (W4 : Valuation τ sig (Elt Ideal)) :
    StableHlo.after hostOps0_4a W4 (Proc.devRef .tc main_v16) = broadcastInDim S1000000x1 ![0] bcast_S1000000_S1000000x1_0 (W4 (Proc.devRef .tc main_arg1)) := by
  after_results

set_option maxHeartbeats 1000000 in
theorem last_v18 (W4 : Valuation τ sig (Elt Ideal)) :
    StableHlo.after hostOps0_4 W4 (Proc.devRef .tc main_v18) = shapeCast S1x10 (W4 (Proc.devRef .tc main_arg7)) shapeCasts_S10_S1x10 := by
  after_results
  try rfl

set_option maxHeartbeats 1000000 in
theorem last_v19 (W4 : Valuation τ sig (Elt Ideal)) :
    StableHlo.after hostOps0_4 W4 (Proc.devRef .tc main_v19) = shapeCast S1x10 (W4 (Proc.devRef .tc main_arg13)) shapeCasts_S10_S1x10 := by
  after_results
  try rfl

set_option maxHeartbeats 1000000 in
theorem last_v20 (W4 : Valuation τ sig (Elt Ideal)) :
    StableHlo.after hostOps0_4 W4 (Proc.devRef .tc main_v20) = shapeCast S1x10 (W4 (Proc.devRef .tc main_arg15)) shapeCasts_S10_S1x10 := by
  after_results
  try rfl

set_option maxHeartbeats 1000000 in
theorem last_v21 (W4 : Valuation τ sig (Elt Ideal)) :
    StableHlo.after hostOps0_4 W4 (Proc.devRef .tc main_v21) = shapeCast S1x10 (W4 (Proc.devRef .tc main_arg17)) shapeCasts_S10_S1x10 := by
  after_results
  try rfl

set_option maxHeartbeats 1000000 in
theorem last_v22 (W4 : Valuation τ sig (Elt Ideal)) :
    StableHlo.after hostOps0_4 W4 (Proc.devRef .tc main_v22) = shapeCast S1x1 (W4 (Proc.devRef .tc main_arg19)) shapeCasts_S1_S1x1 := by
  after_results
  try rfl

/-! ## Nothing before the first launch writes an argument -/

/-- A buffer none of the five stretches writes is afterwards what it was. -/
theorem pre_of (W : Valuation τ sig (Elt Ideal)) (r : Ref sig .tc) (h0 : r ∉ hostOps0_W) (h1 : r ∉ hostOps0_1_W)
    (h2 : r ∉ hostOps0_2_W) (h3 : r ∉ hostOps0_3_W) (h4 : r ∉ hostOps0_4_W) :
    Vpre W (Proc.devRef .tc r) = W (Proc.devRef .tc r) :=
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  StableHlo.after_of_writes_sub hostOps0 _ hostOps0_writes h0

/-- The same for the buffers of the first four stretches alone. -/
theorem pre4_of (W : Valuation τ sig (Elt Ideal)) (r : Ref sig .tc) (h0 : r ∉ hostOps0_W) (h1 : r ∉ hostOps0_1_W)
    (h2 : r ∉ hostOps0_2_W) (h3 : r ∉ hostOps0_3_W) :
    StableHlo.after hostOps0_3 (StableHlo.after hostOps0_2 (StableHlo.after hostOps0_1 (StableHlo.after hostOps0 W))) (Proc.devRef .tc r) = W (Proc.devRef .tc r) :=
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  StableHlo.after_of_writes_sub hostOps0 _ hostOps0_writes h0

theorem pre_arg6 (W : Valuation τ sig (Elt Ideal)) : Vpre W (Proc.devRef .tc main_arg6) = W (Proc.devRef .tc main_arg6) :=
  pre_of W main_arg6 (by decide) (by decide) (by decide) (by decide) (by decide)

theorem pre_arg12 (W : Valuation τ sig (Elt Ideal)) : Vpre W (Proc.devRef .tc main_arg12) = W (Proc.devRef .tc main_arg12) :=
  pre_of W main_arg12 (by decide) (by decide) (by decide) (by decide) (by decide)

theorem pre_arg14 (W : Valuation τ sig (Elt Ideal)) : Vpre W (Proc.devRef .tc main_arg14) = W (Proc.devRef .tc main_arg14) :=
  pre_of W main_arg14 (by decide) (by decide) (by decide) (by decide) (by decide)

theorem pre_arg16 (W : Valuation τ sig (Elt Ideal)) : Vpre W (Proc.devRef .tc main_arg16) = W (Proc.devRef .tc main_arg16) :=
  pre_of W main_arg16 (by decide) (by decide) (by decide) (by decide) (by decide)

theorem pre_arg18 (W : Valuation τ sig (Elt Ideal)) : Vpre W (Proc.devRef .tc main_arg18) = W (Proc.devRef .tc main_arg18) :=
  pre_of W main_arg18 (by decide) (by decide) (by decide) (by decide) (by decide)

/-! ## The packed features, column by column -/

/-- Column 0 of the packed features is the argument vector `main_arg0`. -/
theorem pre_v17_col0 (W : Valuation τ sig (Elt Ideal)) (p : Fin 1000000) :
    (Vpre W (Proc.devRef .tc main_v17) : S1000000x3.Idx → EReal) (ix2 p (0 : Fin 3)) = (W (Proc.devRef .tc main_arg0) : S1000000.Idx → EReal) (ix1 p) := by
  show StableHlo.after hostOps0_4 (StableHlo.after hostOps0_3 (StableHlo.after hostOps0_2 (StableHlo.after hostOps0_1 (StableHlo.after hostOps0 W)))) (Proc.devRef .tc main_v17) (ix2 p (0 : Fin 3)) = _
  rw [hostOps0_4_cut, StableHlo.after_append, cut_v17]
  refine (join3_col0_apply _ _ _ _ p).trans ?_
  rw [cut_v15]
  refine (col_of_vec_apply _ _ p).trans ?_
  rw [pre4_of W main_arg0 (by decide) (by decide) (by decide) (by decide)]

/-- Column 1 of the packed features is the argument vector `main_arg1`. -/
theorem pre_v17_col1 (W : Valuation τ sig (Elt Ideal)) (p : Fin 1000000) :
    (Vpre W (Proc.devRef .tc main_v17) : S1000000x3.Idx → EReal) (ix2 p (1 : Fin 3)) = (W (Proc.devRef .tc main_arg1) : S1000000.Idx → EReal) (ix1 p) := by
  show StableHlo.after hostOps0_4 (StableHlo.after hostOps0_3 (StableHlo.after hostOps0_2 (StableHlo.after hostOps0_1 (StableHlo.after hostOps0 W)))) (Proc.devRef .tc main_v17) (ix2 p (1 : Fin 3)) = _
  rw [hostOps0_4_cut, StableHlo.after_append, cut_v17]
  refine (join3_col1_apply _ _ _ _ p).trans ?_
  rw [cut_v16]
  refine (col_of_vec_apply _ _ p).trans ?_
  rw [pre4_of W main_arg1 (by decide) (by decide) (by decide) (by decide)]

/-- Column 2 of the packed features is the one column of the inverse square roots of the clipped degrees. -/
theorem pre_v17_col2 (W : Valuation τ sig (Elt Ideal)) (p : Fin 1000000) :
    (Vpre W (Proc.devRef .tc main_v17) : S1000000x3.Idx → EReal) (ix2 p (2 : Fin 3)) = (Vpre W (Proc.devRef .tc main_v11) : S1000000x1.Idx → EReal) (ix2 p (0 : Fin 1)) := by
  show StableHlo.after hostOps0_4 (StableHlo.after hostOps0_3 (StableHlo.after hostOps0_2 (StableHlo.after hostOps0_1 (StableHlo.after hostOps0 W)))) (Proc.devRef .tc main_v17) (ix2 p (2 : Fin 3))
    = StableHlo.after hostOps0_4 (StableHlo.after hostOps0_3 (StableHlo.after hostOps0_2 (StableHlo.after hostOps0_1 (StableHlo.after hostOps0 W)))) (Proc.devRef .tc main_v11) (ix2 p (0 : Fin 1))
  rw [hostOps0_4_cut, StableHlo.after_append, cut_v17, cut_v11]
  exact join3_col2_apply _ _ _ _ p

/-! ## The bias rows -/

/-- The bias row `main_v18` is the argument vector `main_arg7`. -/
theorem pre_v18 (W : Valuation τ sig (Elt Ideal)) (k : Fin 10) :
    (Vpre W (Proc.devRef .tc main_v18) : S1x10.Idx → EReal) (ix2 (0 : Fin 1) k) = (W (Proc.devRef .tc main_arg7) : S10.Idx → EReal) (ix1 k) := by
  show StableHlo.after hostOps0_4 (StableHlo.after hostOps0_3 (StableHlo.after hostOps0_2 (StableHlo.after hostOps0_1 (StableHlo.after hostOps0 W)))) (Proc.devRef .tc main_v18) (ix2 (0 : Fin 1) k) = _
  rw [last_v18]
  refine (Cert.LibRowBias.row_of_vec_apply _ _ k).trans ?_
  rw [pre4_of W main_arg7 (by decide) (by decide) (by decide) (by decide)]

/-- The bias row `main_v19` is the argument vector `main_arg13`. -/
theorem pre_v19 (W : Valuation τ sig (Elt Ideal)) (k : Fin 10) :
    (Vpre W (Proc.devRef .tc main_v19) : S1x10.Idx → EReal) (ix2 (0 : Fin 1) k) = (W (Proc.devRef .tc main_arg13) : S10.Idx → EReal) (ix1 k) := by
  show StableHlo.after hostOps0_4 (StableHlo.after hostOps0_3 (StableHlo.after hostOps0_2 (StableHlo.after hostOps0_1 (StableHlo.after hostOps0 W)))) (Proc.devRef .tc main_v19) (ix2 (0 : Fin 1) k) = _
  rw [last_v19]
  refine (Cert.LibRowBias.row_of_vec_apply _ _ k).trans ?_
  rw [pre4_of W main_arg13 (by decide) (by decide) (by decide) (by decide)]

/-- The bias row `main_v20` is the argument vector `main_arg15`. -/
theorem pre_v20 (W : Valuation τ sig (Elt Ideal)) (k : Fin 10) :
    (Vpre W (Proc.devRef .tc main_v20) : S1x10.Idx → EReal) (ix2 (0 : Fin 1) k) = (W (Proc.devRef .tc main_arg15) : S10.Idx → EReal) (ix1 k) := by
  show StableHlo.after hostOps0_4 (StableHlo.after hostOps0_3 (StableHlo.after hostOps0_2 (StableHlo.after hostOps0_1 (StableHlo.after hostOps0 W)))) (Proc.devRef .tc main_v20) (ix2 (0 : Fin 1) k) = _
  rw [last_v20]
  refine (Cert.LibRowBias.row_of_vec_apply _ _ k).trans ?_
  rw [pre4_of W main_arg15 (by decide) (by decide) (by decide) (by decide)]

/-- The bias row `main_v21` is the argument vector `main_arg17`. -/
theorem pre_v21 (W : Valuation τ sig (Elt Ideal)) (k : Fin 10) :
    (Vpre W (Proc.devRef .tc main_v21) : S1x10.Idx → EReal) (ix2 (0 : Fin 1) k) = (W (Proc.devRef .tc main_arg17) : S10.Idx → EReal) (ix1 k) := by
  show StableHlo.after hostOps0_4 (StableHlo.after hostOps0_3 (StableHlo.after hostOps0_2 (StableHlo.after hostOps0_1 (StableHlo.after hostOps0 W)))) (Proc.devRef .tc main_v21) (ix2 (0 : Fin 1) k) = _
  rw [last_v21]
  refine (Cert.LibRowBias.row_of_vec_apply _ _ k).trans ?_
  rw [pre4_of W main_arg17 (by decide) (by decide) (by decide) (by decide)]

/-- The one-cell bias `main_v22` is the one entry of `main_arg19`. -/
theorem pre_v22 (W : Valuation τ sig (Elt Ideal)) :
    (Vpre W (Proc.devRef .tc main_v22) : S1x1.Idx → EReal) (ix2 (0 : Fin 1) (0 : Fin 1)) = (W (Proc.devRef .tc main_arg19) : S1.Idx → EReal) (ix1 (0 : Fin 1)) := by
  show StableHlo.after hostOps0_4 (StableHlo.after hostOps0_3 (StableHlo.after hostOps0_2 (StableHlo.after hostOps0_1 (StableHlo.after hostOps0 W)))) (Proc.devRef .tc main_v22) (ix2 (0 : Fin 1) (0 : Fin 1)) = _
  rw [last_v22]
  refine (Cert.LibRowBias.row_of_vec_apply _ _ (0 : Fin 1)).trans ?_
  rw [pre4_of W main_arg19 (by decide) (by decide) (by decide) (by decide)]

end Cert.KernelIdeal.HostH

end
-- ==== Proof.Val.Glue.lean ====
/-
  The contents each launch is entered at, at the arrays the host stretches between the launches compute.

  Between the first and the second launch, and between the second and the third, the host gathers rows of the table the
  launch before wrote, scales them by the edge weights and adds them into zeros at the rows the other index array names.
  Read at the aggregated array, the contents the next launch is entered at are that one term of the previous launch's
  output and of three arguments; an argument's buffer is still as launched, because no stretch and no launch writes it.
  Every buffer a stretch does not write, other than the previous launch's output, is as before the first launch.
-/
import proofs.«116843_j64098091925532_2_alg».proof.Proof.KI.Run
import proofs.«116843_j64098091925532_2_alg».proof.Proof.Val.HostMid

noncomputable section

namespace Cert.KernelIdeal.HostH

open Idealize.ShloMosaic Idealize.ShloMosaic.TcCoe Idealize.SL.Sem
open Cert.KernelIdeal Cert.KernelIdeal.Gen

variable (m : (ℓ : Loc nD τ sig) → Buf (Elt Ideal) ℓ) (c : Dev nD)

/-- A buffer none of the five host stretches before the first launch writes holds, at the first launch, what it was
    launched with. -/
theorem V5_as_launched (r : Ref sig .tc) (h0 : r ∉ Gen.hostOps0_W) (h1 : r ∉ Gen.hostOps0_1_W) (h2 : r ∉ Gen.hostOps0_2_W)
    (h3 : r ∉ Gen.hostOps0_3_W) (h4 : r ∉ Gen.hostOps0_4_W) :
    Gen.V5 m c r = m ((c.tc : Thread nD τ).loc r) :=
  (Gen.V5_of m c r h4).trans <| (Gen.V4_of m c r h3).trans <| (Gen.V3_of m c r h2).trans <|
    (Gen.V2_of m c r h1).trans <| (Gen.V1_of m c r h0).trans rfl

/-- The second launch's entry contents at the aggregated array: the stretch's term of the first launch's table and the
    three arguments. -/
theorem entry1_v37 :
    FrameH.VA7 m c (Proc.devRef .tc main_v37)
      = MidA (FrameH.XA m c (Proc.devRef .tc main_v23)) (m ((c.tc : Thread nD τ).loc main_arg3))
          (m ((c.tc : Thread nD τ).loc main_arg4)) (m ((c.tc : Thread nD τ).loc main_arg5)) := by
  have e23 : Gen.V6 m (fun _ r c => FrameH.XA m c r) c (Proc.devRef .tc main_v23) = FrameH.XA m c (Proc.devRef .tc main_v23) := by
    simp only [Gen.V6, Function.update_self]
  have e3 : Gen.V6 m (fun _ r c => FrameH.XA m c r) c (Proc.devRef .tc main_arg3) = m ((c.tc : Thread nD τ).loc main_arg3) :=
    (Gen.V6_of m _ c main_arg3 (by decide)).trans
      (V5_as_launched m c main_arg3 (by decide) (by decide) (by decide) (by decide) (by decide))
  have e4 : Gen.V6 m (fun _ r c => FrameH.XA m c r) c (Proc.devRef .tc main_arg4) = m ((c.tc : Thread nD τ).loc main_arg4) :=
    (Gen.V6_of m _ c main_arg4 (by decide)).trans
      (V5_as_launched m c main_arg4 (by decide) (by decide) (by decide) (by decide) (by decide))
  have e5 : Gen.V6 m (fun _ r c => FrameH.XA m c r) c (Proc.devRef .tc main_arg5) = m ((c.tc : Thread nD τ).loc main_arg5) :=
    (Gen.V6_of m _ c main_arg5 (by decide)).trans
      (V5_as_launched m c main_arg5 (by decide) (by decide) (by decide) (by decide) (by decide))
  show StableHlo.after hostOps1 (Gen.V6 m (fun _ r c => FrameH.XA m c r) c) (Proc.devRef .tc main_v37) = _
  exact (hostOps1_v37 (Gen.V6 m (fun _ r c => FrameH.XA m c r) c)).trans
    (congr (congr (congr (congrArg MidA e23) e3) e4) e5)

/-- A buffer the stretch before the second launch does not write, other than the first launch's output, is at the
    second launch as at the first. -/
theorem entry1_keep (r : Ref sig .tc) (h1 : r ∉ Gen.hostOps1_W) (h2 : r ∉ ([main_v23] : List (Ref sig .tc))) :
    FrameH.VA7 m c r = Gen.V5 m c r :=
  (Gen.V7_of m (fun _ r c => FrameH.XA m c r) c r h1).trans (Gen.V6_of m (fun _ r c => FrameH.XA m c r) c r h2)

/-- The third launch's entry contents at the aggregated array: the stretch's term of the second launch's table and the
    three arguments, the two index arrays' roles exchanged. -/
theorem entry2_v52 :
    FrameH.VA9 m c (Proc.devRef .tc main_v52)
      = MidB (FrameH.XB m c (Proc.devRef .tc main_v38)) (m ((c.tc : Thread nD τ).loc main_arg3))
          (m ((c.tc : Thread nD τ).loc main_arg5)) (m ((c.tc : Thread nD τ).loc main_arg4)) := by
  have e38 : Gen.V8 m (fun n r c => match n with | 6 => FrameH.XA m c r | _ => FrameH.XB m c r) c (Proc.devRef .tc main_v38)
      = FrameH.XB m c (Proc.devRef .tc main_v38) := by
    simp only [Gen.V8, Function.update_self]
  have e3 : Gen.V8 m (fun n r c => match n with | 6 => FrameH.XA m c r | _ => FrameH.XB m c r) c (Proc.devRef .tc main_arg3)
      = m ((c.tc : Thread nD τ).loc main_arg3) :=
    (Gen.V8_of m _ c main_arg3 (by decide)).trans <| (Gen.V7_of m _ c main_arg3 (by decide)).trans <|
      (Gen.V6_of m _ c main_arg3 (by decide)).trans
        (V5_as_launched m c main_arg3 (by decide) (by decide) (by decide) (by decide) (by decide))
  have e4 : Gen.V8 m (fun n r c => match n with | 6 => FrameH.XA m c r | _ => FrameH.XB m c r) c (Proc.devRef .tc main_arg4)
      = m ((c.tc : Thread nD τ).loc main_arg4) :=
    (Gen.V8_of m _ c main_arg4 (by decide)).trans <| (Gen.V7_of m _ c main_arg4 (by decide)).trans <|
      (Gen.V6_of m _ c main_arg4 (by decide)).trans
        (V5_as_launched m c main_arg4 (by decide) (by decide) (by decide) (by decide) (by decide))
  have e5 : Gen.V8 m (fun n r c => match n with | 6 => FrameH.XA m c r | _ => FrameH.XB m c r) c (Proc.devRef .tc main_arg5)
      = m ((c.tc : Thread nD τ).loc main_arg5) :=
    (Gen.V8_of m _ c main_arg5 (by decide)).trans <| (Gen.V7_of m _ c main_arg5 (by decide)).trans <|
      (Gen.V6_of m _ c main_arg5 (by decide)).trans
        (V5_as_launched m c main_arg5 (by decide) (by decide) (by decide) (by decide) (by decide))
  show StableHlo.after hostOps2 (Gen.V8 m (fun n r c => match n with | 6 => FrameH.XA m c r | _ => FrameH.XB m c r) c)
      (Proc.devRef .tc main_v52) = _
  exact (hostOps2_v52 (Gen.V8 m (fun n r c => match n with | 6 => FrameH.XA m c r | _ => FrameH.XB m c r) c)).trans
    (congr (congr (congr (congrArg MidB e38) e3) e5) e4)

/-- A buffer neither stretch between the launches writes, other than the first two launches' outputs, is at the third
    launch as at the first. -/
theorem entry2_keep (r : Ref sig .tc) (h1 : r ∉ Gen.hostOps2_W) (h2 : r ∉ ([main_v38] : List (Ref sig .tc)))
    (h3 : r ∉ Gen.hostOps1_W) (h4 : r ∉ ([main_v23] : List (Ref sig .tc))) :
    FrameH.VA9 m c r = Gen.V5 m c r :=
  (Gen.V9_of m (fun n r c => match n with | 6 => FrameH.XA m c r | _ => FrameH.XB m c r) c r h1).trans <|
    (Gen.V8_of m (fun n r c => match n with | 6 => FrameH.XA m c r | _ => FrameH.XB m c r) c r h2).trans <|
      (Gen.V7_of m (fun n r c => match n with | 6 => FrameH.XA m c r | _ => FrameH.XB m c r) c r h3).trans
        (Gen.V6_of m (fun n r c => match n with | 6 => FrameH.XA m c r | _ => FrameH.XB m c r) c r h4)

end Cert.KernelIdeal.HostH

end
-- ==== Proof.Val.Bridge.lean ====
/-
  The bridge: the kernel program's result cell is the reference's.

  Walking the kernel program from its arguments: the host prefix computes the two degree scales and packs the features;
  the first launch's output array is the first table (the explicit row formula, which is the reference's stage
  `val_main_v31`); the gather / weighted scatter-add stretch applied to equal tables gives the reference's first
  aggregation `val_main_v44`; the second launch's output array is the reference's second table `val_main_v53`; the reverse
  stretch gives the second aggregation `val_main_v66`; and the third launch's cell — fifty tile sums accumulated, divided
  by the number of rows — is the reference's mean `val_main_v90`.
-/
import proofs.«116843_j64098091925532_2_alg».proof.Proof.KI.Run
import proofs.«116843_j64098091925532_2_alg».proof.Proof.KI.R2Acc
import proofs.«116843_j64098091925532_2_alg».proof.Proof.Val.Launch0
import proofs.«116843_j64098091925532_2_alg».proof.Proof.Val.Launch1
import proofs.«116843_j64098091925532_2_alg».proof.Proof.Val.Launch2Glue
import proofs.«116843_j64098091925532_2_alg».proof.Proof.Val.Ref0
import proofs.«116843_j64098091925532_2_alg».proof.Proof.Val.Ref1
import proofs.«116843_j64098091925532_2_alg».proof.Proof.Val.Ref2
import proofs.«116843_j64098091925532_2_alg».proof.Proof.Val.HostMid
import proofs.«116843_j64098091925532_2_alg».proof.Proof.Val.HostDeg
import proofs.«116843_j64098091925532_2_alg».proof.Proof.Val.HostPre
import proofs.«116843_j64098091925532_2_alg».proof.Proof.Val.Glue

noncomputable section

namespace Cert.KernelIdeal.BridgeH

open Idealize.ShloMosaic Idealize.ShloMosaic.TcCoe Idealize.SL.Sem Idealize.ShloMosaic.ValueIdx
open Cert.KernelIdeal Cert.KernelIdeal.Gen Cert.KernelIdeal.FrameH Cert.KernelIdeal.HostH

variable (m : (ℓ : Loc nD τ sig) → Buf (Elt Ideal) ℓ) (c : Dev nD)

/-- The launch memory at a TensorCore buffer. -/
abbrev ar (r : Ref sig .tc) : Buf (Elt Ideal) ((c.tc : Thread nD τ).loc r) := m ((c.tc : Thread nD τ).loc r)

/-- The contents the first launch is entered at are the host prefix run from the launch memory. -/
theorem V5_pre : Gen.V5 m c = Vpre (Gen.V0 m c) := rfl

/-- The first launch's output array is the reference's first table. -/
theorem tab0_ref : (XA m c (Proc.devRef .tc main_v23) : S1000000x10.Idx → EReal)
    = Cert.ReferenceIdeal.Read.val_main_v31 (F := Ideal) (ar m c main_arg0) (ar m c main_arg1) (ar m c main_arg4) (ar m c main_arg6) (ar m c main_arg7) (ar m c main_arg12) := by
  have hx : XA m c (Proc.devRef .tc main_v23) = (dat0 (atTc (Gen.V5 m)) c).arrAt 4 cfg0.N := XA_arr m c 4
  have hf := ValH.final0 (atTc (Gen.V5 m)) c (dat0 (atTc (Gen.V5 m)) c) (A_eq0 (atTc (Gen.V5 m)) c) (after0_4 (atTc (Gen.V5 m)) c)
  have e6 : atTc (Gen.V5 m) c main_arg6 = ar m c main_arg6 := pre_arg6 (Gen.V0 m c)
  have e12 : atTc (Gen.V5 m) c main_arg12 = ar m c main_arg12 := pre_arg12 (Gen.V0 m c)
  rw [hx, hf, e6, e12]
  exact RefH.table0_eq _ _ _ _ _ _ _ _
    (fun p => pre_v17_col0 (Gen.V0 m c) p) (fun p => pre_v17_col1 (Gen.V0 m c) p)
    (fun p => (pre_v17_col2 (Gen.V0 m c) p).trans (congrFun (pre_v11 (Gen.V0 m c)) _))
    (fun k => pre_v18 (Gen.V0 m c) k)

/-- The first aggregation: the gather / weighted scatter-add stretch on equal tables. -/
theorem agg1_ref : (VA7 m c (Proc.devRef .tc main_v37) : S500000x10.Idx → EReal)
    = Cert.ReferenceIdeal.Read.val_main_v44 (F := Ideal) (ar m c main_arg0) (ar m c main_arg1) (ar m c main_arg3) (ar m c main_arg4) (ar m c main_arg5) (ar m c main_arg6) (ar m c main_arg7) (ar m c main_arg12) :=
  (congrArg (fun x => (x : S500000x10.Idx → EReal)) (entry1_v37 m c)).trans
    (MidA_eq_ref _ _ _ _ _ _ _ _ _ (tab0_ref m c))

/-- The second launch's output array is the reference's second table. -/
theorem tab1_ref : (XB m c (Proc.devRef .tc main_v38) : S500000x10.Idx → EReal)
    = Cert.ReferenceIdeal.Read.val_main_v53 (F := Ideal) (ar m c main_arg0) (ar m c main_arg1) (ar m c main_arg3) (ar m c main_arg4) (ar m c main_arg5) (ar m c main_arg6) (ar m c main_arg7) (ar m c main_arg12) (ar m c main_arg13) := by
  have hx : XB m c (Proc.devRef .tc main_v38) = (dat1 (atTc (VA7 m)) c).arrAt 4 cfg1.N := XB_arr m c 4
  have hf := ValH.final1 (atTc (VA7 m)) c (dat1 (atTc (VA7 m)) c) (A_eq1 (atTc (VA7 m)) c) (after1_4 (atTc (VA7 m)) c)
  have e12 : atTc (VA7 m) c main_arg12 = ar m c main_arg12 :=
    (entry1_keep m c main_arg12 (by decide) (by decide)).trans (pre_arg12 (Gen.V0 m c))
  have e14 : (atTc (VA7 m) c main_v14 : S500000x1.Idx → EReal) = Cert.ReferenceIdeal.Read.val_main_v14 (F := Ideal) (ar m c main_arg5) :=
    (congrArg (fun x => (x : S500000x1.Idx → EReal)) (entry1_keep m c main_v14 (by decide) (by decide))).trans (pre_v14 (Gen.V0 m c))
  have e19 : ∀ k : Fin 10, (atTc (VA7 m) c main_v19 : S1x10.Idx → EReal) (ix2 (0 : Fin 1) k) = ar m c main_arg13 (ix1 k) := fun k =>
    (congrFun (congrArg (fun x => (x : S1x10.Idx → EReal)) (entry1_keep m c main_v19 (by decide) (by decide))) _).trans (pre_v19 (Gen.V0 m c) k)
  rw [hx, hf, e12]
  exact RefH.table1_eq _ _ _ _ _ _ _ _ _ _ _ _ (agg1_ref m c) e14 e19

/-- The second aggregation. -/
theorem agg2_ref : (VA9 m c (Proc.devRef .tc main_v52) : S1000000x10.Idx → EReal)
    = Cert.ReferenceIdeal.Read.val_main_v66 (F := Ideal) (ar m c main_arg0) (ar m c main_arg1) (ar m c main_arg3) (ar m c main_arg4) (ar m c main_arg5) (ar m c main_arg6) (ar m c main_arg7) (ar m c main_arg12) (ar m c main_arg13) :=
  (congrArg (fun x => (x : S1000000x10.Idx → EReal)) (entry2_v52 m c)).trans
    (MidB_eq_ref _ _ _ _ _ _ _ _ _ _ (tab1_ref m c))

/-- The kernel program's result cell is the reference's. -/
theorem result_ref : (Gen.V10 m (outs m) c main_v53 : S1x1.Idx → EReal)
    = Cert.ReferenceIdeal.Read.val_main_v90 (F := Ideal) (ar m c main_arg0) (ar m c main_arg1) (ar m c main_arg3) (ar m c main_arg4) (ar m c main_arg5) (ar m c main_arg6) (ar m c main_arg7) (ar m c main_arg12) (ar m c main_arg13) (ar m c main_arg14) (ar m c main_arg15) (ar m c main_arg16) (ar m c main_arg17) (ar m c main_arg18) (ar m c main_arg19) := by
  have hf := ValL2.final2 (atTc (VA9 m)) c (dat2 (atTc (VA9 m)) c) (outsAt2 (atTc (VA9 m)) c)
    (fun h => scratch2_zero (atTc (VA9 m)) c h) (fun n h => scratch2_succ (atTc (VA9 m)) c n h)
    (fun h => out2_last (atTc (VA9 m)) c h) (fun t => after2_9 (atTc (VA9 m)) c t)
  have keep : ∀ (r : Ref sig .tc), r ∉ hostOps2_W → r ∉ ([main_v38] : List (Ref sig .tc)) → r ∉ hostOps1_W → r ∉ ([main_v23] : List (Ref sig .tc)) →
      VA9 m c r = Gen.V5 m c r := fun r h1 h2 h3 h4 => entry2_keep m c r h1 h2 h3 h4
  have e14 : atTc (VA9 m) c main_arg14 = ar m c main_arg14 := (keep main_arg14 (by decide) (by decide) (by decide) (by decide)).trans (pre_arg14 (Gen.V0 m c))
  have e16 : atTc (VA9 m) c main_arg16 = ar m c main_arg16 := (keep main_arg16 (by decide) (by decide) (by decide) (by decide)).trans (pre_arg16 (Gen.V0 m c))
  have e18 : atTc (VA9 m) c main_arg18 = ar m c main_arg18 := (keep main_arg18 (by decide) (by decide) (by decide) (by decide)).trans (pre_arg18 (Gen.V0 m c))
  have e11 : (atTc (VA9 m) c main_v11 : S1000000x1.Idx → EReal) = Cert.ReferenceIdeal.Read.val_main_v11 (F := Ideal) (ar m c main_arg4) :=
    (congrArg (fun x => (x : S1000000x1.Idx → EReal)) (keep main_v11 (by decide) (by decide) (by decide) (by decide))).trans (pre_v11 (Gen.V0 m c))
  have e19 : ∀ k : Fin 10, (atTc (VA9 m) c main_v19 : S1x10.Idx → EReal) (ix2 (0 : Fin 1) k) = ar m c main_arg13 (ix1 k) := fun k =>
    (congrFun (congrArg (fun x => (x : S1x10.Idx → EReal)) (keep main_v19 (by decide) (by decide) (by decide) (by decide))) _).trans (pre_v19 (Gen.V0 m c) k)
  have e20 : ∀ k : Fin 10, (atTc (VA9 m) c main_v20 : S1x10.Idx → EReal) (ix2 (0 : Fin 1) k) = ar m c main_arg15 (ix1 k) := fun k =>
    (congrFun (congrArg (fun x => (x : S1x10.Idx → EReal)) (keep main_v20 (by decide) (by decide) (by decide) (by decide))) _).trans (pre_v20 (Gen.V0 m c) k)
  have e21 : ∀ k : Fin 10, (atTc (VA9 m) c main_v21 : S1x10.Idx → EReal) (ix2 (0 : Fin 1) k) = ar m c main_arg17 (ix1 k) := fun k =>
    (congrFun (congrArg (fun x => (x : S1x10.Idx → EReal)) (keep main_v21 (by decide) (by decide) (by decide) (by decide))) _).trans (pre_v21 (Gen.V0 m c) k)
  have e22 : (atTc (VA9 m) c main_v22 : S1x1.Idx → EReal) (ix2 (0 : Fin 1) (0 : Fin 1)) = ar m c main_arg19 (ix1 (0 : Fin 1)) :=
    (congrFun (congrArg (fun x => (x : S1x1.Idx → EReal)) (keep main_v22 (by decide) (by decide) (by decide) (by decide))) _).trans (pre_v22 (Gen.V0 m c))
  rw [result_eq m c, hf, e14, e16, e18]
  exact RefH.result2_eq _ _ _ _ _ _ _ _ _ _ _ _ _ _ _ _ _ _ _ _ _ (agg2_ref m c) e11 e19 e20 e21 e22

end Cert.KernelIdeal.BridgeH

end
-- ==== Proof.lean ====
/-
  The certificate of a three-launch graph-network kernel against its array-level reference.

  The kernel computes, for a bipartite graph with 1,000,000 variable nodes, 500,000 constraint nodes and 16,000,000
  weighted edges: the degree scales of both sides (inverse square roots of clipped degree counts); a first launch over
  50 row tiles that embeds the variable nodes (two features through a 2 × 10 weight, bias, rectifier), scales the rows
  and applies the shared 10 × 10 map; a host stretch that gathers those rows along the edges, weights them and adds them
  up per constraint node; a second launch over 50 tiles (bias, rectifier, scaling, the shared map again); the reverse
  gather / weighted scatter-add back to the variable nodes; and a third launch over 50 tiles that applies bias, rectifier
  and a three-layer network to every row and accumulates the rows' logits tile by tile in a one-cell scratch, dividing
  by the number of rows at the last tile. The reference computes the same by whole-array operations.

  Over the extended reals every operation is the exact one, a change of float format is the identity, and addition is
  commutative and associative, so the only difference between the two programs — fifty partial sums of 20,000 rows
  against one sum of 1,000,000 — disappears; the gathers and scatter-adds are the same operations on both sides and are
  carried as they are, applied to equal tables. The precondition (finite inputs) is not needed for the equality.

  The frames: each kernel program runs as its host stretches and three launches in sequence; every launch's body is run
  symbolically on whole staging buffers, the third one case by case (first tile, middle tiles, last tile) with the
  accumulator carried in the launch's invariant; no stretch and no launch writes an argument.
-/
import proofs.«116843_j64098091925532_2_alg».proof.Defs
import proofs.«116843_j64098091925532_2_alg».proof.Proof.Gen.Kernel
import proofs.«116843_j64098091925532_2_alg».proof.Proof.Gen.KernelIdeal
import proofs.«116843_j64098091925532_2_alg».proof.Proof.Gen.ReferenceIdeal
import proofs.«116843_j64098091925532_2_alg».proof.Proof.Gen.Pre_finite_inputs
import proofs.«116843_j64098091925532_2_alg».proof.Proof.Gen.ReferenceIdeal.Run
import proofs.«116843_j64098091925532_2_alg».proof.Proof.K.Run
import proofs.«116843_j64098091925532_2_alg».proof.Proof.KI.Run
import proofs.«116843_j64098091925532_2_alg».proof.Proof.Val.Bridge
import Idealize.ShloMosaic.Adequacy
import Idealize.ShloMosaic.Init

noncomputable section

namespace Cert.Proof

open Idealize.ShloMosaic Idealize.SL.Sem

/-- The word-level kernel program runs to the end, faults nowhere, and leaves its arguments unchanged. -/
theorem frame_k : Cert.frame_Kernel := fun m ρ _ => Cert.Kernel.FrameH.frame (F := Bits) m ρ

/-- The same for the kernel program read over the extended reals. -/
theorem frame_ki : Cert.frame_KernelIdeal := fun m ρ _ => Cert.KernelIdeal.FrameH.frame (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories agreeing on the arguments both programs run, and the kernel's result cell — the mean accumulated tile
    by tile — is the reference's, the mean over all rows at once. -/
theorem algebraic : Cert.algebraic_KernelIdeal_ReferenceIdeal := by
  intro m ρ m' ρ' _ hagree
  refine ⟨fun c => Cert.KernelIdeal.Gen.V10 m (Cert.KernelIdeal.FrameH.outs m) c (Proc.devRef .tc Cert.KernelIdeal.main_v53),
    Cert.KernelIdeal.FrameH.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v90_eq, h0, h1, h3, h4, h5, h6, h7, h12, h13, h14, h15, h16, h17, h18, h19]
  exact (Cert.KernelIdeal.BridgeH.result_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
